-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x300000 : Shape := ⟨2, ![2, 300000]⟩
abbrev S256x256 : Shape := ⟨2, ![256, 256]⟩
abbrev S256 : Shape := ⟨1, ![256]⟩
abbrev S512 : Shape := ⟨1, ![512]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512 : S_.BroadcastsInDim S512 (![] : Fin 0 → Fin S512.rank)
  reducesTo_S512_S_d0 : S512.ReducesTo [0] S_

variable [Facts]

def fn_part2 {F : FTy → Type} [FloatOps F] (main_arg9 : FVec F S512 .f32) (main_arg10 : FVec F S512 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg6 : FVec F S256x256 .f32) (main_arg7 : FVec F S256x256 .f32) (main_arg8 : FVec F S256 .f32) (main_arg9 : FVec F S512 .f32) (main_arg10 : FVec F S512 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x256 .f32) (main_arg1 : IVec S2x300000 32) (main_arg2 : IVec S2x300000 32) (main_arg3 : FVec F S256x256 .f32) (main_arg4 : FVec F S256x256 .f32) (main_arg5 : FVec F S256 .f32) (main_arg6 : FVec F S256x256 .f32) (main_arg7 : FVec F S256x256 .f32) (main_arg8 : FVec F S256 .f32) (main_arg9 : FVec F S512 .f32) (main_arg10 : FVec F S512 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_v13 main_v16
-- ==== Kernel.lean ====
abbrev S50000x256 : Shape := ⟨2, ![50000, 256]⟩
abbrev S2x300000 : Shape := ⟨2, ![2, 300000]⟩
abbrev S256x256 : Shape := ⟨2, ![256, 256]⟩
abbrev S256 : Shape := ⟨1, ![256]⟩
abbrev S512 : Shape := ⟨1, ![512]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S50000 : Shape := ⟨1, ![50000]⟩
abbrev S50000x1 : Shape := ⟨2, ![50000, 1]⟩
abbrev S1x256 : Shape := ⟨2, ![1, 256]⟩
abbrev S50000x512 : Shape := ⟨2, ![50000, 512]⟩
abbrev S25x8x512 : Shape := ⟨3, ![25, 8, 512]⟩
abbrev S2000x256 : Shape := ⟨2, ![2000, 256]⟩
abbrev S2000x512 : Shape := ⟨2, ![2000, 512]⟩
abbrev S1x8x512 : Shape := ⟨3, ![1, 8, 512]⟩
abbrev S1x512 : Shape := ⟨2, ![1, 512]⟩
abbrev S1x1x512 : Shape := ⟨3, ![1, 1, 512]⟩

abbrev nBuf : Space → Nat
  | .hbm => 98
  | .vmem => 26
  | .smem => 0
  | _ => 0

abbrev bufTy : (tb : Table) → Fin (tcTables nBuf tb) → BufTy
  | .hbm, ⟨0, _⟩ => ⟨S50000x256, .f32⟩
  | .hbm, ⟨1, _⟩ => ⟨S2x300000, .i32⟩
  | .hbm, ⟨2, _⟩ => ⟨S2x300000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S512, .f32⟩
  | .hbm, ⟨10, _⟩ => ⟨S512, .f32⟩
  | .hbm, ⟨11, _⟩ => ⟨S1x300000, .i32⟩
  | .hbm, ⟨12, _⟩ => ⟨S300000, .i32⟩
  | .hbm, ⟨13, _⟩ => ⟨S1x300000, .i32⟩
  | .hbm, ⟨14, _⟩ => ⟨S300000, .i32⟩
  | .hbm, ⟨15, _⟩ => ⟨S_, .i32⟩
  | .hbm, ⟨16, _⟩ => ⟨S300000, .i32⟩
  | .hbm, ⟨17, _⟩ => ⟨S300000, .i1⟩
  | .hbm, ⟨18, _⟩ => ⟨S_, .i32⟩
  | .hbm, ⟨19, _⟩ => ⟨S300000, .i32⟩
  | .hbm, ⟨20, _⟩ => ⟨S300000, .i32⟩
  | .hbm, ⟨21, _⟩ => ⟨S300000, .i32⟩
  | .hbm, ⟨22, _⟩ => ⟨S300000x1, .i32⟩
  | .hbm, ⟨23, _⟩ => ⟨S300000x256, .f32⟩
  | .hbm, ⟨24, _⟩ => ⟨S_, .f32⟩
  | .hbm, ⟨25, _⟩ => ⟨S50000x256, .f32⟩
  | .hbm, ⟨26, _⟩ => ⟨S300000x1, .i32⟩
  | .hbm, ⟨27, _⟩ => ⟨S50000x256, .f32⟩
  | .hbm, ⟨28, _⟩ => ⟨S_, .f32⟩
  | .hbm, ⟨29, _⟩ => ⟨S300000, .f32⟩
  | .hbm, ⟨30, _⟩ => ⟨S_, .f32⟩
  | .hbm, ⟨31, _⟩ => ⟨S50000, .f32⟩
  | .hbm, ⟨32, _⟩ => ⟨S300000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x256, .f32⟩
  | .hbm, ⟨39, _⟩ => ⟨S50000x256, .f32⟩
  | .hbm, ⟨40, _⟩ => ⟨S1x300000, .i32⟩
  | .hbm, ⟨41, _⟩ => ⟨S300000, .i32⟩
  | .hbm, ⟨42, _⟩ => ⟨S1x300000, .i32⟩
  | .hbm, ⟨43, _⟩ => ⟨S300000, .i32⟩
  | .hbm, ⟨44, _⟩ => ⟨S_, .i32⟩
  | .hbm, ⟨45, _⟩ => ⟨S300000, .i32⟩
  | .hbm, ⟨46, _⟩ => ⟨S300000, .i1⟩
  | .hbm, ⟨47, _⟩ => ⟨S_, .i32⟩
  | .hbm, ⟨48, _⟩ => ⟨S300000, .i32⟩
  | .hbm, ⟨49, _⟩ => ⟨S300000, .i32⟩
  | .hbm, ⟨50, _⟩ => ⟨S300000, .i32⟩
  | .hbm, ⟨51, _⟩ => ⟨S300000x1, .i32⟩
  | .hbm, ⟨52, _⟩ => ⟨S300000x256, .f32⟩
  | .hbm, ⟨53, _⟩ => ⟨S_, .f32⟩
  | .hbm, ⟨54, _⟩ => ⟨S50000x256, .f32⟩
  | .hbm, ⟨55, _⟩ => ⟨S300000x1, .i32⟩
  | .hbm, ⟨56, _⟩ => ⟨S50000x256, .f32⟩
  | .hbm, ⟨57, _⟩ => ⟨S_, .f32⟩
  | .hbm, ⟨58, _⟩ => ⟨S300000, .f32⟩
  | .hbm, ⟨59, _⟩ => ⟨S_, .f32⟩
  | .hbm, ⟨60, _⟩ => ⟨S50000, .f32⟩
  | .hbm, ⟨61, _⟩ => ⟨S300000x1, .i32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x256, .f32⟩
  | .hbm, ⟨68, _⟩ => ⟨S50000x256, .f32⟩
  | .hbm, ⟨69, _⟩ => ⟨S1x256, .f32⟩
  | .hbm, ⟨70, _⟩ => ⟨S1x256, .f32⟩
  | .hbm, ⟨71, _⟩ => ⟨S50000x512, .f32⟩
  | .hbm, ⟨72, _⟩ => ⟨S25x8x512, .f32⟩
  | .hbm, ⟨73, _⟩ => ⟨S25x8x512, .f32⟩
  | .hbm, ⟨74, _⟩ => ⟨S_, .f32⟩
  | .hbm, ⟨75, _⟩ => ⟨S512, .f32⟩
  | .hbm, ⟨76, _⟩ => ⟨S_, .f32⟩
  | .hbm, ⟨77, _⟩ => ⟨S512, .f32⟩
  | .hbm, ⟨78, _⟩ => ⟨S_, .f32⟩
  | .hbm, ⟨79, _⟩ => ⟨S512, .f32⟩
  | .hbm, ⟨80, _⟩ => ⟨S512, .f32⟩
  | .hbm, ⟨81, _⟩ => ⟨S_, .f32⟩
  | .hbm, ⟨82, _⟩ => ⟨S512, .f32⟩
  | .hbm, ⟨83, _⟩ => ⟨S512, .f32⟩
  | .hbm, ⟨84, _⟩ => ⟨S512, .f32⟩
  | .hbm, ⟨85, _⟩ => ⟨S512, .f32⟩
  | .hbm, ⟨86, _⟩ => ⟨S_, .f32⟩
  | .hbm, ⟨87, _⟩ => ⟨S512, .f32⟩
  | .hbm, ⟨88, _⟩ => ⟨S512, .f32⟩
  | .hbm, ⟨89, _⟩ => ⟨S_, .f32⟩
  | .hbm, ⟨90, _⟩ => ⟨S512, .f32⟩
  | .hbm, ⟨91, _⟩ => ⟨S512, .f32⟩
  | .hbm, ⟨92, _⟩ => ⟨S512, .f32⟩
  | .hbm, ⟨93, _⟩ => ⟨S1x512, .f32⟩
  | .hbm, ⟨94, _⟩ => ⟨S1x512, .f32⟩
  | .hbm, ⟨95, _⟩ => ⟨S1x512, .f32⟩
  | .hbm, ⟨96, _⟩ => ⟨S1x512, .f32⟩
  | .hbm, ⟨97, _⟩ => ⟨S50000x512, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S256x256, .f32⟩
  | .local _ .vmem, ⟨10, _⟩ => ⟨S256x256, .f32⟩
  | .local _ .vmem, ⟨11, _⟩ => ⟨S1x256, .f32⟩
  | .local _ .vmem, ⟨12, _⟩ => ⟨S2000x512, .f32⟩
  | .local _ .vmem, ⟨13, _⟩ => ⟨S2000x512, .f32⟩
  | .local _ .vmem, ⟨14, _⟩ => ⟨S1x8x512, .f32⟩
  | .local _ .vmem, ⟨15, _⟩ => ⟨S1x8x512, .f32⟩
  | .local _ .vmem, ⟨16, _⟩ => ⟨S1x8x512, .f32⟩
  | .local _ .vmem, ⟨17, _⟩ => ⟨S1x8x512, .f32⟩
  | .local _ .vmem, ⟨18, _⟩ => ⟨S2000x512, .f32⟩
  | .local _ .vmem, ⟨19, _⟩ => ⟨S2000x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S2000x512, .f32⟩
  | .local _ .vmem, ⟨25, _⟩ => ⟨S2000x512, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev main_v48_2 : Ref sig .tc := ⟨.hbm, 73, rfl⟩
abbrev main_cst_10 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_cst_13 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_v58 : Ref sig .tc := ⟨.hbm, 88, rfl⟩
abbrev main_cst_15 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  concatenates_S2000x256_S2000x256_S2000x512_d1 : Shape.Concatenates [S2000x256, S2000x256] S2000x512 1
  inb_S2000x512_S2000x512_0_0 : ∀ a, (![0, 0] : Fin 2 → Nat) a + S2000x512.size a ≤ S2000x512.size a
  h_S2000x512 : 0 < S2000x512.numel
  reduces_S2000x512_S512 : S2000x512.Reduces [0] S512
  shapeCasts_S512_S1x512 : S512.ShapeCasts S1x512
  shapeCasts_S1x512_S1x1x512 : S1x512.ShapeCasts S1x1x512
  shapeCasts_S1x1x512_S1x1x512 : S1x1x512.ShapeCasts S1x1x512
  broadcasts_S1x1x512_S1x8x512 : S1x1x512.Broadcasts S1x8x512
  inb_S1x8x512_S1x8x512_0_0_0 : ∀ a, (![0, 0, 0] : Fin 3 → Nat) a + S1x8x512.size a ≤ S1x8x512.size a
  h_S1x8x512 : 0 < S1x8x512.numel
  reducesTo_S25x8x512_S512_d0_1 : S25x8x512.ReducesTo [0, 1] S512
  h_S_ : 0 < S_.numel
  bcast_S_S512 : S_.BroadcastsInDim S512 (![] : Fin 0 → Fin S512.rank)
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  scatter_S50000_S300000x1_S300000_n_0_0_1_wf : ScatterDims.WF S50000 S300000x1 S300000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x512.size a ≤ S50000x512.size a
  hwx0_9 : ∀ i : grid0.Coords, EltTy.bits .f32 = 32 ∨ (Rect.block (s := S50000x512) S2000x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x8x512.size a ≤ S25x8x512.size a
  hwx0_10 : ∀ i : grid0.Coords, EltTy.bits .f32 = 32 ∨ (Rect.block (s := S25x8x512) S1x8x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x8x512.size a ≤ S25x8x512.size a
  hwx0_11 : ∀ i : grid0.Coords, EltTy.bits .f32 = 32 ∨ (Rect.block (s := S25x8x512) S1x8x512.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S50000x512.size a
  hwx1_5 : ∀ i : grid1.Coords, EltTy.bits .f32 = 32 ∨ (Rect.block (s := S50000x512) S2000x512.size (cc1_transform_5 i) (hinb1_5 i)).WholeWords (EltTy.packing .f32)

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v47) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v48_0) S2000x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v48_1) S1x8x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v48_2) S1x8x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v48_0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v66) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where
  halias1_5 : Pipeline.Aliased win1 0 5

variable [Facts]
-- ==== ReferenceIdeal.lean ====
abbrev S50000x256 : Shape := ⟨2, ![50000, 256]⟩
abbrev S2x300000 : Shape := ⟨2, ![2, 300000]⟩
abbrev S256x256 : Shape := ⟨2, ![256, 256]⟩
abbrev S256 : Shape := ⟨1, ![256]⟩
abbrev S512 : Shape := ⟨1, ![512]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S50000 : Shape := ⟨1, ![50000]⟩
abbrev S50000x1 : Shape := ⟨2, ![50000, 1]⟩
abbrev S1x256 : Shape := ⟨2, ![1, 256]⟩
abbrev S50000x512 : Shape := ⟨2, ![50000, 512]⟩
abbrev S1x512 : Shape := ⟨2, ![1, 512]⟩

abbrev nBuf : Space → Nat
  | .hbm => 129
  | .vmem => 0
  | .smem => 0
  | _ => 0

abbrev hbmTy0_0 (i : Nat) : BufTy := match i % 128 with
  | 0 => ⟨S50000x256, .f32⟩
  | 1 => ⟨S2x300000, .i32⟩
  | 2 => ⟨S2x300000, .i32⟩
  | 3 => ⟨S256x256, .f32⟩
  | 4 => ⟨S256x256, .f32⟩
  | 5 => ⟨S256, .f32⟩
  | 6 => ⟨S256x256, .f32⟩
  | 7 => ⟨S256x256, .f32⟩
  | 8 => ⟨S256, .f32⟩
  | 9 => ⟨S512, .f32⟩
  | 10 => ⟨S512, .f32⟩
  | 11 => ⟨S1x300000, .i32⟩
  | 12 => ⟨S300000, .i32⟩
  | 13 => ⟨S1x300000, .i32⟩
  | 14 => ⟨S300000, .i32⟩
  | 15 => ⟨S_, .i32⟩
  | 16 => ⟨S300000, .i32⟩
  | 17 => ⟨S300000, .i1⟩
  | 18 => ⟨S_, .i32⟩
  | 19 => ⟨S300000, .i32⟩
  | 20 => ⟨S300000, .i32⟩
  | 21 => ⟨S300000, .i32⟩
  | 22 => ⟨S300000x1, .i32⟩
  | 23 => ⟨S300000x256, .f32⟩
  | 24 => ⟨S_, .f32⟩
  | 25 => ⟨S50000x256, .f32⟩
  | 26 => ⟨S300000x1, .i32⟩
  | 27 => ⟨S50000x256, .f32⟩
  | 28 => ⟨S_, .f32⟩
  | 29 => ⟨S300000, .f32⟩
  | 30 => ⟨S_, .f32⟩
  | 31 => ⟨S50000, .f32⟩
  | 32 => ⟨S300000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x256, .f32⟩
  | 39 => ⟨S50000x256, .f32⟩
  | 40 => ⟨S50000x256, .f32⟩
  | 41 => ⟨S50000x256, .f32⟩
  | 42 => ⟨S50000x256, .f32⟩
  | 43 => ⟨S1x256, .f32⟩
  | 44 => ⟨S50000x256, .f32⟩
  | 45 => ⟨S50000x256, .f32⟩
  | 46 => ⟨S1x300000, .i32⟩
  | 47 => ⟨S300000, .i32⟩
  | 48 => ⟨S1x300000, .i32⟩
  | 49 => ⟨S300000, .i32⟩
  | 50 => ⟨S_, .i32⟩
  | 51 => ⟨S300000, .i32⟩
  | 52 => ⟨S300000, .i1⟩
  | 53 => ⟨S_, .i32⟩
  | 54 => ⟨S300000, .i32⟩
  | 55 => ⟨S300000, .i32⟩
  | 56 => ⟨S300000, .i32⟩
  | 57 => ⟨S300000x1, .i32⟩
  | 58 => ⟨S300000x256, .f32⟩
  | 59 => ⟨S_, .f32⟩
  | 60 => ⟨S50000x256, .f32⟩
  | 61 => ⟨S300000x1, .i32⟩
  | 62 => ⟨S50000x256, .f32⟩
  | 63 => ⟨S_, .f32⟩
  | 64 => ⟨S300000, .f32⟩
  | 65 => ⟨S_, .f32⟩
  | 66 => ⟨S50000, .f32⟩
  | 67 => ⟨S300000x1, .i32⟩
  | 68 => ⟨S50000, .f32⟩
  | 69 => ⟨S_, .f32⟩
  | 70 => ⟨S50000, .f32⟩
  | 71 => ⟨S50000, .f32⟩
  | 72 => ⟨S50000x1, .f32⟩
  | 73 => ⟨S50000x256, .f32⟩
  | 74 => ⟨S50000x256, .f32⟩
  | 75 => ⟨S50000x256, .f32⟩
  | 76 => ⟨S50000x256, .f32⟩
  | 77 => ⟨S50000x256, .f32⟩
  | 78 => ⟨S1x256, .f32⟩
  | 79 => ⟨S50000x256, .f32⟩
  | 80 => ⟨S50000x256, .f32⟩
  | 81 => ⟨S50000x512, .f32⟩
  | 82 => ⟨S_, .f32⟩
  | 83 => ⟨S512, .f32⟩
  | 84 => ⟨S_, .f32⟩
  | 85 => ⟨S512, .f32⟩
  | 86 => ⟨S512, .f32⟩
  | 87 => ⟨S_, .i32⟩
  | 88 => ⟨S_, .f32⟩
  | 89 => ⟨S512, .f32⟩
  | 90 => ⟨S1x512, .f32⟩
  | 91 => ⟨S_, .f32⟩
  | 92 => ⟨S1x512, .f32⟩
  | 93 => ⟨S1x512, .f32⟩
  | 94 => ⟨S50000x512, .f32⟩
  | 95 => ⟨S50000x512, .f32⟩
  | 96 => ⟨S50000x512, .f32⟩
  | 97 => ⟨S_, .f32⟩
  | 98 => ⟨S_, .f32⟩
  | 99 => ⟨S_, .f32⟩
  | 100 => ⟨S_, .f32⟩
  | 101 => ⟨S512, .f32⟩
  | 102 => ⟨S512, .f32⟩
  | 103 => ⟨S512, .f32⟩
  | 104 => ⟨S_, .f32⟩
  | 105 => ⟨S_, .i1⟩
  | 106 => ⟨S_, .f32⟩
  | 107 => ⟨S_, .f32⟩
  | 108 => ⟨S512, .f32⟩
  | 109 => ⟨S512, .f32⟩
  | 110 => ⟨S1x512, .f32⟩
  | 111 => ⟨S50000x512, .f32⟩
  | 112 => ⟨S50000x512, .f32⟩
  | 113 => ⟨S_, .f32⟩
  | 114 => ⟨S512, .f32⟩
  | 115 => ⟨S512, .f32⟩
  | 116 => ⟨S512, .f32⟩
  | 117 => ⟨S1x512, .f32⟩
  | 118 => ⟨S50000x512, .f32⟩
  | 119 => ⟨S50000x512, .f32⟩
  | 120 => ⟨S1x512, .f32⟩
  | 121 => ⟨S50000x512, .f32⟩
  | 122 => ⟨S50000x512, .f32⟩
  | 123 => ⟨S1x512, .f32⟩
  | 124 => ⟨S50000x512, .f32⟩
  | 125 => ⟨S50000x512, .f32⟩
  | 126 => ⟨S_, .f32⟩
  | 127 => ⟨S50000x512, .f32⟩
  | _ => ⟨S50000x256, .f32⟩

abbrev hbmTy0_1 (i : Nat) : BufTy := match i % 128 with
  | 0 => ⟨S50000x512, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_call0_cst : Ref sig .tc := ⟨.hbm, 88, rfl⟩
abbrev main_call0_v0 : Ref sig .tc := ⟨.hbm, 89, rfl⟩
abbrev main_call0_v1 : Ref sig .tc := ⟨.hbm, 90, rfl⟩
abbrev main_call0_cst_0 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_v6 : Ref sig .tc := ⟨.hbm, 96, rfl⟩
abbrev main_call0_v7 : Ref sig .tc := ⟨.hbm, 97, rfl⟩
abbrev main_call0_cst_1 : Ref sig .tc := ⟨.hbm, 98, rfl⟩
abbrev main_call0_v8 : Ref sig .tc := ⟨.hbm, 99, rfl⟩
abbrev main_call0_cst_2 : Ref sig .tc := ⟨.hbm, 100, rfl⟩
abbrev main_call0_v9 : Ref sig .tc := ⟨.hbm, 101, rfl⟩
abbrev main_call0_v10 : Ref sig .tc := ⟨.hbm, 102, rfl⟩
abbrev main_call0_v11 : Ref sig .tc := ⟨.hbm, 103, rfl⟩
abbrev main_call0_cst_3 : Ref sig .tc := ⟨.hbm, 104, rfl⟩
abbrev main_call0_v12 : Ref sig .tc := ⟨.hbm, 105, rfl⟩
abbrev main_call0_cst_4 : Ref sig .tc := ⟨.hbm, 106, rfl⟩
abbrev main_call0_call0_v0 : Ref sig .tc := ⟨.hbm, 107, rfl⟩
abbrev main_call0_call0_v1 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_13 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_call1_cst : Ref sig .tc := ⟨.hbm, 126, rfl⟩
abbrev main_call1_v0 : Ref sig .tc := ⟨.hbm, 127, rfl⟩
abbrev main_v78 : Ref sig .tc := ⟨.hbm, 128, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  concatenates_S50000x256_S50000x256_S50000x512_d1 : Shape.Concatenates [S50000x256, S50000x256] S50000x512 1
  reducesTo_S50000x512_S512_d0 : S50000x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  scatter_S50000_S300000x1_S300000_n_0_0_1_wf : ScatterDims.WF S50000 S300000x1 S300000 [] [0] [0] 1
  dot_S50000x256_S256x256_S50000x256_1_0_0_1_n_n_wf : DotDims.WF S50000x256 S256x256 S50000x256 [1] [0] [0] [1] [] []

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  The mathematics of the signed graph-convolution block, stated once, index by index, on the extended reals.

  A node's features after the two signed convolutions: for each sign, the mean-aggregated neighbour rows times the
  "left" weights plus the node's own row times the "right" weights plus the bias; the two signs' outputs side by side
  give 512 channels (`feat`).  Batch normalisation over the 50000 nodes followed by max(·, 0) is then stated twice:

  * `outK` — with the channel statistics taken the way the tiled kernels take them: per tile of 2000 nodes a
    partial column sum (of the features, and of their squares) scaled by 1/8 and replicated on 8 sublanes, the
    25 × 8 replicated partials summed, the mean μ = Σ/50000, the variance max(Σ²/50000 − μ², 0);
  * `outR` — with the statistics of the textbook definition: μ = Σ_i f(i,j)/50000 and the variance
    Σ_i (f(i,j) − μ)²/50000.

  Both normalise as ((f − μ) · rsqrt(var + ε)) · γ + β.  For real-valued features the two agree (the law is in
  the module on the analysis side); at infinite entries they would not, which is where finiteness of the inputs is
  used.
-/
import Idealize.ShloMosaic.PureOps.Ideal
import Idealize.ShloMosaic.Lib.ValueIdx

noncomputable section

namespace Cert.SGC

open Idealize.ShloMosaic Idealize.ShloMosaic.ValueIdx
open scoped BigOperators

/-- A matrix of extended reals indexed by the library's rank-2 indices. -/
abbrev Mat (a b : Nat) : Type := (⟨2, ![a, b]⟩ : Shape).Idx → EReal
/-- A vector of extended reals indexed by the library's rank-1 indices. -/
abbrev Vc (a : Nat) : Type := (⟨1, ![a]⟩ : Shape).Idx → EReal

/-- The float words the two programs share, read as extended reals. -/
def c0 : EReal := Ideal.ofBits .f32 0x00000000#32
/-- 0.125, the sublane replication factor's inverse. -/
def c8 : EReal := Ideal.ofBits .f32 0x3E000000#32
/-- 50000.0, the number of nodes. -/
def cN : EReal := Ideal.ofBits .f32 0x47435000#32
/-- The normalisation's ε (the f32 nearest 1e-5). -/
def cEps : EReal := Ideal.ofBits .f32 0x3727C5AC#32

/-- One sign's convolution at node `i`, channel `q`: aggregated row · left weights + own row · right weights + bias. -/
def conv (x ag : Mat 50000 256) (Wl Wr : Mat 256 256) (b : Vc 256) (i : Fin 50000) (q : Fin 256) : EReal :=
  ((∑ k : Fin 256, ag (ix2 i k) * Wl (ix2 k q)) + ∑ k : Fin 256, x (ix2 i k) * Wr (ix2 k q)) + b (ix1 q)

/-- The 512 channels of a node: the positive sign's 256 outputs, then the negative sign's. -/
def feat (x ap an : Mat 50000 256) (Wpl Wpr : Mat 256 256) (bp : Vc 256) (Wnl Wnr : Mat 256 256) (bn : Vc 256)
    (i : Fin 50000) (j : Fin 512) : EReal :=
  if h : j.val < 256 then conv x ap Wpl Wpr bp i ⟨j.val, h⟩
  else conv x an Wnl Wnr bn i ⟨j.val - 256, by have := j.isLt; omega⟩

/-- Row `r` of tile `t` (tiles of 2000 nodes). -/
def tileRow (t : Fin 25) (r : Fin 2000) : Fin 50000 := ⟨2000 * t.val + r.val, by have := t.isLt; have := r.isLt; omega⟩

/-- A tile's partial column sum scaled by 1/8: what the first kernel writes on each of the 8 sublanes. -/
def part (f : Fin 50000 → Fin 512 → EReal) (t : Fin 25) (j : Fin 512) : EReal :=
  (∑ r : Fin 2000, f (tileRow t r) j) * c8

/-- The tiled total: the 25 × 8 replicated scaled partials summed from zero. -/
def totalK (f : Fin 50000 → Fin 512 → EReal) (j : Fin 512) : EReal :=
  c0 + ∑ t : Fin 25, ∑ _s : Fin 8, part f t j

/-- The mean as the tiled kernels take it. -/
def meanK (f : Fin 50000 → Fin 512 → EReal) (j : Fin 512) : EReal := Ideal.div (totalK f j) cN
/-- The mean of squares as the tiled kernels take it. -/
def msqK (f : Fin 50000 → Fin 512 → EReal) (j : Fin 512) : EReal :=
  Ideal.div (totalK (fun i j => f i j * f i j) j) cN
/-- The inverse standard deviation from the clamped two-pass variance. -/
def invK (f : Fin 50000 → Fin 512 → EReal) (j : Fin 512) : EReal :=
  Ideal.rsqrt (max (msqK f j - meanK f j * meanK f j) c0 + cEps)

/-- The textbook mean over the nodes. -/
def meanR (f : Fin 50000 → Fin 512 → EReal) (j : Fin 512) : EReal :=
  Ideal.div (c0 + ∑ i : Fin 50000, f i j) cN
/-- The textbook (biased) variance over the nodes. -/
def varR (f : Fin 50000 → Fin 512 → EReal) (j : Fin 512) : EReal :=
  Ideal.div (c0 + ∑ i : Fin 50000, (f i j - meanR f j) * (f i j - meanR f j)) cN
/-- The inverse standard deviation from the textbook variance. -/
def invR (f : Fin 50000 → Fin 512 → EReal) (j : Fin 512) : EReal := Ideal.rsqrt (varR f j + cEps)

/-- Normalise, scale, shift, clamp at zero. -/
def normed (f : Fin 50000 → Fin 512 → EReal) (mean inv : Fin 512 → EReal) (γ β : Vc 512)
    (i : Fin 50000) (j : Fin 512) : EReal :=
  max ((((f i j - mean j) * inv j) * γ (ix1 j)) + β (ix1 j)) c0

/-- The block's output with the tiled statistics. -/
def outK (f : Fin 50000 → Fin 512 → EReal) (γ β : Vc 512) : Fin 50000 → Fin 512 → EReal :=
  normed f (meanK f) (invK f) γ β
/-- The block's output with the textbook statistics. -/
def outR (f : Fin 50000 → Fin 512 → EReal) (γ β : Vc 512) : Fin 50000 → Fin 512 → EReal :=
  normed f (meanR f) (invR f) γ β

/-- The one row of a `[1, a]` array as a vector. -/
def rowVec {a : Nat} (v : Mat 1 a) : Vc a := fun q => v (ix2 (0 : Fin 1) (q 0))

/-- An array-shaped reading of a two-index function. -/
def toMat {a b : Nat} (g : Fin a → Fin b → EReal) : Mat a b := fun idx => g (idx 0) (idx 1)

end Cert.SGC

end
-- ==== Proof.Consts.lean ====
/-
  The float words the two programs spell, as the extended reals they denote: zero, one eighth, fifty thousand, and
  the normalisation's ε as some non-negative real.  Stated once, so that no other module unfolds a bit pattern.
-/
import Idealize.ShloMosaic.PureOps.Ideal
import proofs.«180272_j17540646437113_2_alg».proof.Proof.Spec

noncomputable section

namespace Cert.SGC

open Idealize.ShloMosaic

/-- The zero word denotes 0. -/
theorem c0_eq : c0 = 0 := by
  unfold c0; simp [Ideal.ofBits, Ideal.ieee]

/-- The word 0x3E000000 denotes 1/8. -/
theorem c8_eq : c8 = ((1 / 8 : ℝ) : EReal) := by
  unfold c8; simp [Ideal.ofBits, Ideal.ieee, -EReal.coe_mul]; norm_num

/-- The word 0x47435000 denotes 50000. -/
theorem cN_eq : cN = ((50000 : ℝ) : EReal) := by
  unfold cN; simp [Ideal.ofBits, Ideal.ieee, -EReal.coe_mul]; norm_num

/-- The word 0x3F800000 denotes 1. -/
theorem ofBits_one : Ideal.ofBits .f32 0x3F800000#32 = ((1 : ℝ) : EReal) := by
  simp [Ideal.ofBits, Ideal.ieee, -EReal.coe_mul]; norm_num

end Cert.SGC

end
-- ==== Proof.LibBlockSum.lean ====
/-
  Summing in blocks.

  A sum over the indices 0 .. a*b - 1 can be taken b consecutive indices at a time: block s collects the indices
  b*s, b*s + 1, .., b*s + b - 1. Only associativity and commutativity of addition are used, so the statement holds in
  every commutative monoid; on the extended reals it therefore holds whether or not the summands are finite.
-/
import Idealize.ShloMosaic.Lib.ValueIdx

namespace Idealize.ShloMosaic.BlockSum

/-- Index q of block s is a valid index of the whole range. -/
theorem block_index_lt {a b : ℕ} (s : Fin a) (q : Fin b) : b * s.val + q.val < a * b := by
  have hs := s.isLt
  have hq := q.isLt
  calc b * s.val + q.val < b * s.val + b := by omega
    _ = b * (s.val + 1) := by ring
    _ ≤ b * a := Nat.mul_le_mul_left b hs
    _ = a * b := Nat.mul_comm b a

/-- The sum over all a*b indices is the sum over the a blocks of the b indices in each. -/
theorem sum_blocks {M : Type*} [AddCommMonoid M] (a b : ℕ) (g : Fin (a * b) → M) :
    ∑ k : Fin (a * b), g k = ∑ s : Fin a, ∑ q : Fin b, g ⟨b * s.val + q.val, block_index_lt s q⟩ := by
  rw [← Equiv.sum_comp finProdFinEquiv g, Fintype.sum_prod_type]
  refine Finset.sum_congr rfl fun s _ => Finset.sum_congr rfl fun q _ => congrArg g (Fin.ext ?_)
  show q.val + b * s.val = b * s.val + q.val
  omega

end Idealize.ShloMosaic.BlockSum
-- ==== Proof.LibWeightedMix.lean ====
import Mathlib.Data.EReal.Inv
import Mathlib.Algebra.BigOperators.Group.Finset.Basic
import Mathlib.Algebra.BigOperators.Ring.Finset
import Mathlib.Tactic.Ring

/-!
# A weighted mix under a finite sum, in the extended reals

For real families `f A B C : K → ℝ` over a finite index type and real weights `w₀ w₁ w₂`, read in the
extended reals,

  `∑ k, f k * ((w₀ * A k + w₁ * B k) + w₂ * C k) = ((w₀ * ∑ k, f k * A k) + w₁ * ∑ k, f k * B k) + w₂ * ∑ k, f k * C k`:

contracting against a weighted mix of three families is the weighted mix of the three contractions. The
extended reals are not a ring (addition and multiplication do not distribute at the infinities), so the law
is proved for real entries: the coercion `ℝ → EReal` is pushed out of every product and sum, and the
identity is then distributivity in `ℝ`.

* `coe_finset_sum`: the coercion commutes with a finite sum.
* `sum_mul_mix`: the law for families given as real functions.
* `sum_mul_mix_of_real`: the law for extended-real families each of whose entries is a real number.
* `exists_real_add`, `exists_real_mul`, `exists_real_sum`, `exists_real_sum_mul`: sums, products and finite sums
  (of products) of real numbers are real numbers.
-/

namespace LibWeightedMix

open scoped BigOperators

variable {K : Type*}

/-- The coercion of the reals into the extended reals commutes with a finite sum. -/
theorem coe_finset_sum (s : Finset K) (f : K → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The sum of two real numbers is a real number. -/
theorem exists_real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- The product of two real numbers is a real number. -/
theorem exists_real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of real numbers is a real number. -/
theorem exists_real_sum (s : Finset K) (g : K → EReal) (hg : ∀ k, ∃ r : ℝ, g k = (r : EReal)) :
    ∃ r : ℝ, ∑ k ∈ s, g k = (r : EReal) := by
  choose g' hg' using hg
  exact ⟨∑ k ∈ s, g' k, by simp only [hg', coe_finset_sum]⟩

/-- A finite sum of products of real numbers is a real number. -/
theorem exists_real_sum_mul (s : Finset K) (f A : K → EReal) (hf : ∀ k, ∃ r : ℝ, f k = (r : EReal))
    (hA : ∀ k, ∃ r : ℝ, A k = (r : EReal)) : ∃ r : ℝ, ∑ k ∈ s, f k * A k = (r : EReal) :=
  exists_real_sum s _ fun k => exists_real_mul (hf k) (hA k)

variable [Fintype K]

/-- Contracting against a weighted mix of three real families is the weighted mix of the three contractions. -/
theorem sum_mul_mix (f A B C : K → ℝ) (w0 w1 w2 : ℝ) :
    ∑ k, (f k : EReal) * (((w0 : EReal) * (A k : EReal) + (w1 : EReal) * (B k : EReal)) + (w2 : EReal) * (C k : EReal))
      = (((w0 : EReal) * ∑ k, (f k : EReal) * (A k : EReal)) + (w1 : EReal) * ∑ k, (f k : EReal) * (B k : EReal))
          + (w2 : EReal) * ∑ k, (f k : EReal) * (C k : EReal) := by
  simp only [← EReal.coe_mul, ← EReal.coe_add, ← coe_finset_sum]
  congr 1
  simp only [Finset.mul_sum, ← Finset.sum_add_distrib]
  exact Finset.sum_congr rfl fun k _ => by ring

/-- The same law for extended-real families and weights each of which is a real number. -/
theorem sum_mul_mix_of_real (f A B C : K → EReal) (w0 w1 w2 : EReal)
    (hf : ∀ k, ∃ r : ℝ, f k = (r : EReal)) (hA : ∀ k, ∃ r : ℝ, A k = (r : EReal))
    (hB : ∀ k, ∃ r : ℝ, B k = (r : EReal)) (hC : ∀ k, ∃ r : ℝ, C k = (r : EReal))
    (h0 : ∃ r : ℝ, w0 = (r : EReal)) (h1 : ∃ r : ℝ, w1 = (r : EReal)) (h2 : ∃ r : ℝ, w2 = (r : EReal)) :
    ∑ k, f k * ((w0 * A k + w1 * B k) + w2 * C k)
      = ((w0 * ∑ k, f k * A k) + w1 * ∑ k, f k * B k) + w2 * ∑ k, f k * C k := by
  choose f' hf' using hf
  choose A' hA' using hA
  choose B' hB' using hB
  choose C' hC' using hC
  obtain ⟨r0, rfl⟩ := h0
  obtain ⟨r1, rfl⟩ := h1
  obtain ⟨r2, rfl⟩ := h2
  simp only [hf', hA', hB', hC']
  exact sum_mul_mix f' A' B' C' r0 r1 r2

end LibWeightedMix
-- ==== Proof.LibTwoPassVariance.lean ====
/-
# The two-pass variance is the variance

For a finite family of real numbers `u` with `N` entries (`N ≠ 0`), total `S = Σ_i u_i` and mean `μ = S / N`,

  `Σ_i (u_i − μ)² / N = Σ_i u_i² / N − μ²`:

expand the square and use `Σ_i u_i = N μ`.  The left side is a sum of squares over a positive number, so it is not
negative; a maximum with `0` that guards the right side — as a kernel writes it against cancellation in floating
point — therefore changes nothing over the reals.

* `var_identity` — the identity, over any finite index type, the entry count given as a real number `N` with
  `(Fintype.card ι : ℝ) = N`.
* `var_nonneg` — a mean of squared deviations (from any centre) is not negative.
* `max_twoPass` — on the extended reals: `max (↑(Σu²/N) − ↑μ · ↑μ) 0 = ↑(Σ(u − μ)²/N)`.
-/
import Mathlib.Data.EReal.Inv
import Mathlib.Algebra.BigOperators.Ring.Finset
import Mathlib.Algebra.Order.BigOperators.Ring.Finset
import Mathlib.Tactic.Ring
import Mathlib.Tactic.FieldSimp

namespace LibTwoPassVariance

open scoped BigOperators

variable {ι : Type*} [Fintype ι]

/-- The variance identity: the mean of the squared deviations from the mean is the mean of the squares minus the
    square of the mean. -/
theorem var_identity (N : ℝ) (hN : (Fintype.card ι : ℝ) = N) (h0 : N ≠ 0) (u : ι → ℝ) :
    (∑ i, (u i - (∑ k, u k) / N) * (u i - (∑ k, u k) / N)) / N
      = (∑ i, u i * u i) / N - ((∑ k, u k) / N) * ((∑ k, u k) / N) := by
  generalize hS : (∑ k, u k) = S
  have h1 : ∀ i, (u i - S / N) * (u i - S / N) = u i * u i - 2 * (S / N) * u i + (S / N) * (S / N) := fun i => by ring
  have h2 : ∑ i, (u i - S / N) * (u i - S / N) = (∑ i, u i * u i) - 2 * (S / N) * S + N * ((S / N) * (S / N)) := by
    simp only [h1, Finset.sum_add_distrib, Finset.sum_sub_distrib, ← Finset.mul_sum, hS, Finset.sum_const,
      Finset.card_univ, nsmul_eq_mul, hN]
    ring
  rw [h2]; field_simp; ring

/-- A mean of squared deviations is not negative. -/
theorem var_nonneg (N : ℝ) (h0 : 0 < N) (u : ι → ℝ) (μ : ℝ) : 0 ≤ (∑ i, (u i - μ) * (u i - μ)) / N :=
  div_nonneg (Finset.sum_nonneg fun i _ => mul_self_nonneg _) h0.le

/-- On the extended reals the two-pass form clamped at zero is the variance. -/
theorem max_twoPass (N : ℝ) (hN : (Fintype.card ι : ℝ) = N) (h0 : 0 < N) (u : ι → ℝ) :
    max ((((∑ i, u i * u i) / N : ℝ) : EReal) - (((∑ k, u k) / N : ℝ) : EReal) * (((∑ k, u k) / N : ℝ) : EReal)) 0
      = (((∑ i, (u i - (∑ k, u k) / N) * (u i - (∑ k, u k) / N)) / N : ℝ) : EReal) := by
  rw [← EReal.coe_mul, ← EReal.coe_sub, ← var_identity N hN h0.ne' u]
  exact max_eq_left (EReal.coe_nonneg.mpr (var_nonneg N h0 u _))

end LibTwoPassVariance
-- ==== Proof.Analysis.lean ====
/-
  The law that joins the two ways of taking the batch statistics.

  For features whose every entry is a real number:
  * the tiled total — 25 tiles, each tile's column sum scaled by 1/8 and counted 8 times — is the plain sum over the
    50000 nodes (8 · (s/8) = s, and the tiles' rows enumerate the nodes), so the two means agree;
  * with μ the mean, Σ_i (u_i − μ)² / n = Σ_i u_i² / n − μ²  (expand the square and use Σ_i u_i = n μ), and the left side
    is a sum of squares over a positive number, so the maximum with 0 that guards the two-pass form changes nothing.
  Hence the inverse standard deviations agree, and with them the normalised outputs.  Every step is an identity of real
  numbers; the coercion into the extended reals is pushed out of each sum and product first.  At an infinite entry the
  extended reals' sums and products no longer distribute, which is why the entries are assumed real.
-/
import proofs.«180272_j17540646437113_2_alg».proof.Proof.Spec
import proofs.«180272_j17540646437113_2_alg».proof.Proof.Consts
import proofs.«180272_j17540646437113_2_alg».proof.Proof.LibBlockSum
import proofs.«180272_j17540646437113_2_alg».proof.Proof.LibWeightedMix
import proofs.«180272_j17540646437113_2_alg».proof.Proof.LibTwoPassVariance
import Mathlib.Tactic.Ring
import Mathlib.Tactic.FieldSimp
import Mathlib.Tactic.NormNum

noncomputable section

namespace Cert.SGC

open Idealize.ShloMosaic
open scoped BigOperators

/-- The tiles' rows enumerate the nodes: summing tile by tile is summing over all nodes. -/
theorem sum_tiles {M : Type*} [AddCommMonoid M] (u : Fin 50000 → M) :
    ∑ t : Fin 25, ∑ r : Fin 2000, u (tileRow t r) = ∑ i : Fin 50000, u i :=
  (Idealize.ShloMosaic.BlockSum.sum_blocks (M := M) 25 2000 (fun k => u k)).symm

/-- Division by the node count, on a real number. -/
theorem div_cN (x : ℝ) : Ideal.div (x : EReal) cN = ((x / 50000 : ℝ) : EReal) := by
  rw [cN_eq, Ideal.div_coe (by norm_num : (50000 : ℝ) ≠ 0), ← EReal.coe_mul]
  exact congrArg Real.toEReal (by ring)

/-- The variance identity over the reals, with n = 50000. -/
theorem var_identity (u : Fin 50000 → ℝ) :
    (∑ i, (u i - (∑ k, u k) / 50000) * (u i - (∑ k, u k) / 50000)) / 50000
      = (∑ i, u i * u i) / 50000 - ((∑ k, u k) / 50000) * ((∑ k, u k) / 50000) :=
  LibTwoPassVariance.var_identity 50000 (by simp) (by norm_num) u

/-- A mean of squares is not negative. -/
theorem var_nonneg (u : Fin 50000 → ℝ) (μ : ℝ) : 0 ≤ (∑ i, (u i - μ) * (u i - μ)) / 50000 :=
  LibTwoPassVariance.var_nonneg 50000 (by norm_num) u μ

section Real

variable {f : Fin 50000 → Fin 512 → EReal} {g : Fin 50000 → Fin 512 → ℝ}

/-- A tile's scaled partial sum, for real entries. -/
theorem part_real (hfg : ∀ i j, f i j = (g i j : EReal)) (t : Fin 25) (j : Fin 512) :
    part f t j = (((∑ r : Fin 2000, g (tileRow t r) j) * (1 / 8) : ℝ) : EReal) := by
  unfold part
  rw [c8_eq]
  simp only [hfg]
  rw [← LibWeightedMix.coe_finset_sum, ← EReal.coe_mul]

/-- The tiled total is the plain sum over the nodes, for real entries. -/
theorem totalK_real (hfg : ∀ i j, f i j = (g i j : EReal)) (j : Fin 512) :
    totalK f j = ((∑ i : Fin 50000, g i j : ℝ) : EReal) := by
  unfold totalK
  rw [c0_eq, zero_add]
  simp only [part_real hfg, ← LibWeightedMix.coe_finset_sum]
  refine congrArg Real.toEReal ?_
  rw [← sum_tiles (fun i => g i j)]
  refine Finset.sum_congr rfl fun t _ => ?_
  rw [Finset.sum_const, Finset.card_univ, Fintype.card_fin, nsmul_eq_mul]
  push_cast; ring

/-- The tiled mean, for real entries. -/
theorem meanK_real (hfg : ∀ i j, f i j = (g i j : EReal)) (j : Fin 512) :
    meanK f j = (((∑ i : Fin 50000, g i j) / 50000 : ℝ) : EReal) := by
  unfold meanK; rw [totalK_real hfg]; exact div_cN _

/-- The textbook mean, for real entries. -/
theorem meanR_real (hfg : ∀ i j, f i j = (g i j : EReal)) (j : Fin 512) :
    meanR f j = (((∑ i : Fin 50000, g i j) / 50000 : ℝ) : EReal) := by
  unfold meanR
  rw [c0_eq, zero_add]
  simp only [hfg]
  rw [← LibWeightedMix.coe_finset_sum]; exact div_cN _

/-- The tiled mean of squares, for real entries. -/
theorem msqK_real (hfg : ∀ i j, f i j = (g i j : EReal)) (j : Fin 512) :
    msqK f j = (((∑ i : Fin 50000, g i j * g i j) / 50000 : ℝ) : EReal) := by
  unfold msqK
  rw [totalK_real (f := fun i j => f i j * f i j) (g := fun i j => g i j * g i j)
    (fun i j => by rw [hfg, ← EReal.coe_mul])]
  exact div_cN _

/-- The textbook variance, for real entries. -/
theorem varR_real (hfg : ∀ i j, f i j = (g i j : EReal)) (j : Fin 512) :
    varR f j = (((∑ i : Fin 50000, (g i j - (∑ k : Fin 50000, g k j) / 50000) * (g i j - (∑ k : Fin 50000, g k j) / 50000)) / 50000 : ℝ) : EReal) := by
  unfold varR
  rw [meanR_real hfg, c0_eq, zero_add]
  simp only [hfg, ← EReal.coe_sub, ← EReal.coe_mul, ← LibWeightedMix.coe_finset_sum]
  exact div_cN _

/-- The two inverse standard deviations agree on real entries. -/
theorem invK_eq_invR (hfg : ∀ i j, f i j = (g i j : EReal)) (j : Fin 512) : invK f j = invR f j := by
  unfold invK invR
  rw [msqK_real hfg, meanK_real hfg, varR_real hfg, ← EReal.coe_mul, ← EReal.coe_sub,
    ← var_identity (fun i => g i j), c0_eq,
    max_eq_left (EReal.coe_nonneg.mpr (var_nonneg (fun i => g i j) _))]

end Real

/-- With real-valued features the tiled statistics and the textbook statistics give the same output. -/
theorem outK_eq_outR (f : Fin 50000 → Fin 512 → EReal) (hf : ∀ i j, ∃ r : ℝ, f i j = (r : EReal)) (γ β : Vc 512) :
    outK f γ β = outR f γ β := by
  choose g hfg using hf
  funext i j
  unfold outK outR normed
  rw [meanK_real hfg, meanR_real hfg, invK_eq_invR hfg]

end Cert.SGC

end
-- ==== Proof.LibGatherScatterRead.lean ====
import Idealize.ShloMosaic.PureOps.Ideal
import Idealize.ShloMosaic.Lib.ValueIdx

/-!
# Row gathers and row scatter-adds read at an index

A gather of rows of a table `[N, C]` (or of entries of a vector `[N]`) by a column `[M, 1]` of
integer start indices reads, at result row `e`, the table's row whose number is the start index
read as a signed integer and clamped into `[0, N - 1]`.  A scatter-add of update rows `[M, C]`
(or update entries `[M]`) into `[N, C]` (or `[N]`) by such a column adds update row `e` to the
row whose number is the index read as a signed integer, and drops it when that number is outside
`[0, N)`; on the extended reals element `(n, j)` of the result is the operand's element plus the
sum of the updates' elements `(e, j)` over the `e` that land in row `n`.

The statements are generic in the extents and in the dimension-number record, which they take
with its fields given by equations, so that they apply to any record with those fields.
-/

noncomputable section

open scoped BigOperators

namespace LibGatherScatterRead

open Idealize.ShloMosaic Idealize.ShloMosaic.ValueIdx

/-! ## The two row functions of an index word -/

/-- The row a gather reads for the start index word `v`: `v` as a signed integer, clamped into
`[0, N - 1]`. -/
def gatherRowOf (N : Nat) (hN : 0 < N) {w : Nat} (v : BitVec w) : Fin N :=
  ⟨min v.toInt.toNat (N - 1), by omega⟩

/-- The row a scatter lands in for the index word `v`: `v` as a signed integer when it is in
`[0, N)`, and no row otherwise (the update is dropped). -/
def scatterRowOf? (N : Nat) {w : Nat} (v : BitVec w) : Option (Fin N) :=
  if h : 0 ≤ v.toInt ∧ v.toInt < (N : Int) then some ⟨v.toInt.toNat, by omega⟩ else none

/-- The value of `gatherRowOf`. -/
theorem gatherRowOf_val (N : Nat) (hN : 0 < N) {w : Nat} (v : BitVec w) :
    (gatherRowOf N hN v).val = min v.toInt.toNat (N - 1) := rfl

/-- `scatterRowOf? N v = some n` says exactly that `v`, read signed, is the number `n`. -/
theorem scatterRowOf?_eq_some_iff {N w : Nat} (v : BitVec w) (n : Fin N) :
    scatterRowOf? N v = some n ↔ v.toInt = (n.val : Int) := by
  unfold scatterRowOf?
  constructor
  · intro h
    split at h
    · rename_i hv
      have := congrArg Fin.val (Option.some.inj h)
      simp only at this
      omega
    · exact absurd h (by simp)
  · intro h
    have hn := n.isLt
    rw [dif_pos (by omega)]
    congr 1
    exact Fin.ext (by simp only; omega)

/-- **A row that a scatter keeps is the row the gather reads.**  If the index word `v` lands in
row `n` of a scatter (so `0 ≤ v < N` as a signed integer) then the gather row of `v` is `n`. -/
theorem gatherRowOf_of_scatterRowOf? {N w : Nat} (hN : 0 < N) (v : BitVec w) (n : Fin N)
    (h : scatterRowOf? N v = some n) : gatherRowOf N hN v = n := by
  have hv := (scatterRowOf?_eq_some_iff v n).mp h
  have hn := n.isLt
  exact Fin.ext (by rw [gatherRowOf_val]; omega)

/-- The negative-index normalisation `select (v <ₛ 0) (v + c) v` leaves a word that is
non-negative as a signed integer unchanged. -/
theorem normalise_of_nonneg {w : Nat} (v c : BitVec w) (hv : 0 ≤ v.toInt) :
    Scalar.select (IntOp.cmpi .slt v 0#w) (IntOp.addi v c) v = v := by
  have hs : v.slt 0#w = false := by
    rw [BitVec.slt_eq_decide, BitVec.toInt_zero]
    exact decide_eq_false (by omega)
  have hc : IntOp.cmpi .slt v 0#w = 0#1 := by
    show BitVec.ofBool (v.slt 0#w) = 0#1
    rw [hs]; rfl
  rw [hc]
  exact select_zero _ _

/-- **The one arithmetic fact of the layer law.**  If the scatter lands the index word `v` in row
`n`, then the gather row of the normalised word `select (v <ₛ 0) (v + c) v` is `n`. -/
theorem gatherRowOf_normalise_of_scatterRowOf? {N w : Nat} (hN : 0 < N) (v c : BitVec w) (n : Fin N)
    (h : scatterRowOf? N v = some n) :
    gatherRowOf N hN (Scalar.select (IntOp.cmpi .slt v 0#w) (IntOp.addi v c) v) = n := by
  have hv := (scatterRowOf?_eq_some_iff v n).mp h
  rw [normalise_of_nonneg v c (by omega)]
  exact gatherRowOf_of_scatterRowOf? hN v n h

/-! ## Sums over a rank-1 index set -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Gathers read at an index -/

section Gather
variable {α : Type}

/-- The dimension numbers of a row gather of a table `[N, C]` by a column `[M, 1]` of start
indices: offset axis `1`, collapsed axis `0`, start index map `[0]`, index vector axis `1`, slice
sizes `[1, C]`. -/
abbrev rowsGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector `[N]` by a column `[M, 1]` of start
indices: no offset axis, collapsed axis `0`, start index map `[0]`, index vector axis `1`, slice
size `[1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem gather_rowsDims_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowsGatherDims N M C wf) x idx (ix2 e j)
      = x (ix2 (gatherRowOf N hN (idx (ix2 e (0 : Fin 1)))) j) := by
  unfold Host.gather
  congr 1
  funext a
  refine Fin.ext ?_
  have h10 : (1 : Fin 2) ∉ ([0] : List (Fin 2)) := by decide
  match a with
  | ⟨0, _⟩ =>
    show GatherDims.start (rowsGatherDims N M C wf) (ix2 e j) idx 0
      + GatherDims.batchCoord (rowsGatherDims N M C wf) (ix2 e j) 0
      + GatherDims.offCoord (rowsGatherDims N M C wf) (ix2 e j) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (rowsGatherDims N M C wf) (ix2 e j)
        ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
    rfl
  | ⟨1, _⟩ =>
    show GatherDims.start (rowsGatherDims N M C wf) (ix2 e j) idx 1
      + GatherDims.batchCoord (rowsGatherDims N M C wf) (ix2 e j) 1
      + GatherDims.offCoord (rowsGatherDims N M C wf) (ix2 e j) 1 = j.val
    have hst : GatherDims.start (rowsGatherDims N M C wf) (ix2 e j) idx 1 = 0 := by
      unfold GatherDims.start
      exact dif_neg h10
    have hoff : GatherDims.offCoord (rowsGatherDims N M C wf) (ix2 e j) 1 = j.val := by
      unfold GatherDims.offCoord
      rw [dif_pos ((GatherDims.mem_sKept _ _).mpr ⟨h10, List.not_mem_nil⟩)]
      rfl
    rw [GatherDims.batchCoord_eq_zero _ _ _ List.not_mem_nil, hst, hoff]
    omega

/-- **A row gather of a table, read at `(e, j)`**: with offset axis `1`, collapsed axis `0`, start
index map `[0]`, index vector axis `1` and slice sizes `[1, C]`, element `(e, j)` of the result is
the table's element `(g, j)`, `g` the gather row of the start index `idx[e, 0]`. -/
theorem gather_rows_apply {N M C w : Nat} (hN : 0 < N)
    (d : GatherDims ⟨2, ![N, C]⟩ ⟨2, ![M, 1]⟩ ⟨2, ![M, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (j : Fin C) :
    Host.gather d x idx (ix2 e j) = x (ix2 (gatherRowOf N hN (idx (ix2 e (0 : Fin 1)))) j) := by
  obtain ⟨od, cs, ob, sb, sm, iv, ss, wf⟩ := d
  dsimp only at hod hcs hob hsb hsm hiv hss
  subst hod hcs hob hsb hsm hiv hss
  exact gather_rowsDims_apply hN wf x idx e j

theorem gather_flatDims_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (gatherRowOf N hN (idx (ix2 e (0 : Fin 1))))) := by
  unfold Host.gather
  congr 1
  funext a
  obtain rfl : a = 0 := Subsingleton.elim _ _
  refine Fin.ext ?_
  show GatherDims.start (flatGatherDims N M wf) (ix1 e) idx 0
    + GatherDims.batchCoord (flatGatherDims N M wf) (ix1 e) 0
    + GatherDims.offCoord (flatGatherDims N M wf) (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (List.mem_singleton.mpr rfl)]
  have hsi : GatherDims.siIdx (flatGatherDims N M wf) (ix1 e)
      ⟨List.idxOf (0 : Fin 1) [0], List.idxOf_lt_length_iff.2 (List.mem_singleton.mpr rfl)⟩
        = ix2 e (0 : Fin 1) := by
    funext b; refine Fin.ext ?_
    match b with
    | ⟨0, _⟩ => rfl
    | ⟨1, _⟩ => rfl
  rw [hsi]
  rfl

/-- **A gather of entries of a vector, read at `e`**: with no offset axis, collapsed axis `0`,
start index map `[0]`, index vector axis `1` and slice size `[1]`, element `e` of the result is the
vector's entry `g`, `g` the gather row of the start index `idx[e, 0]`. -/
theorem gather_flat_apply {N M w : Nat} (hN : 0 < N)
    (d : GatherDims ⟨1, ![N]⟩ ⟨2, ![M, 1]⟩ ⟨1, ![M]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![M, 1]⟩ w) (e : Fin M) :
    Host.gather d x idx (ix1 e) = x (ix1 (gatherRowOf N hN (idx (ix2 e (0 : Fin 1))))) := by
  obtain ⟨od, cs, ob, sb, sm, iv, ss, wf⟩ := d
  dsimp only at hod hcs hob hsb hsm hiv hss
  subst hod hcs hob hsb hsm hiv hss
  exact gather_flatDims_apply hN wf x idx e

end Gather

/-! ## Scatter-adds read at an index -/

section Scatter

/-- The dimension numbers of a scatter of update rows `[M, C]` into a table `[N, C]` by a column
`[M, 1]` of indices: update window axis `1`, inserted window axis `0`, scatter axis to operand
axis `[0]`, index vector axis `1`. -/
abbrev rowsScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The dimension numbers of a scatter of update entries `[M]` into a vector `[N]` by a column
`[M, 1]` of indices: no update window axis, inserted window axis `0`, scatter axis to operand
axis `[0]`, index vector axis `1`. -/
abbrev flatScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `(e, c)` of a row scatter lands: in row `scatterRowOf? (idx[e, 0])`, column `c`. -/
theorem resultIdx?_rowsDims {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) :
    (rowsScatterDims N M C wf).resultIdx? (ix2 e c) idx
      = (scatterRowOf? N (idx (ix2 e (0 : Fin 1)))).map (fun r => ix2 r c) := by
  have h10 : (1 : Fin 2) ∉ ([0] : List (Fin 2)) := by decide
  have hs0 : (rowsScatterDims N M C wf).start (ix2 e c) idx 0 = (idx (ix2 e (0 : Fin 1))).toInt := by
    unfold ScatterDims.start
    rw [dif_pos (List.mem_singleton.mpr rfl)]
    have hsi : ScatterDims.siIdx (rowsScatterDims N M C wf) (ix2 e c)
        ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
  have hs1 : (rowsScatterDims N M C wf).start (ix2 e c) idx 1 = 0 := by
    unfold ScatterDims.start
    exact dif_neg h10
  have hk0 : (0 : Fin 2) ∉ (rowsScatterDims N M C wf).sKept := fun h => by
    have := (List.mem_filter.mp h).2
    simp at this
  have hk1 : (1 : Fin 2) ∈ (rowsScatterDims N M C wf).sKept :=
    List.mem_filter.mpr ⟨List.mem_finRange _, by simp⟩
  have hw0 : (rowsScatterDims N M C wf).window (ix2 e c) 0 = 0 := by
    unfold ScatterDims.window
    exact dif_neg hk0
  have hw1 : (rowsScatterDims N M C wf).window (ix2 e c) 1 = c.val := by
    unfold ScatterDims.window
    rw [dif_pos hk1]
    rfl
  unfold ScatterDims.resultIdx?
  split
  · rename_i h
    have h0 := h 0
    rw [hs0, hw0] at h0
    have hv : 0 ≤ (idx (ix2 e (0 : Fin 1))).toInt ∧ (idx (ix2 e (0 : Fin 1))).toInt < (N : Int) := by
      have hsz : ((⟨2, ![N, C]⟩ : Shape).size 0 : Nat) = N := rfl
      rw [hsz] at h0
      simpa using h0
    have hrow : scatterRowOf? N (idx (ix2 e (0 : Fin 1)))
        = some ⟨(idx (ix2 e (0 : Fin 1))).toInt.toNat, by omega⟩ := by
      unfold scatterRowOf?; rw [dif_pos hv]
    rw [hrow, Option.map_some]
    congr 1
    funext a; refine Fin.ext ?_
    match a with
    | ⟨0, _⟩ =>
      show ((rowsScatterDims N M C wf).start (ix2 e c) idx 0
        + ((rowsScatterDims N M C wf).window (ix2 e c) 0 : Int)).toNat = (idx (ix2 e (0 : Fin 1))).toInt.toNat
      rw [hs0, hw0]; simp
    | ⟨1, _⟩ =>
      show ((rowsScatterDims N M C wf).start (ix2 e c) idx 1
        + ((rowsScatterDims N M C wf).window (ix2 e c) 1 : Int)).toNat = c.val
      rw [hs1, hw1]; simp
  · rename_i h
    have hv : ¬ (0 ≤ (idx (ix2 e (0 : Fin 1))).toInt ∧ (idx (ix2 e (0 : Fin 1))).toInt < (N : Int)) := by
      intro hv
      apply h
      intro a
      match a with
      | ⟨0, _⟩ =>
        show 0 ≤ (rowsScatterDims N M C wf).start (ix2 e c) idx 0
            + ((rowsScatterDims N M C wf).window (ix2 e c) 0 : Int)
          ∧ (rowsScatterDims N M C wf).start (ix2 e c) idx 0
            + ((rowsScatterDims N M C wf).window (ix2 e c) 0 : Int) < (N : Int)
        rw [hs0, hw0]; simpa using hv
      | ⟨1, _⟩ =>
        show 0 ≤ (rowsScatterDims N M C wf).start (ix2 e c) idx 1
            + ((rowsScatterDims N M C wf).window (ix2 e c) 1 : Int)
          ∧ (rowsScatterDims N M C wf).start (ix2 e c) idx 1
            + ((rowsScatterDims N M C wf).window (ix2 e c) 1 : Int) < (C : Int)
        rw [hs1, hw1]; have := c.isLt; omega
    have hrow : scatterRowOf? N (idx (ix2 e (0 : Fin 1))) = none := by
      unfold scatterRowOf?; rw [dif_neg hv]
    rw [hrow]; rfl

/-- Update `(e, c)` of a row scatter lands at `(n, j)` exactly when `e`'s row is `n` and `c = j`. -/
theorem resultIdx?_rowsDims_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (j : Fin C) :
    (rowsScatterDims N M C wf).resultIdx? (ix2 e c) idx = some (ix2 n j)
      ↔ scatterRowOf? N (idx (ix2 e (0 : Fin 1))) = some n ∧ c = j := by
  rw [resultIdx?_rowsDims]
  cases hr : scatterRowOf? N (idx (ix2 e (0 : Fin 1))) with
  | none => simp
  | some r =>
    rw [Option.map_some]
    constructor
    · intro h
      have h' := Option.some.inj h
      have e0 : r = n := congrFun h' 0
      have e1 : c = j := congrFun h' 1
      exact ⟨by rw [e0], e1⟩
    · rintro ⟨h1, h2⟩
      rw [Option.some.inj h1, h2]

/-- The extended-real scatter-add of update rows, for the literal record, read at `(n, j)`. -/
theorem hostScatterAdd_rowsDims_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (j : Fin C) :
    Ideal.hostScatterAdd (rowsScatterDims N M C wf) x idx upd (ix2 n j)
      = x (ix2 n j) + ∑ e ∈ Finset.univ.filter
          (fun e : Fin M => scatterRowOf? N (idx (ix2 e (0 : Fin 1))) = some n), upd (ix2 e j) := by
  unfold Ideal.hostScatterAdd
  congr 1
  rw [Finset.sum_filter, sum_idx2, Finset.sum_filter]
  refine Finset.sum_congr rfl (fun e _ => ?_)
  by_cases hr : scatterRowOf? N (idx (ix2 e (0 : Fin 1))) = some n
  · rw [if_pos hr, Finset.sum_eq_single j]
    · rw [if_pos ((resultIdx?_rowsDims_eq_some_iff wf idx e j n j).mpr ⟨hr, rfl⟩)]
    · intro b _ hb
      rw [if_neg (fun h => hb ((resultIdx?_rowsDims_eq_some_iff wf idx e b n j).mp h).2)]
    · intro h; exact absurd (Finset.mem_univ j) h
  · rw [if_neg hr]
    exact Finset.sum_eq_zero (fun b _ =>
      if_neg (fun h => hr ((resultIdx?_rowsDims_eq_some_iff wf idx e b n j).mp h).1))

/-- **A scatter-add of update rows into a table, on the extended reals, read at `(n, j)`**: with
update window axis `1`, inserted window axis `0`, scatter axis to operand axis `[0]` and index vector
axis `1`, element `(n, j)` of the result is the operand's element `(n, j)` plus the sum of the
updates' elements `(e, j)` over the rows `e` whose index `idx[e, 0]`, read signed, is `n`. -/
theorem scatterAdd_rows_apply {N M C w : Nat} {φ : FTy}
    (d : ScatterDims ⟨2, ![N, C]⟩ ⟨2, ![M, 1]⟩ ⟨2, ![M, C]⟩)
    (huw : d.updateWindowDims = [1]) (hiw : d.insertedWindowDims = [0])
    (hsd : d.scatterDimsToOperandDims = [0]) (hiv : d.indexVectorDim = 1)
    (x : FVec Ideal ⟨2, ![N, C]⟩ φ) (idx : IVec ⟨2, ![M, 1]⟩ w) (upd : FVec Ideal ⟨2, ![M, C]⟩ φ)
    (n : Fin N) (j : Fin C) :
    Host.scatterAdd (F := Ideal) d x idx upd (ix2 n j)
      = x (ix2 n j) + ∑ e ∈ Finset.univ.filter
          (fun e : Fin M => scatterRowOf? N (idx (ix2 e (0 : Fin 1))) = some n), upd (ix2 e j) := by
  obtain ⟨uw, iw, sd, iv, wf⟩ := d
  dsimp only at huw hiw hsd hiv
  subst huw hiw hsd hiv
  exact hostScatterAdd_rowsDims_apply wf x idx upd n j

/-- Where update `e` of an entry scatter lands: at entry `scatterRowOf? (idx[e, 0])`. -/
theorem resultIdx?_flatDims {N M w : Nat}
    (wf : ScatterDims.WF ⟨1, ![N]⟩ ⟨2, ![M, 1]⟩ ⟨1, ![M]⟩ [] [0] [0] 1)
    (idx : IVec ⟨2, ![M, 1]⟩ w) (e : Fin M) :
    (flatScatterDims N M wf).resultIdx? (ix1 e) idx
      = (scatterRowOf? N (idx (ix2 e (0 : Fin 1)))).map (fun r => ix1 r) := by
  have hs0 : (flatScatterDims N M wf).start (ix1 e) idx 0 = (idx (ix2 e (0 : Fin 1))).toInt := by
    unfold ScatterDims.start
    rw [dif_pos (List.mem_singleton.mpr rfl)]
    have hsi : ScatterDims.siIdx (flatScatterDims N M wf) (ix1 e)
        ⟨List.idxOf (0 : Fin 1) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
  have hk0 : (0 : Fin 1) ∉ (flatScatterDims N M wf).sKept := fun h => by
    have := (List.mem_filter.mp h).2
    simp at this
  have hw0 : (flatScatterDims N M wf).window (ix1 e) 0 = 0 := by
    unfold ScatterDims.window
    exact dif_neg hk0
  unfold ScatterDims.resultIdx?
  split
  · rename_i h
    have h0 := h 0
    rw [hs0, hw0] at h0
    have hv : 0 ≤ (idx (ix2 e (0 : Fin 1))).toInt ∧ (idx (ix2 e (0 : Fin 1))).toInt < (N : Int) := by
      have hsz : ((⟨1, ![N]⟩ : Shape).size 0 : Nat) = N := rfl
      rw [hsz] at h0
      simpa using h0
    have hrow : scatterRowOf? N (idx (ix2 e (0 : Fin 1)))
        = some ⟨(idx (ix2 e (0 : Fin 1))).toInt.toNat, by omega⟩ := by
      unfold scatterRowOf?; rw [dif_pos hv]
    rw [hrow, Option.map_some]
    congr 1
    funext a
    obtain rfl : a = 0 := Subsingleton.elim _ _
    refine Fin.ext ?_
    show ((flatScatterDims N M wf).start (ix1 e) idx 0
      + ((flatScatterDims N M wf).window (ix1 e) 0 : Int)).toNat = (idx (ix2 e (0 : Fin 1))).toInt.toNat
    rw [hs0, hw0]; simp
  · rename_i h
    have hv : ¬ (0 ≤ (idx (ix2 e (0 : Fin 1))).toInt ∧ (idx (ix2 e (0 : Fin 1))).toInt < (N : Int)) := by
      intro hv
      apply h
      intro a
      obtain rfl : a = 0 := Subsingleton.elim _ _
      show 0 ≤ (flatScatterDims N M wf).start (ix1 e) idx 0
          + ((flatScatterDims N M wf).window (ix1 e) 0 : Int)
        ∧ (flatScatterDims N M wf).start (ix1 e) idx 0
          + ((flatScatterDims N M wf).window (ix1 e) 0 : Int) < (N : Int)
      rw [hs0, hw0]; simpa using hv
    have hrow : scatterRowOf? N (idx (ix2 e (0 : Fin 1))) = none := by
      unfold scatterRowOf?; rw [dif_neg hv]
    rw [hrow]; rfl

/-- Update `e` of an entry scatter lands at `n` exactly when `e`'s row is `n`. -/
theorem resultIdx?_flatDims_eq_some_iff {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (flatScatterDims N M wf).resultIdx? (ix1 e) idx = some (ix1 n)
      ↔ scatterRowOf? N (idx (ix2 e (0 : Fin 1))) = some n := by
  rw [resultIdx?_flatDims]
  cases hr : scatterRowOf? N (idx (ix2 e (0 : Fin 1))) with
  | none => simp
  | some r =>
    rw [Option.map_some]
    constructor
    · intro h
      have e0 : r = n := congrFun (Option.some.inj h) 0
      rw [e0]
    · intro h
      rw [Option.some.inj h]

/-- The extended-real scatter-add of update entries, for the literal record, read at `n`. -/
theorem hostScatterAdd_flatDims_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (flatScatterDims N M wf) x idx upd (ix1 n)
      = x (ix1 n) + ∑ e ∈ Finset.univ.filter
          (fun e : Fin M => scatterRowOf? N (idx (ix2 e (0 : Fin 1))) = some n), upd (ix1 e) := by
  unfold Ideal.hostScatterAdd
  congr 1
  rw [Finset.sum_filter, sum_idx1, Finset.sum_filter]
  refine Finset.sum_congr rfl (fun e _ => ?_)
  by_cases hr : scatterRowOf? N (idx (ix2 e (0 : Fin 1))) = some n
  · rw [if_pos hr, if_pos ((resultIdx?_flatDims_eq_some_iff wf idx e n).mpr hr)]
  · rw [if_neg hr, if_neg (fun h => hr ((resultIdx?_flatDims_eq_some_iff wf idx e n).mp h))]

/-- **A scatter-add of update entries into a vector, on the extended reals, read at `n`**: with
no update window axis, inserted window axis `0`, scatter axis to operand axis `[0]` and index
vector axis `1`, entry `n` of the result is the operand's entry `n` plus the sum of the updates'
entries `e` over the `e` whose index `idx[e, 0]`, read signed, is `n`. -/
theorem scatterAdd_flat_apply {N M w : Nat} {φ : FTy}
    (d : ScatterDims ⟨1, ![N]⟩ ⟨2, ![M, 1]⟩ ⟨1, ![M]⟩)
    (huw : d.updateWindowDims = []) (hiw : d.insertedWindowDims = [0])
    (hsd : d.scatterDimsToOperandDims = [0]) (hiv : d.indexVectorDim = 1)
    (x : FVec Ideal ⟨1, ![N]⟩ φ) (idx : IVec ⟨2, ![M, 1]⟩ w) (upd : FVec Ideal ⟨1, ![M]⟩ φ)
    (n : Fin N) :
    Host.scatterAdd (F := Ideal) d x idx upd (ix1 n)
      = x (ix1 n) + ∑ e ∈ Finset.univ.filter
          (fun e : Fin M => scatterRowOf? N (idx (ix2 e (0 : Fin 1))) = some n), upd (ix1 e) := by
  obtain ⟨uw, iw, sd, iv, wf⟩ := d
  dsimp only at huw hiw hsd hiv
  subst huw hiw hsd hiv
  exact hostScatterAdd_flatDims_apply wf x idx upd n

end Scatter

end LibGatherScatterRead

end
-- ==== Proof.LibRealArrays.lean ====
/-
# Arrays of extended reals whose entries are real numbers

On the extended reals a float input that passes the test |v| < +∞ is a real number, and real entries stay real through
the host operations a gather–scatter aggregation is made of.

* `IsReal v` — every entry of the array `v` is (the coercion of) a real number.
* `real_of_abs_lt_top` — an extended real whose absolute value is below +∞ is a real number; `inf_word` — the f32 word
  0x7F800000 denotes +∞.
* `isReal_of_all` — the printed form of `jnp.all(|x| < inf)` (a reduce by `and` of the comparison against the
  broadcast +∞ word, equal to 1) gives `IsReal x`, at any shape and any list of reduced axes.
* `isReal_broadcastInDim`, `isReal_zero`, `isReal_one` — a broadcast re-indexes; the splats of 0.0 and 1.0 are real.
* `isReal_gather_rows` — a row gather of a real table is real; `isReal_scatterAdd_rows` — a scatter-add of real rows
  into a real table is real (each entry gains a finite sum of entries).
* `max_one_real` — the maximum of a real array with an array of ones is real and at least 1;
  `isReal_div` — a real array divided by a real array whose entries are at least 1 is real (the quotient is then
  the product with a real inverse, never the division's corner at zero).
-/
import proofs.«180272_j17540646437113_2_alg».proof.Proof.LibGatherScatterRead
import proofs.«180272_j17540646437113_2_alg».proof.Proof.LibWeightedMix
import Idealize.ShloMosaic.Lib.ReduceAll
import Idealize.ShloMosaic.PureOps.Ideal.Laws
import Idealize.ShloMosaic.Lib.ValueIdx
import Mathlib.Tactic.Linarith

noncomputable section

namespace LibRealArrays

open Idealize.ShloMosaic Idealize.ShloMosaic.ValueIdx
open scoped BigOperators

/-- Every entry of the array is a real number. -/
def IsReal {s : Shape} (v : s.Idx → EReal) : Prop := ∀ i, ∃ r : ℝ, v i = (r : EReal)

/-! ## From an all-finite test -/

/-- A rank-0 array has one index. -/
instance : Subsingleton (⟨0, ![]⟩ : Shape).Idx := ⟨fun _ _ => funext fun d => d.elim0⟩

/-- The word 0x7F800000 denotes +∞. -/
theorem inf_word : Ideal.ofBits .f32 0x7F800000#32 = ⊤ := by simp [Ideal.ofBits, Ideal.ieee]

/-- The zero word denotes 0. -/
theorem zero_word : Ideal.ofBits .f32 0x00000000#32 = ((0 : ℝ) : EReal) := by simp [Ideal.ofBits, Ideal.ieee]

/-- The word 0x3F800000 denotes 1. -/
theorem one_word : Ideal.ofBits .f32 0x3F800000#32 = ((1 : ℝ) : EReal) := by
  simp [Ideal.ofBits, Ideal.ieee, -EReal.coe_mul]; norm_num

/-- An extended real whose absolute value is below +∞ is a real number. -/
theorem real_of_abs_lt_top (v : EReal) (h : max v (-v) < ⊤) : ∃ r : ℝ, v = (r : EReal) := by
  induction v using EReal.rec with
  | bot => simp at h
  | coe r => exact ⟨r, rfl⟩
  | top => simp at h

/-- An array all of whose entries pass |v| < +∞ has real entries. -/
theorem isReal_of_all {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (h : Host.reduce IntOp.andi (cmpf .olt (Host.absf x)
        (broadcastInDim s ![] hb (constant (F := Ideal) ⟨0, ![]⟩ .f32 0x7F800000#32))) (constantI ⟨0, ![]⟩ 1 1#1) hr hu ix0 = 1#1) :
    IsReal x := fun i => by
  have hi := Host.reduce_andi_all _ _ hr hu _ h i
  simp only [cmpf, Host.absf, broadcastInDim, constant, Ideal.cmpf_def, Ideal.hostAbsf_def, Ideal.absf_def,
    Ideal.ofBits_def, inf_word] at hi
  refine real_of_abs_lt_top _ ?_
  by_contra hlt
  have h0 : Ideal.cmp CmpFPredicate.olt (max (x i) (-x i)) ⊤ = 0#1 := by
    show BitVec.ofBool (decide (max (x i) (-x i) < ⊤)) = 0#1
    rw [decide_eq_false hlt]; rfl
  rw [h0] at hi
  exact absurd hi (by decide)

/-! ## Real entries are preserved -/

/-- A broadcast re-indexes its operand. -/
theorem isReal_broadcastInDim {s t : Shape} (dims : Fin s.rank → Fin t.rank) (h : s.BroadcastsInDim t dims)
    (x : s.Idx → EReal) (hx : IsReal x) : IsReal (broadcastInDim t dims h x) := fun _ => hx _

/-- A splat of the zero word. -/
theorem isReal_zero (s : Shape) : IsReal (constant (F := Ideal) s .f32 0x00000000#32) := fun _ =>
  ⟨0, by show Ideal.ofBits .f32 0x00000000#32 = _; exact zero_word⟩

/-- A splat of the word of 1.0. -/
theorem isReal_one (s : Shape) : IsReal (constant (F := Ideal) s .f32 0x3F800000#32) := fun _ =>
  ⟨1, by show Ideal.ofBits .f32 0x3F800000#32 = _; exact one_word⟩

/-- A row gather re-reads rows of its table. -/
theorem isReal_gather_rows {N M C w : Nat} (hN : 0 < N)
    (d : GatherDims ⟨2, ![N, C]⟩ ⟨2, ![M, 1]⟩ ⟨2, ![M, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → EReal) (idx : IVec ⟨2, ![M, 1]⟩ w) (hx : IsReal x) :
    IsReal (Host.gather d x idx) := fun i => by
  obtain ⟨e, j, rfl⟩ : ∃ (e : Fin M) (j : Fin C), i = ix2 e j := ⟨i 0, i 1, eq_ix2 i⟩
  rw [LibGatherScatterRead.gather_rows_apply hN d hod hcs hob hsb hsm hiv hss]
  exact hx _

/-- A scatter-add of real rows into a real table is a real table: each entry gains a finite sum of entries. -/
theorem isReal_scatterAdd_rows {N M C w : Nat}
    (d : ScatterDims ⟨2, ![N, C]⟩ ⟨2, ![M, 1]⟩ ⟨2, ![M, C]⟩)
    (huw : d.updateWindowDims = [1]) (hiw : d.insertedWindowDims = [0])
    (hsd : d.scatterDimsToOperandDims = [0]) (hiv : d.indexVectorDim = 1)
    (x : FVec Ideal ⟨2, ![N, C]⟩ .f32) (idx : IVec ⟨2, ![M, 1]⟩ w) (upd : FVec Ideal ⟨2, ![M, C]⟩ .f32)
    (hx : IsReal x) (hu : IsReal upd) : IsReal (Host.scatterAdd (F := Ideal) d x idx upd) := fun i => by
  obtain ⟨n, j, rfl⟩ : ∃ (n : Fin N) (j : Fin C), i = ix2 n j := ⟨i 0, i 1, eq_ix2 i⟩
  rw [LibGatherScatterRead.scatterAdd_rows_apply d huw hiw hsd hiv]
  exact LibWeightedMix.exists_real_add (hx _) (LibWeightedMix.exists_real_sum _ _ fun e => hu _)

/-- The maximum of a real array with an array of ones: real, and at least 1. -/
theorem max_one_real {s : Shape} (c one : FVec Ideal s .f32) (hc : IsReal c) (h1 : ∀ i, one i = ((1 : ℝ) : EReal)) (i : s.Idx) :
    ∃ r : ℝ, maximumf (F := Ideal) c one i = (r : EReal) ∧ 1 ≤ r := by
  obtain ⟨cr, hcr⟩ := hc i
  refine ⟨max cr 1, ?_, le_max_right _ _⟩
  show max (c i) (one i) = _
  rw [hcr, h1]
  exact (EReal.coe_strictMono.monotone.map_max).symm

/-- Dividing a real array by a real array whose entries are at least 1 gives a real array. -/
theorem isReal_div {s : Shape} (a b : FVec Ideal s .f32) (ha : IsReal a)
    (hb : ∀ i, ∃ r : ℝ, b i = (r : EReal) ∧ 1 ≤ r) : IsReal (Host.divf (F := Ideal) a b) := fun i => by
  obtain ⟨ar, har⟩ := ha i
  obtain ⟨br, hbr, hb1⟩ := hb i
  refine ⟨ar * (1 / br), ?_⟩
  show Ideal.div (a i) (b i) = _
  rw [har, hbr, Ideal.div_coe (by linarith : br ≠ 0), ← EReal.coe_mul]

end LibRealArrays

end
-- ==== Proof.Finite.lean ====
/-
  Every number the block computes before its normalisation is a real number when the float inputs are finite.

  The precondition says, input by input, that every entry passes the test |v| < +∞; on the extended reals that
  leaves exactly the real numbers (the general lemmas on arrays with real entries are in their own module).  A
  convolution output is then finite sums of products of real numbers plus a real bias, hence real, as soon as the
  aggregated arrays are real as well.
-/
import proofs.«180272_j17540646437113_2_alg».proof.Pre_finite_inputs
import proofs.«180272_j17540646437113_2_alg».proof.Proof.Spec
import proofs.«180272_j17540646437113_2_alg».proof.Proof.LibRealArrays
import proofs.«180272_j17540646437113_2_alg».proof.Proof.LibWeightedMix

noncomputable section

namespace Cert.SGC

open Idealize.ShloMosaic Idealize.ShloMosaic.ValueIdx LibRealArrays
open scoped BigOperators

/-! ## From the precondition -/

open Cert.Pre_finite_inputs in
/-- The precondition gives real entries for the node features, the four weight matrices and the two biases. -/
theorem pre_real [Cert.Pre_finite_inputs.Facts] {x : FVec Ideal S50000x256 .f32} {e1 e2 : IVec S2x300000 32}
    {Wpl Wpr : FVec Ideal S256x256 .f32} {bp : FVec Ideal S256 .f32} {Wnl Wnr : FVec Ideal S256x256 .f32}
    {bn : FVec Ideal S256 .f32} {γ β : FVec Ideal S512 .f32}
    (h : Cert.Pre_finite_inputs.fn (F := Ideal) x e1 e2 Wpl Wpr bp Wnl Wnr bn γ β = fun _ => 1#1) :
    IsReal x ∧ IsReal Wpl ∧ IsReal Wpr ∧ IsReal bp ∧ IsReal Wnl ∧ IsReal Wnr ∧ IsReal bn := by
  have h0 := congrFun h ix0
  dsimp only [fn, fn_part1, fn_part2] at h0
  simp only [andi, IntOp.andi_eq_one] at h0
  obtain ⟨⟨⟨⟨⟨⟨⟨⟨hx, h3⟩, h4⟩, h5⟩, h6⟩, h7⟩, h8⟩, _⟩, _⟩ := h0
  exact ⟨isReal_of_all x _ _ _ hx, isReal_of_all Wpl _ _ _ h3, isReal_of_all Wpr _ _ _ h4, isReal_of_all bp _ _ _ h5,
    isReal_of_all Wnl _ _ _ h6, isReal_of_all Wnr _ _ _ h7, isReal_of_all bn _ _ _ h8⟩

/-! ## The features -/

/-- One sign's convolution output is a real number when its operands' entries are. -/
theorem conv_real {x ag : Mat 50000 256} {Wl Wr : Mat 256 256} {b : Vc 256}
    (hx : IsReal x) (hag : IsReal ag) (hWl : IsReal Wl) (hWr : IsReal Wr) (hb : IsReal b) (i : Fin 50000) (q : Fin 256) :
    ∃ r : ℝ, conv x ag Wl Wr b i q = (r : EReal) := by
  unfold conv
  exact LibWeightedMix.exists_real_add
    (LibWeightedMix.exists_real_add
      (LibWeightedMix.exists_real_sum _ _ fun k => LibWeightedMix.exists_real_mul (hag _) (hWl _))
      (LibWeightedMix.exists_real_sum _ _ fun k => LibWeightedMix.exists_real_mul (hx _) (hWr _)))
    (hb _)

/-- The 512 channels of every node are real numbers when the operands' entries are. -/
theorem feat_real {x ap an : Mat 50000 256} {Wpl Wpr : Mat 256 256} {bp : Vc 256} {Wnl Wnr : Mat 256 256} {bn : Vc 256}
    (hx : IsReal x) (hap : IsReal ap) (han : IsReal an) (hWpl : IsReal Wpl) (hWpr : IsReal Wpr) (hbp : IsReal bp)
    (hWnl : IsReal Wnl) (hWnr : IsReal Wnr) (hbn : IsReal bn) (i : Fin 50000) (j : Fin 512) :
    ∃ r : ℝ, feat x ap an Wpl Wpr bp Wnl Wnr bn i j = (r : EReal) := by
  unfold feat
  split
  · exact conv_real hx hap hWpl hWpr hbp _ _
  · exact conv_real hx han hWnl hWnr hbn _ _

end Cert.SGC

end
-- ==== Proof.RefTerm.lean ====
/-
  The reference's result as three pure terms of its arguments' contents, stage by stage.

  * `aggr x e` — the mean aggregation of one signed edge table `e` (row 0 the sources, row 1 the targets): the two
    index rows sliced out and flattened, a negative source index shifted up by the number of nodes, the source rows
    of `x` gathered, scatter-added at the targets into a zero array; the targets' in-degrees counted by scatter-adding
    ones, clamped below at one, spread over the channels; the quotient of the two.
  * `hostFeat x ap an …` — for each sign, aggregated rows times the left weights plus own rows times the right weights
    plus the bias spread over the nodes; the two signs' outputs joined along the channels.
  * `bnTerm h γ β` — the channel means Σ_i h(i,j)/50000; the biased variance Σ_i (h(i,j) − mean_j)²/(50000 − 0)
    (the divisor written as 50000 minus the converted integer zero, and the quotient selected against a constant
    by the test 50000 − 0 > 0); then ((h − mean) · rsqrt(var + ε)) · γ + β, and the maximum with zero.

  Each term is one binding per operation of the printed reference, in its order and with its functions, so that the
  fold of the reference's operations over the launch contents is the composed term by computation.
-/
import proofs.«180272_j17540646437113_2_alg».proof.ReferenceIdeal

noncomputable section

namespace Cert.ReferenceIdeal.Hand

open Idealize.ShloMosaic Idealize.SL.Sem
open Cert.ReferenceIdeal.Facts₀

variable {F : FTy → Type} [FloatOps F] [Facts]

/-- One signed edge table's mean aggregation of the rows of `x`: Σ over the edges into a node of the source's row,
    divided by max(in-degree, 1). -/
def aggr (x : Vec F S50000x256 .f32) (e : Vec F S2x300000 .i32) : Vec F S50000x256 .f32 :=
  have v0 : Vec F S1x300000 .i32 := extractStridedSlice S1x300000 ![0, 0] e slices_S2x300000_S1x300000_0_0
  have v1 : Vec F S300000 .i32 := shapeCast S300000 v0 shapeCasts_S1x300000_S300000
  have v2 : Vec F S1x300000 .i32 := extractStridedSlice S1x300000 ![1, 0] e slices_S2x300000_S1x300000_1_0
  have v3 : Vec F S300000 .i32 := shapeCast S300000 v2 shapeCasts_S1x300000_S300000
  have c : Vec F S_ .i32 := constantI S_ 32 0#32
  have v4 : Vec F S300000 .i32 := broadcastInDim S300000 ![] bcast_S_S300000 c
  have v5 : Vec F S300000 .i1 := cmpi .slt v1 v4
  have c_0 : Vec F S_ .i32 := constantI S_ 32 50000#32
  have v6 : Vec F S300000 .i32 := broadcastInDim S300000 ![] bcast_S_S300000 c_0
  have v7 : Vec F S300000 .i32 := addi v1 v6
  have v8 : Vec F S300000 .i32 := select v5 v7 v1
  have v9 : Vec F S300000x1 .i32 := broadcastInDim S300000x1 ![0] bcast_S300000_S300000x1_0 v8
  have v10 : Vec F S300000x256 .f32 := Host.gather gather_S50000x256_S300000x1_S300000x256_1_0_n_n_0_1_1256 x v9
  have cst : Vec F S_ .f32 := constant S_ .f32 0x00000000#32
  have v11 : Vec F S50000x256 .f32 := broadcastInDim S50000x256 ![] bcast_S_S50000x256 cst
  have v12 : Vec F S300000x1 .i32 := broadcastInDim S300000x1 ![0] bcast_S300000_S300000x1_0 v3
  have v13 : Vec F S50000x256 .f32 := Host.scatterAdd scatter_S50000x256_S300000x1_S300000x256_1_0_0_1 v11 v12 v10
  have cst_1 : Vec F S_ .f32 := constant S_ .f32 0x3F800000#32
  have v14 : Vec F S300000 .f32 := broadcastInDim S300000 ![] bcast_S_S300000 cst_1
  have cst_2 : Vec F S_ .f32 := constant S_ .f32 0x00000000#32
  have v15 : Vec F S50000 .f32 := broadcastInDim S50000 ![] bcast_S_S50000 cst_2
  have v16 : Vec F S300000x1 .i32 := broadcastInDim S300000x1 ![0] bcast_S300000_S300000x1_0 v3
  have v17 : Vec F S50000 .f32 := Host.scatterAdd scatter_S50000_S300000x1_S300000_n_0_0_1 v15 v16 v14
  have cst_3 : Vec F S_ .f32 := constant S_ .f32 0x3F800000#32
  have v18 : Vec F S50000 .f32 := broadcastInDim S50000 ![] bcast_S_S50000 cst_3
  have v19 : Vec F S50000 .f32 := maximumf v17 v18
  have v20 : Vec F S50000x1 .f32 := broadcastInDim S50000x1 ![0] bcast_S50000_S50000x1_0 v19
  have v21 : Vec F S50000x256 .f32 := broadcastInDim S50000x256 ![0, 1] bcast_S50000x1_S50000x256_0_1 v20
  Host.divf v13 v21

/-- The 512 channels of every node: per sign, aggregated rows · left weights + own rows · right weights + bias; the
    positive sign's 256 outputs, then the negative sign's. -/
def hostFeat (x ap an : Vec F S50000x256 .f32) (Wpl Wpr : Vec F S256x256 .f32) (bp : Vec F S256 .f32)
    (Wnl Wnr : Vec F S256x256 .f32) (bn : Vec F S256 .f32) : Vec F S50000x512 .f32 :=
  have v23 : Vec F S50000x256 .f32 := Host.dotGeneral dot_S50000x256_S256x256_S50000x256_1_0_0_1_n_n none ap Wpl
  have v24 : Vec F S50000x256 .f32 := Host.dotGeneral dot_S50000x256_S256x256_S50000x256_1_0_0_1_n_n none x Wpr
  have v25 : Vec F S50000x256 .f32 := addf v23 v24
  have v26 : Vec F S1x256 .f32 := broadcastInDim S1x256 ![1] bcast_S256_S1x256_1 bp
  have v27 : Vec F S50000x256 .f32 := broadcastInDim S50000x256 ![0, 1] bcast_S1x256_S50000x256_0_1 v26
  have v28 : Vec F S50000x256 .f32 := addf v25 v27
  have v52 : Vec F S50000x256 .f32 := Host.dotGeneral dot_S50000x256_S256x256_S50000x256_1_0_0_1_n_n none an Wnl
  have v53 : Vec F S50000x256 .f32 := Host.dotGeneral dot_S50000x256_S256x256_S50000x256_1_0_0_1_n_n none x Wnr
  have v54 : Vec F S50000x256 .f32 := addf v52 v53
  have v55 : Vec F S1x256 .f32 := broadcastInDim S1x256 ![1] bcast_S256_S1x256_1 bn
  have v56 : Vec F S50000x256 .f32 := broadcastInDim S50000x256 ![0, 1] bcast_S1x256_S50000x256_0_1 v55
  have v57 : Vec F S50000x256 .f32 := addf v54 v56
  concatenate S50000x512 1 [⟨S50000x256, v28⟩, ⟨S50000x256, v57⟩] concatenates_S50000x256_S50000x256_S50000x512_d1

/-- Batch normalisation over the 50000 nodes with the textbook statistics, scale `γ`, shift `β`, then max(·, 0). -/
def bnTerm (h : Vec F S50000x512 .f32) (γ β : Vec F S512 .f32) : Vec F S50000x512 .f32 :=
  have cst_10 : Vec F S_ .f32 := constant S_ .f32 0x00000000#32
  have v59 : Vec F S512 .f32 := Host.reduceAdd h cst_10 reducesTo_S50000x512_S512_d0 h_S_
  have cst_11 : Vec F S_ .f32 := constant S_ .f32 0x47435000#32
  have v60 : Vec F S512 .f32 := broadcastInDim S512 ![] bcast_S_S512 cst_11
  have v61 : Vec F S512 .f32 := Host.divf v59 v60
  have c_12 : Vec F S_ .i32 := constantI S_ 32 0#32
  -- the variance of the columns of `h` with the divisor's correction `c_12`
  have var_cst : Vec F S_ .f32 := constant S_ .f32 0x00000000#32
  have var_v0 : Vec F S512 .f32 := Host.reduceAdd h var_cst reducesTo_S50000x512_S512_d0 h_S_
  have var_v1 : Vec F S1x512 .f32 := broadcastInDim S1x512 ![1] bcast_S512_S1x512_1 var_v0
  have var_cst_0 : Vec F S_ .f32 := constant S_ .f32 0x47435000#32
  have var_v2 : Vec F S1x512 .f32 := broadcastInDim S1x512 ![] bcast_S_S1x512 var_cst_0
  have var_v3 : Vec F S1x512 .f32 := Host.divf var_v1 var_v2
  have var_v4 : Vec F S50000x512 .f32 := broadcastInDim S50000x512 ![0, 1] bcast_S1x512_S50000x512_0_1 var_v3
  have var_v5 : Vec F S50000x512 .f32 := subf h var_v4
  have var_v6 : Vec F S50000x512 .f32 := mulf var_v5 var_v5
  have var_v7 : Vec F S_ .f32 := sitofp .f32 c_12
  have var_cst_1 : Vec F S_ .f32 := constant S_ .f32 0x47435000#32
  have var_v8 : Vec F S_ .f32 := subf var_cst_1 var_v7
  have var_cst_2 : Vec F S_ .f32 := constant S_ .f32 0x00000000#32
  have var_v9 : Vec F S512 .f32 := Host.reduceAdd var_v6 var_cst_2 reducesTo_S50000x512_S512_d0 h_S_
  have var_v10 : Vec F S512 .f32 := broadcastInDim S512 ![] bcast_S_S512 var_v8
  have var_v11 : Vec F S512 .f32 := Host.divf var_v9 var_v10
  have var_cst_3 : Vec F S_ .f32 := constant S_ .f32 0x00000000#32
  have var_v12 : Vec F S_ .i1 := cmpf .ogt var_v8 var_cst_3
  have var_cst_4 : Vec F S_ .f32 := constant S_ .f32 0x7FC00000#32
  -- the selection: the quotient where the divisor is positive, the constant elsewhere
  have where_v0 : Vec F S_ .f32 := id var_cst_4
  have where_v1 : Vec F S512 .f32 := broadcastInDim S512 ![] bcast_S_S512 where_v0
  have v62 : Vec F S512 .f32 := select (broadcastInDim S512 ![] bcast_S_S512 var_v12) var_v11 where_v1
  have v63 : Vec F S1x512 .f32 := broadcastInDim S1x512 ![1] bcast_S512_S1x512_1 v61
  have v64 : Vec F S50000x512 .f32 := broadcastInDim S50000x512 ![0, 1] bcast_S1x512_S50000x512_0_1 v63
  have v65 : Vec F S50000x512 .f32 := subf h v64
  have cst_13 : Vec F S_ .f32 := constant S_ .f32 0x3727C5AC#32
  have v66 : Vec F S512 .f32 := broadcastInDim S512 ![] bcast_S_S512 cst_13
  have v67 : Vec F S512 .f32 := addf v62 v66
  have v68 : Vec F S512 .f32 := Host.rsqrt v67
  have v69 : Vec F S1x512 .f32 := broadcastInDim S1x512 ![1] bcast_S512_S1x512_1 v68
  have v70 : Vec F S50000x512 .f32 := broadcastInDim S50000x512 ![0, 1] bcast_S1x512_S50000x512_0_1 v69
  have v71 : Vec F S50000x512 .f32 := mulf v65 v70
  have v72 : Vec F S1x512 .f32 := broadcastInDim S1x512 ![1] bcast_S512_S1x512_1 γ
  have v73 : Vec F S50000x512 .f32 := broadcastInDim S50000x512 ![0, 1] bcast_S1x512_S50000x512_0_1 v72
  have v74 : Vec F S50000x512 .f32 := mulf v71 v73
  have v75 : Vec F S1x512 .f32 := broadcastInDim S1x512 ![1] bcast_S512_S1x512_1 β
  have v76 : Vec F S50000x512 .f32 := broadcastInDim S50000x512 ![0, 1] bcast_S1x512_S50000x512_0_1 v75
  have v77 : Vec F S50000x512 .f32 := addf v74 v76
  -- the maximum with zero
  have relu_cst : Vec F S_ .f32 := constant S_ .f32 0x00000000#32
  have relu_v0 : Vec F S50000x512 .f32 := broadcastInDim S50000x512 ![] bcast_S_S50000x512 relu_cst
  maximumf v77 relu_v0

end Cert.ReferenceIdeal.Hand

end
-- ==== Proof.LibSegmentScale.lean ====
import Mathlib.Data.EReal.Inv
import Mathlib.Algebra.BigOperators.Ring.Finset
import Mathlib.Tactic.Ring

/-!
# Scaling a segment sum of finite reals, on the extended reals

On the extended reals multiplication does not distribute over addition at the infinities, but it
does over finite sums of finite reals.  This module states, over abstract finite index types, the
one algebraic law that a normalised graph convolution needs: scaling every summand of a segment
sum by the two end-point weights is the same as scaling the summands by the source weight only and
the whole sum by the target weight, because every summand of the segment of `n` has target `n`.
It also records that such sums, with a finite bias added, are again finite reals.
-/

namespace LibSegmentScale

open Finset

/-- The coercion of the reals into the extended reals commutes with finite sums:
`((∑ i ∈ s, f i : ℝ) : EReal) = ∑ i ∈ s, (f i : EReal)`. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of finite reals is the coercion of the real sum of products. -/
theorem sum_coe_mul_coe {ι : Type*} (s : Finset ι) (f g : ι → ℝ) :
    ∑ i ∈ s, ((f i : EReal) * (g i : EReal)) = ((∑ i ∈ s, f i * g i : ℝ) : EReal) := by
  rw [coe_finset_sum]
  exact Finset.sum_congr rfl (fun i _ => (EReal.coe_mul _ _).symm)

/-- **Segment scaling law, over any finite set of summands.**  If every `e ∈ s` has target
`tgt e = n`, then
`dinv n * (0 + ∑ e ∈ s, a e * dinv (src e)) = 0 + ∑ e ∈ s, a e * (dinv (src e) * dinv (tgt e))`
in the extended reals, all of `a` and `dinv` being finite reals. -/
theorem scale_sum_eq {E Nn : Type*} (s : Finset E) (src tgt : E → Nn) (n : Nn)
    (a : E → ℝ) (dinv : Nn → ℝ) (htgt : ∀ e ∈ s, tgt e = n) :
    ((dinv n : ℝ) : EReal) * (0 + ∑ e ∈ s, ((a e : EReal) * ((dinv (src e) : ℝ) : EReal)))
      = 0 + ∑ e ∈ s, (a e : EReal) * (((dinv (src e) : ℝ) : EReal) * ((dinv (tgt e) : ℝ) : EReal)) := by
  have hL : ∑ e ∈ s, ((a e : EReal) * ((dinv (src e) : ℝ) : EReal))
      = ((∑ e ∈ s, a e * dinv (src e) : ℝ) : EReal) := sum_coe_mul_coe s a (fun e => dinv (src e))
  have hR : ∑ e ∈ s, (a e : EReal) * (((dinv (src e) : ℝ) : EReal) * ((dinv (tgt e) : ℝ) : EReal))
      = ((∑ e ∈ s, a e * (dinv (src e) * dinv n) : ℝ) : EReal) := by
    rw [coe_finset_sum]
    refine Finset.sum_congr rfl (fun e he => ?_)
    rw [htgt e he, ← EReal.coe_mul, ← EReal.coe_mul]
  rw [hL, hR, zero_add, zero_add, ← EReal.coe_mul, Finset.mul_sum]
  congr 1
  exact Finset.sum_congr rfl (fun e _ => by ring)

/-- **Segment scaling law, in the form of a scatter-add.**  For finite types `E` of edge slots and
`Nn` of nodes, `dst e : Option Nn` the row an edge is accumulated into (`none`: dropped), and
`tgt e = n` whenever `dst e = some n`:
`dinv n * (0 + ∑_{e : dst e = some n} a e * dinv (src e))
   = 0 + ∑_{e : dst e = some n} a e * (dinv (src e) * dinv (tgt e))`. -/
theorem segment_scale {E Nn : Type*} [Fintype E] (dst : E → Option Nn) (src tgt : E → Nn) (n : Nn)
    [DecidablePred fun e => dst e = some n]
    (a : E → ℝ) (dinv : Nn → ℝ) (htgt : ∀ e, dst e = some n → tgt e = n) :
    ((dinv n : ℝ) : EReal)
        * (0 + ∑ e ∈ Finset.univ.filter (fun e => dst e = some n),
            ((a e : EReal) * ((dinv (src e) : ℝ) : EReal)))
      = 0 + ∑ e ∈ Finset.univ.filter (fun e => dst e = some n),
            (a e : EReal) * (((dinv (src e) : ℝ) : EReal) * ((dinv (tgt e) : ℝ) : EReal)) :=
  scale_sum_eq _ src tgt n a dinv (fun e he => htgt e (Finset.mem_filter.mp he).2)

/-- A finite sum of finite reals, added to `0` and to a finite real `b`, is a finite real. -/
theorem exists_real_sum_add {ι : Type*} (s : Finset ι) (f : ι → ℝ) (b : ℝ) :
    ∃ r : ℝ, (0 + ∑ i ∈ s, (f i : EReal)) + (b : EReal) = (r : EReal) :=
  ⟨∑ i ∈ s, f i + b, by rw [zero_add, ← coe_finset_sum, ← EReal.coe_add]⟩

/-- The value of one output entry in the summand-scaled form,
`(0 + ∑ e ∈ s, a e * (c e * d e)) + b` with all of `a c d b` finite reals, is a finite real. -/
theorem exists_real_sum_mul_mul_add {ι : Type*} (s : Finset ι) (a c d : ι → ℝ) (b : ℝ) :
    ∃ r : ℝ, (0 + ∑ i ∈ s, (a i : EReal) * ((c i : EReal) * (d i : EReal))) + (b : EReal)
      = (r : EReal) := by
  refine ⟨∑ i ∈ s, a i * (c i * d i) + b, ?_⟩
  rw [zero_add, EReal.coe_add, coe_finset_sum]
  simp only [EReal.coe_mul]

/-- The value of one output entry in the sum-scaled form,
`w * (0 + ∑ e ∈ s, a e * c e) + b` with all of `w a c b` finite reals, is a finite real. -/
theorem exists_real_mul_sum_mul_add {ι : Type*} (s : Finset ι) (w : ℝ) (a c : ι → ℝ) (b : ℝ) :
    ∃ r : ℝ, (w : EReal) * (0 + ∑ i ∈ s, (a i : EReal) * (c i : EReal)) + (b : EReal)
      = (r : EReal) :=
  ⟨w * ∑ i ∈ s, a i * c i + b, by
    rw [zero_add, sum_coe_mul_coe, ← EReal.coe_mul, ← EReal.coe_add]⟩

/-- The maximum of a finite real with zero is a finite real:
`max (r : EReal) 0 = ((max r 0 : ℝ) : EReal)`. -/
theorem max_coe_zero (r : ℝ) : max (r : EReal) 0 = ((max r 0 : ℝ) : EReal) :=
  (EReal.coe_strictMono.monotone.map_max (a := r) (b := 0)).symm

/-- The maximum of zero with a finite real is a finite real. -/
theorem max_zero_coe (r : ℝ) : max (0 : EReal) (r : EReal) = ((max 0 r : ℝ) : EReal) :=
  (EReal.coe_strictMono.monotone.map_max (a := 0) (b := r)).symm

end LibSegmentScale
-- ==== Proof.LibRealEntries.lean ====
import Idealize.ShloMosaic.PureOps.Ideal.Laws
import Idealize.ShloMosaic.Lib.ValueIdx
import proofs.«180272_j17540646437113_2_alg».proof.Proof.LibSegmentScale
import proofs.«180272_j17540646437113_2_alg».proof.Proof.LibGatherScatterRead

/-!
# Arrays whose entries are finite reals

On the extended reals the algebraic laws of a normalised graph convolution need every entry to be
a finite real.  This module shows that the arrays such a computation builds stay finite: a degree
count (a scatter-add of finite updates into a finite operand), the degree weight
`where (deg > 0) (1 / √deg) 0`, a finite sum of products, and the maximum with zero.
-/

noncomputable section

open scoped BigOperators

namespace LibRealEntries

open Idealize.ShloMosaic Idealize.ShloMosaic.ValueIdx LibGatherScatterRead

/-- `where (d > 0) (1 / √d) 0` is a finite real for every finite real `d`: it is `(√d)⁻¹` when
`0 < d` and `0` otherwise. -/
theorem exists_real_select_rsqrt (d : ℝ) :
    ∃ r : ℝ, Scalar.select (Ideal.cmp .ogt (d : EReal) 0) (Ideal.rsqrt (d : EReal)) (0 : EReal)
      = (r : EReal) := by
  by_cases hd : 0 < d
  · refine ⟨(Real.sqrt d)⁻¹, ?_⟩
    have hlt : ((0 : EReal) < (d : EReal)) := by exact_mod_cast hd
    have hc : Ideal.cmp .ogt (d : EReal) 0 = 1#1 := by
      unfold Ideal.cmp
      simp [hlt]
    rw [hc, select_one, Ideal.rsqrt_coe, if_neg (not_lt.mpr hd.le), if_neg hd.ne']
  · refine ⟨0, ?_⟩
    have hlt : ¬ ((0 : EReal) < (d : EReal)) := fun h => hd (by exact_mod_cast h)
    have hc : Ideal.cmp .ogt (d : EReal) 0 = 0#1 := by
      unfold Ideal.cmp
      simp [hlt]
    rw [hc, select_zero]
    rfl

/-- A finite sum of products of finite reals is a finite real. -/
theorem exists_real_sum_mul {ι : Type*} (s : Finset ι) (a b : ι → ℝ) :
    ∃ r : ℝ, ∑ k ∈ s, (a k : EReal) * (b k : EReal) = (r : EReal) :=
  ⟨_, LibSegmentScale.sum_coe_mul_coe s a b⟩

/-- The maximum of a finite real with zero is a finite real. -/
theorem exists_real_max_zero (r : ℝ) : ∃ r' : ℝ, max (r : EReal) 0 = (r' : EReal) :=
  ⟨_, LibSegmentScale.max_coe_zero r⟩

section Arrays
variable {φ : FTy}

/-- **A degree count is finite**: a scatter-add of update entries that are finite reals into a
vector of finite reals has finite real entries. -/
theorem scatterAdd_flat_real {N M w : Nat}
    (d : ScatterDims ⟨1, ![N]⟩ ⟨2, ![M, 1]⟩ ⟨1, ![M]⟩)
    (hd : d.updateWindowDims = [] ∧ d.insertedWindowDims = [0]
      ∧ d.scatterDimsToOperandDims = [0] ∧ d.indexVectorDim = 1)
    (x : FVec Ideal ⟨1, ![N]⟩ φ) (idx : IVec ⟨2, ![M, 1]⟩ w) (upd : FVec Ideal ⟨1, ![M]⟩ φ)
    (hx : ∀ i, ∃ r : ℝ, x i = (r : EReal)) (hu : ∀ i, ∃ r : ℝ, upd i = (r : EReal))
    (i : (⟨1, ![N]⟩ : Shape).Idx) :
    ∃ r : ℝ, Host.scatterAdd (F := Ideal) d x idx upd i = (r : EReal) := by
  obtain ⟨d1, d2, d3, d4⟩ := hd
  choose xr hxr using hx
  choose ur hur using hu
  obtain ⟨n, rfl⟩ : ∃ n : Fin N, i = ix1 n := ⟨i 0, eq_ix1 i⟩
  rw [scatterAdd_flat_apply d d1 d2 d3 d4, hxr]
  simp only [hur]
  exact ⟨xr (ix1 n) + ∑ e ∈ Finset.univ.filter
      (fun e : Fin M => scatterRowOf? N (idx (ix2 e (0 : Fin 1))) = some n), ur (ix1 e),
    by rw [EReal.coe_add, LibSegmentScale.coe_finset_sum]⟩

/-- **The degree weight is finite**: for a degree array with finite real entries and two zero
arrays, `select (deg > zero₁) (rsqrt deg) zero₂` has finite real entries. -/
theorem select_rsqrt_real {s : Shape} (deg zero₁ zero₂ : FVec Ideal s φ)
    (hdeg : ∀ i, ∃ r : ℝ, deg i = (r : EReal)) (h₁ : ∀ i, zero₁ i = 0) (h₂ : ∀ i, zero₂ i = 0)
    (i : s.Idx) :
    ∃ r : ℝ, select (cmpf (F := Ideal) .ogt deg zero₁) (Host.rsqrt (F := Ideal) deg) zero₂ i
      = (r : EReal) := by
  obtain ⟨dr, hdr⟩ := hdeg i
  show ∃ r : ℝ, Scalar.select (Ideal.cmp .ogt (deg i) (zero₁ i)) (Ideal.rsqrt (deg i)) (zero₂ i)
    = (r : EReal)
  rw [h₁, h₂, hdr]
  exact exists_real_select_rsqrt dr

/-- **The maximum with a zero array is finite.** -/
theorem maximumf_zero_real {s : Shape} (x zero : FVec Ideal s φ)
    (hx : ∀ i, ∃ r : ℝ, x i = (r : EReal)) (hz : ∀ i, zero i = 0) (i : s.Idx) :
    ∃ r : ℝ, maximumf (F := Ideal) x zero i = (r : EReal) := by
  obtain ⟨xr, hxr⟩ := hx i
  rw [maximumf_apply, hz, hxr]
  exact exists_real_max_zero xr

end Arrays

end LibRealEntries

end
-- ==== Proof.AggrReal.lean ====
/-
  The mean aggregation of real rows is real.

  The aggregated array is a quotient.  Its numerator is a scatter-add, into zeros, of rows gathered from the node
  features: every entry is a finite sum of entries of the features.  Its denominator is the in-degree — a scatter-add
  of ones into zeros — clamped below at 1 and spread over the channels: a real number that is at least 1, so the
  quotient is the product with a real inverse.
-/
import proofs.«180272_j17540646437113_2_alg».proof.Proof.RefTerm
import proofs.«180272_j17540646437113_2_alg».proof.Proof.Finite
import proofs.«180272_j17540646437113_2_alg».proof.Proof.LibRealEntries

noncomputable section

namespace Cert.SGC

open Idealize.ShloMosaic Idealize.ShloMosaic.ValueIdx LibRealArrays
open Cert.ReferenceIdeal

/-- With real node features, every entry of the aggregated array is a real number, whatever the edge table holds. -/
theorem aggr_real [Cert.ReferenceIdeal.Facts] (x : Vec Ideal S50000x256 .f32) (e : Vec Ideal S2x300000 .i32)
    (hx : IsReal x) : IsReal (Cert.ReferenceIdeal.Hand.aggr (F := Ideal) x e) := by
  unfold Cert.ReferenceIdeal.Hand.aggr
  dsimp only
  refine isReal_div _ _ ?_ ?_
  · exact isReal_scatterAdd_rows _ rfl rfl rfl rfl _ _ _
      (isReal_broadcastInDim _ _ _ (isReal_zero _))
      (isReal_gather_rows (by norm_num) _ rfl rfl rfl rfl rfl rfl rfl _ _ hx)
  · intro i
    exact max_one_real _ _
      (LibRealEntries.scatterAdd_flat_real _ ⟨rfl, rfl, rfl, rfl⟩ _ _ _
        (isReal_broadcastInDim _ _ _ (isReal_zero _)) (isReal_broadcastInDim _ _ _ (isReal_one _)))
      (fun _ => one_word) _

end Cert.SGC

end
-- ==== Proof.KernelTerm.lean ====
/-
  The mean aggregation of neighbour rows, as the host computes it before the first tiled region: for an edge table
  `e` (row 0 the source nodes, row 1 the destination nodes) the rows of `x` at the sources (a negative index wrapped
  by the number of nodes) are summed into their destinations, and each destination row is divided by the larger of
  its in-degree and one.  One line per host operation, in the program's order.
-/
import proofs.«180272_j17540646437113_2_alg».proof.KernelIdeal

noncomputable section

namespace Cert.KernelIdeal.Hand

open Idealize.ShloMosaic

variable {F : FTy → Type} [FloatOps F] [Facts₀]
open Facts₀

/-- Scatter-add of the gathered source rows into the destination rows, divided by max(in-degree, 1). -/
def aggr (x : Vec F S50000x256 .f32) (e : Vec F S2x300000 .i32) : Vec F S50000x256 .f32 :=
  have v0 : Vec F S1x300000 .i32 := extractStridedSlice S1x300000 ![0, 0] e slices_S2x300000_S1x300000_0_0
  have v1 : Vec F S300000 .i32 := shapeCast S300000 v0 shapeCasts_S1x300000_S300000
  have v2 : Vec F S1x300000 .i32 := extractStridedSlice S1x300000 ![1, 0] e slices_S2x300000_S1x300000_1_0
  have v3 : Vec F S300000 .i32 := shapeCast S300000 v2 shapeCasts_S1x300000_S300000
  have c : Vec F S_ .i32 := constantI S_ 32 0#32
  have v4 : Vec F S300000 .i32 := broadcastInDim S300000 ![] bcast_S_S300000 c
  have v5 : Vec F S300000 .i1 := cmpi .slt v1 v4
  have c_0 : Vec F S_ .i32 := constantI S_ 32 50000#32
  have v6 : Vec F S300000 .i32 := broadcastInDim S300000 ![] bcast_S_S300000 c_0
  have v7 : Vec F S300000 .i32 := addi v1 v6
  have v8 : Vec F S300000 .i32 := select v5 v7 v1
  have v9 : Vec F S300000x1 .i32 := broadcastInDim S300000x1 ![0] bcast_S300000_S300000x1_0 v8
  have v10 : Vec F S300000x256 .f32 := Host.gather gather_S50000x256_S300000x1_S300000x256_1_0_n_n_0_1_1256 x v9
  have cst : Vec F S_ .f32 := constant S_ .f32 0x00000000#32
  have v11 : Vec F S50000x256 .f32 := broadcastInDim S50000x256 ![] bcast_S_S50000x256 cst
  have v12 : Vec F S300000x1 .i32 := broadcastInDim S300000x1 ![0] bcast_S300000_S300000x1_0 v3
  have v13 : Vec F S50000x256 .f32 := Host.scatterAdd scatter_S50000x256_S300000x1_S300000x256_1_0_0_1 v11 v12 v10
  have cst_1 : Vec F S_ .f32 := constant S_ .f32 0x3F800000#32
  have v14 : Vec F S300000 .f32 := broadcastInDim S300000 ![] bcast_S_S300000 cst_1
  have cst_2 : Vec F S_ .f32 := constant S_ .f32 0x00000000#32
  have v15 : Vec F S50000 .f32 := broadcastInDim S50000 ![] bcast_S_S50000 cst_2
  have v16 : Vec F S300000x1 .i32 := broadcastInDim S300000x1 ![0] bcast_S300000_S300000x1_0 v3
  have v17 : Vec F S50000 .f32 := Host.scatterAdd scatter_S50000_S300000x1_S300000_n_0_0_1 v15 v16 v14
  have cst_3 : Vec F S_ .f32 := constant S_ .f32 0x3F800000#32
  have v18 : Vec F S50000 .f32 := broadcastInDim S50000 ![] bcast_S_S50000 cst_3
  have v19 : Vec F S50000 .f32 := maximumf v17 v18
  have v20 : Vec F S50000x1 .f32 := broadcastInDim S50000x1 ![0] bcast_S50000_S50000x1_0 v19
  have v21 : Vec F S50000x256 .f32 := broadcastInDim S50000x256 ![0, 1] bcast_S50000x1_S50000x256_0_1 v20
  Host.divf v13 v21

end Cert.KernelIdeal.Hand

end
-- ==== Proof.AggrEq.lean ====
/-
  The two programs aggregate alike: before anything else each computes, with the same host operations in the same
  order, the mean of the source rows arriving at each node.  The two spellings of that term are one function.
-/
import proofs.«180272_j17540646437113_2_alg».proof.Proof.KernelTerm
import proofs.«180272_j17540646437113_2_alg».proof.Proof.RefTerm
import Idealize.ShloMosaic.PureOps.Ideal

noncomputable section

namespace Cert.SGC

open Idealize.ShloMosaic

/-- The kernel program's aggregation term is the reference's. -/
theorem aggr_eq [Cert.KernelIdeal.Facts₀] [Cert.ReferenceIdeal.Facts]
    (x : Vec Ideal Cert.KernelIdeal.S50000x256 .f32) (e : Vec Ideal Cert.KernelIdeal.S2x300000 .i32) :
    Cert.KernelIdeal.Hand.aggr (F := Ideal) x e = Cert.ReferenceIdeal.Hand.aggr (F := Ideal) x e := rfl

end Cert.SGC

end
-- ==== Proof.KernelRun.lean ====
/-
  The idealized kernel program's run with its result named.

  From any launch memory with zero counters every weakly fair execution of the program on the TensorCores ends,
  nothing faulting; the result buffer then holds what the second tiled region leaves in its output window — the last
  boundary's contents of the run's fold through the host stretches and the two regions — and the eleven argument
  arrays are as launched.
-/
import proofs.«180272_j17540646437113_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents `Gen.W4 m ρ c`, every argument as launched. -/
theorem run_val : θ_run defs (onTc (τ := τ) (main (F := F))) ⟨m, fun _ => 0, ρ⟩ (fun r => ∀ c : Dev nD,
      r.2.mem ((c.tc : Thread nD τ).loc main_v66) = Gen.W4 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W4 m ρ c) s')
      isplitl [Hh] <;> iassumption)
    (hQ := fun s h c =>
      ⟨h c _ (Gen.mem_uc main_v66 (by decide)),
       (h c _ (Gen.mem_uc main_arg0 (by decide))).trans (Gen.W4_main_arg0 m ρ c),
       (h c _ (Gen.mem_uc main_arg1 (by decide))).trans (Gen.W4_main_arg1 m ρ c),
       (h c _ (Gen.mem_uc main_arg2 (by decide))).trans (Gen.W4_main_arg2 m ρ c),
       (h c _ (Gen.mem_uc main_arg3 (by decide))).trans (Gen.W4_main_arg3 m ρ c),
       (h c _ (Gen.mem_uc main_arg4 (by decide))).trans (Gen.W4_main_arg4 m ρ c),
       (h c _ (Gen.mem_uc main_arg5 (by decide))).trans (Gen.W4_main_arg5 m ρ c),
       (h c _ (Gen.mem_uc main_arg6 (by decide))).trans (Gen.W4_main_arg6 m ρ c),
       (h c _ (Gen.mem_uc main_arg7 (by decide))).trans (Gen.W4_main_arg7 m ρ c),
       (h c _ (Gen.mem_uc main_arg8 (by decide))).trans (Gen.W4_main_arg8 m ρ c),
       (h c _ (Gen.mem_uc main_arg9 (by decide))).trans (Gen.W4_main_arg9 m ρ c),
       (h c _ (Gen.mem_uc main_arg10 (by decide))).trans (Gen.W4_main_arg10 m ρ c)⟩)

end Cert.KernelIdeal.Hand

end
-- ==== Proof.KernelHostReduce.lean ====
/-
  Two readings at an index that the host stretches need.

  The host's sum over the tile axis and the sublane axis of a 25 × 8 × 512 array: at channel `q` it is the initial
  value plus the double sum, over the 25 tiles and the 8 sublanes, of the array at (tile, sublane, q).  The indices
  that reduce to channel `q` are exactly the triples with last coordinate `q`, one for each (tile, sublane) pair.

  A vector given a leading unit axis: the one row of the resulting array is the vector.
-/
import Idealize.ShloMosaic.PureOps.Ideal.Laws
import Idealize.ShloMosaic.Lib.ValueIdx
import Idealize.ShloMosaic.Lib.ValueLayout
import proofs.«180272_j17540646437113_2_alg».proof.Proof.Spec

noncomputable section

namespace Cert.KernelIdeal.Hand

open Idealize.ShloMosaic Idealize.ShloMosaic.ValueIdx
open scoped BigOperators

/-- A sum over the first two of three axes, read at a coordinate of the third. -/
theorem hostReduceAdd_axes01
    (h : (⟨3, ![25, 8, 512]⟩ : Shape).ReducesTo [0, 1] (⟨1, ![512]⟩ : Shape))
    (x : (⟨3, ![25, 8, 512]⟩ : Shape).Idx → EReal) (init : EReal) (q : Fin 512) :
    Ideal.hostReduceAdd h x init (ix1 q) = init + ∑ t : Fin 25, ∑ s : Fin 8, x (ix3 t s q) := by
  unfold Ideal.hostReduceAdd
  refine congrArg (init + ·) ?_
  have hdrop : ∀ i : (⟨3, ![25, 8, 512]⟩ : Shape).Idx, (h.drop i = ix1 q) ↔ i 2 = q := by
    intro i
    have hv : (h.drop i 0 : Nat) = i 2 := Shape.ReducesTo.drop_apply_val_of_eq h i 0 2
    constructor
    · intro e
      have := congrArg (fun j : (⟨1, ![512]⟩ : Shape).Idx => (j 0 : Nat)) e
      exact Fin.ext (hv.symm.trans this)
    · intro e
      funext b
      obtain rfl : b = 0 := Subsingleton.elim _ _
      exact Fin.ext (hv.trans (congrArg Fin.val e))
  rw [← Finset.sum_product']
  symm
  refine Finset.sum_bij (fun p _ => ix3 p.1 p.2 q) ?_ ?_ ?_ ?_
  · intro p _
    exact Finset.mem_filter.mpr ⟨Finset.mem_univ _, (hdrop _).mpr rfl⟩
  · intro p _ p' _ e
    exact Prod.ext (congrFun e 0) (congrFun e 1)
  · intro i hi
    have hq : i 2 = q := (hdrop i).mp (Finset.mem_filter.mp hi).2
    refine ⟨(i 0, i 1), Finset.mem_product.mpr ⟨Finset.mem_univ _, Finset.mem_univ _⟩, ?_⟩
    show ix3 (i 0) (i 1) q = i
    rw [← hq]
    exact (eq_ix3 i).symm
  · intro p _
    rfl

/-- The one row of a vector cast to a one-row array is the vector. -/
theorem rowVec_shapeCast {a : Nat} (x : (⟨1, ![a]⟩ : Shape).Idx → EReal)
    (h : (⟨1, ![a]⟩ : Shape).ShapeCasts ⟨2, ![1, a]⟩) :
    Cert.SGC.rowVec (shapeCast ⟨2, ![1, a]⟩ x h) = x := by
  funext q
  exact (shapeCast_a_1a_apply x h (0 : Fin 1) (q 0)).trans (congrArg x (eq_ix1 q).symm)

end Cert.KernelIdeal.Hand

end
-- ==== Proof.KernelHostPre.lean ====
/-
  The host operations before the first tiled region, read back: what each of the region's input arrays holds when
  the region is entered, as a function of the launch memory.

  The two aggregated feature arrays are the mean aggregation `aggr` of the node features over the positive and the
  negative edge table; the two bias rows are the bias vectors with a leading unit axis, so their one row is the bias
  vector itself; the node features and the four weight matrices are as launched (no host operation writes an
  argument).
-/
import proofs.«180272_j17540646437113_2_alg».proof.Proof.Gen.KernelIdeal.Frame
import proofs.«180272_j17540646437113_2_alg».proof.Proof.KernelTerm
import proofs.«180272_j17540646437113_2_alg».proof.Proof.KernelHostReduce
import proofs.«180272_j17540646437113_2_alg».proof.Proof.Spec
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg)

attribute [local irreducible] Host.gather Host.scatterAdd

/-- The positive sign's aggregated rows at the first region's entry. -/
theorem V1_v22 (c : Dev nD) :
    (Gen.V1 m ρ c main_v22 : Vec Ideal S50000x256 .f32) = aggr (m ((c.tc : Thread nD τ).loc main_arg0)) (m ((c.tc : Thread nD τ).loc main_arg1)) := by
  dsimp only [Gen.V1, Gen.W1, Gen.hostOps0]
  after_results_simp
  rfl

/-- The negative sign's aggregated rows at the first region's entry. -/
theorem V1_v45 (c : Dev nD) :
    (Gen.V1 m ρ c main_v45 : Vec Ideal S50000x256 .f32) = aggr (m ((c.tc : Thread nD τ).loc main_arg0)) (m ((c.tc : Thread nD τ).loc main_arg2)) := by
  dsimp only [Gen.V1, Gen.W1, Gen.hostOps0]
  after_results_simp
  rfl

/-- The positive sign's bias as a one-row array. -/
theorem V1_v46 (c : Dev nD) :
    (Gen.V1 m ρ c main_v46 : Vec Ideal S1x256 .f32) = shapeCast S1x256 (m ((c.tc : Thread nD τ).loc main_arg5)) Gen.shapeCasts_S256_S1x256 := by
  dsimp only [Gen.V1, Gen.W1, Gen.hostOps0]
  after_results_simp
  rfl

/-- The negative sign's bias as a one-row array. -/
theorem V1_v47 (c : Dev nD) :
    (Gen.V1 m ρ c main_v47 : Vec Ideal S1x256 .f32) = shapeCast S1x256 (m ((c.tc : Thread nD τ).loc main_arg8)) Gen.shapeCasts_S256_S1x256 := by
  dsimp only [Gen.V1, Gen.W1, Gen.hostOps0]
  after_results_simp
  rfl

/-- The positive sign's bias row, read as a vector, is the bias as launched. -/
theorem rowVec_V1_v46 (c : Dev nD) :
    Cert.SGC.rowVec (a := 256) (Gen.V1 m ρ c main_v46) = (m ((c.tc : Thread nD τ).loc main_arg5)) := by
  rw [V1_v46]; exact rowVec_shapeCast _ _

/-- The negative sign's bias row, read as a vector, is the bias as launched. -/
theorem rowVec_V1_v47 (c : Dev nD) :
    Cert.SGC.rowVec (a := 256) (Gen.V1 m ρ c main_v47) = (m ((c.tc : Thread nD τ).loc main_arg8)) := by
  rw [V1_v47]; exact rowVec_shapeCast _ _

/-- No host operation before the first region writes argument 0. -/
theorem V1_arg0 (c : Dev nD) : Gen.V1 m ρ c main_arg0 = (m ((c.tc : Thread nD τ).loc main_arg0)) := by
  dsimp only [Gen.V1, Gen.W1, Gen.hostOps0]
  after_results_simp

/-- No host operation before the first region writes argument 3. -/
theorem V1_arg3 (c : Dev nD) : Gen.V1 m ρ c main_arg3 = (m ((c.tc : Thread nD τ).loc main_arg3)) := by
  dsimp only [Gen.V1, Gen.W1, Gen.hostOps0]
  after_results_simp

/-- No host operation before the first region writes argument 4. -/
theorem V1_arg4 (c : Dev nD) : Gen.V1 m ρ c main_arg4 = (m ((c.tc : Thread nD τ).loc main_arg4)) := by
  dsimp only [Gen.V1, Gen.W1, Gen.hostOps0]
  after_results_simp

/-- No host operation before the first region writes argument 6. -/
theorem V1_arg6 (c : Dev nD) : Gen.V1 m ρ c main_arg6 = (m ((c.tc : Thread nD τ).loc main_arg6)) := by
  dsimp only [Gen.V1, Gen.W1, Gen.hostOps0]
  after_results_simp

/-- No host operation before the first region writes argument 7. -/
theorem V1_arg7 (c : Dev nD) : Gen.V1 m ρ c main_arg7 = (m ((c.tc : Thread nD τ).loc main_arg7)) := by
  dsimp only [Gen.V1, Gen.W1, Gen.hostOps0]
  after_results_simp

end Cert.KernelIdeal.Hand

end
-- ==== Proof.KernelHostMid.lean ====
/-
  The host operations between the two tiled regions, read back over the contents the first region leaves: what each
  input array of the second region holds when that region is entered.

  The feature array passes through untouched.  The per-tile partial sums (25 tiles × 8 sublanes × 512 channels) of the
  features and of their squares are summed over tiles and sublanes from zero; the first total divided by the number of
  nodes is the channel mean, the second the mean of squares; the inverse standard deviation is
  rsqrt(max(mean of squares − mean², 0) + ε).  The mean and the inverse deviation enter the second region as one-row
  arrays, and so do the scale and the shift, which are the last two arguments as launched.
-/
import proofs.«180272_j17540646437113_2_alg».proof.Proof.Gen.KernelIdeal.Frame
import proofs.«180272_j17540646437113_2_alg».proof.Proof.KernelHostReduce
import proofs.«180272_j17540646437113_2_alg».proof.Proof.Spec
import Idealize.ShloMosaic.Lib.IdealHost
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg)

/-! ## The statistics as functions of the two arrays of partial sums -/

/-- The total of an array of partial sums over its tile and sublane axes, from zero. -/
def hostTotal (s : Vec Ideal S25x8x512 .f32) : Vec Ideal S512 .f32 :=
  Host.reduceAdd (F := Ideal) s (constant (F := Ideal) S_ .f32 0x00000000#32) Gen.reducesTo_S25x8x512_S512_d0_1 Gen.h_S_

/-- The total at a channel: zero plus the double sum over tiles and sublanes. -/
theorem hostTotal_apply (s : Vec Ideal S25x8x512 .f32) (j : Fin 512) :
    hostTotal s (ix1 j) = Cert.SGC.c0 + ∑ t : Fin 25, ∑ u : Fin 8, s (ix3 t u j) :=
  hostReduceAdd_axes01 Gen.reducesTo_S25x8x512_S512_d0_1 s _ j

/-- A total divided by the number of nodes. -/
def hostMean (s : Vec Ideal S25x8x512 .f32) : Vec Ideal S512 .f32 :=
  Host.divf (F := Ideal) (hostTotal s) (broadcastInDim S512 ![] Gen.bcast_S_S512 (constant (F := Ideal) S_ .f32 0x47435000#32))

section
attribute [local irreducible] hostTotal
/-- The mean at a channel. -/
theorem hostMean_apply (s : Vec Ideal S25x8x512 .f32) (j : Fin 512) :
    hostMean s (ix1 j) = Ideal.div (Cert.SGC.c0 + ∑ t : Fin 25, ∑ u : Fin 8, s (ix3 t u j)) Cert.SGC.cN := by
  rw [← hostTotal_apply s j]; rfl
end

/-- The inverse standard deviation from the totals of the features and of their squares. -/
def hostInv (s1 s2 : Vec Ideal S25x8x512 .f32) : Vec Ideal S512 .f32 :=
  have v52 : Vec Ideal S512 .f32 := hostMean s1
  have v54 : Vec Ideal S512 .f32 := hostMean s2
  have v55 : Vec Ideal S512 .f32 := mulf (F := Ideal) (φ := .f32) v52 v52
  have v56 : Vec Ideal S512 .f32 := subf (F := Ideal) (φ := .f32) v54 v55
  have v57 : Vec Ideal S512 .f32 := broadcastInDim S512 ![] Gen.bcast_S_S512 (constant (F := Ideal) S_ .f32 0x00000000#32)
  have v58 : Vec Ideal S512 .f32 := maximumf (F := Ideal) (φ := .f32) v56 v57
  have v59 : Vec Ideal S512 .f32 := broadcastInDim S512 ![] Gen.bcast_S_S512 (constant (F := Ideal) S_ .f32 0x3727C5AC#32)
  have v60 : Vec Ideal S512 .f32 := addf (F := Ideal) (φ := .f32) v58 v59
  Host.rsqrt (F := Ideal) (φ := .f32) v60

section
attribute [local irreducible] hostMean
/-- The inverse standard deviation at a channel. -/
theorem hostInv_apply (s1 s2 : Vec Ideal S25x8x512 .f32) (j : Fin 512) :
    hostInv s1 s2 (ix1 j)
      = Ideal.rsqrt (max (Ideal.div (Cert.SGC.c0 + ∑ t : Fin 25, ∑ u : Fin 8, s2 (ix3 t u j)) Cert.SGC.cN
            - Ideal.div (Cert.SGC.c0 + ∑ t : Fin 25, ∑ u : Fin 8, s1 (ix3 t u j)) Cert.SGC.cN
              * Ideal.div (Cert.SGC.c0 + ∑ t : Fin 25, ∑ u : Fin 8, s1 (ix3 t u j)) Cert.SGC.cN) Cert.SGC.c0 + Cert.SGC.cEps) := by
  rw [← hostMean_apply s1 j, ← hostMean_apply s2 j]; rfl
end

/-! ## The second region's entry contents -/

/-- The feature array is what the first region left. -/
theorem V3_v48_0 (c : Dev nD) : Gen.V3 m ρ c main_v48_0 = Gen.W2 m ρ c (Proc.devRef .tc main_v48_0) := by
  dsimp only [Gen.V3, Gen.W3, Gen.hostOps1]
  after_results_simp

/-- The mean row, as a term of the first array of partial sums. -/
theorem V3_v62_term (c : Dev nD) :
    (Gen.V3 m ρ c main_v62 : Vec Ideal S1x512 .f32)
      = shapeCast S1x512 (hostMean (Gen.W2 m ρ c (Proc.devRef .tc main_v48_1))) Gen.shapeCasts_S512_S1x512 := by
  dsimp only [Gen.V3, Gen.W3, Gen.hostOps1]
  after_results_simp
  rfl

/-- The inverse-deviation row, as a term of the two arrays of partial sums. -/
theorem V3_v63_term (c : Dev nD) :
    (Gen.V3 m ρ c main_v63 : Vec Ideal S1x512 .f32)
      = shapeCast S1x512 (hostInv (Gen.W2 m ρ c (Proc.devRef .tc main_v48_1)) (Gen.W2 m ρ c (Proc.devRef .tc main_v48_2))) Gen.shapeCasts_S512_S1x512 := by
  dsimp only [Gen.V3, Gen.W3, Gen.hostOps1]
  after_results_simp
  rfl

/-- The mean row at channel `j`, `s1` being the first region's array of partial sums of the features. -/
theorem V3_v62 (c : Dev nD) (s1 : Vec Ideal S25x8x512 .f32)
    (hs1 : ((Gen.W2 m ρ c (Proc.devRef .tc main_v48_1)) : Vec Ideal S25x8x512 .f32) = s1) (j : Fin 512) :
    (Gen.V3 m ρ c main_v62 : Vec Ideal S1x512 .f32) (ix2 (0 : Fin 1) j)
      = Ideal.div (Cert.SGC.c0 + ∑ t : Fin 25, ∑ u : Fin 8, s1 (ix3 t u j)) Cert.SGC.cN := by
  rw [V3_v62_term, hs1]
  exact (shapeCast_a_1a_apply _ Gen.shapeCasts_S512_S1x512 (0 : Fin 1) j).trans (hostMean_apply s1 j)

/-- The inverse-deviation row at channel `j`, `s2` being the array of partial sums of the squared features. -/
theorem V3_v63 (c : Dev nD) (s1 s2 : Vec Ideal S25x8x512 .f32)
    (hs1 : ((Gen.W2 m ρ c (Proc.devRef .tc main_v48_1)) : Vec Ideal S25x8x512 .f32) = s1)
    (hs2 : ((Gen.W2 m ρ c (Proc.devRef .tc main_v48_2)) : Vec Ideal S25x8x512 .f32) = s2) (j : Fin 512) :
    (Gen.V3 m ρ c main_v63 : Vec Ideal S1x512 .f32) (ix2 (0 : Fin 1) j)
      = Ideal.rsqrt (max (Ideal.div (Cert.SGC.c0 + ∑ t : Fin 25, ∑ u : Fin 8, s2 (ix3 t u j)) Cert.SGC.cN
            - Ideal.div (Cert.SGC.c0 + ∑ t : Fin 25, ∑ u : Fin 8, s1 (ix3 t u j)) Cert.SGC.cN
              * Ideal.div (Cert.SGC.c0 + ∑ t : Fin 25, ∑ u : Fin 8, s1 (ix3 t u j)) Cert.SGC.cN) Cert.SGC.c0 + Cert.SGC.cEps) := by
  rw [V3_v63_term, hs1, hs2]
  exact (shapeCast_a_1a_apply _ Gen.shapeCasts_S512_S1x512 (0 : Fin 1) j).trans (hostInv_apply s1 s2 j)

/-- Neither region nor any host operation before the second region writes the scale argument. -/
theorem W2_arg9 (c : Dev nD) : Gen.W2 m ρ c (Proc.devRef .tc main_arg9) = (m ((c.tc : Thread nD τ).loc main_arg9)) :=
  (Gen.W2_of_ne m ρ c main_arg9 (by decide)).trans (by
    dsimp only [Gen.W1, Gen.hostOps0]
    after_results_simp)

/-- … nor the shift argument. -/
theorem W2_arg10 (c : Dev nD) : Gen.W2 m ρ c (Proc.devRef .tc main_arg10) = (m ((c.tc : Thread nD τ).loc main_arg10)) :=
  (Gen.W2_of_ne m ρ c main_arg10 (by decide)).trans (by
    dsimp only [Gen.W1, Gen.hostOps0]
    after_results_simp)

/-- The scale row, read as a vector, is the scale as launched. -/
theorem rowVec_V3_v64 (c : Dev nD) :
    Cert.SGC.rowVec (a := 512) (Gen.V3 m ρ c main_v64) = (m ((c.tc : Thread nD τ).loc main_arg9)) := by
  have e : (Gen.V3 m ρ c main_v64 : Vec Ideal S1x512 .f32)
      = shapeCast S1x512 (Gen.W2 m ρ c (Proc.devRef .tc main_arg9)) Gen.shapeCasts_S512_S1x512 := by
    dsimp only [Gen.V3, Gen.W3, Gen.hostOps1]
    after_results_simp
    rfl
  rw [e, W2_arg9]; exact rowVec_shapeCast _ _

/-- The shift row, read as a vector, is the shift as launched. -/
theorem rowVec_V3_v65 (c : Dev nD) :
    Cert.SGC.rowVec (a := 512) (Gen.V3 m ρ c main_v65) = (m ((c.tc : Thread nD τ).loc main_arg10)) := by
  have e : (Gen.V3 m ρ c main_v65 : Vec Ideal S1x512 .f32)
      = shapeCast S1x512 (Gen.W2 m ρ c (Proc.devRef .tc main_arg10)) Gen.shapeCasts_S512_S1x512 := by
    dsimp only [Gen.V3, Gen.W3, Gen.hostOps1]
    after_results_simp
    rfl
  rw [e, W2_arg10]; exact rowVec_shapeCast _ _

end Cert.KernelIdeal.Hand

end
-- ==== Proof.KernelHost.lean ====
/-
  The kernel program's result as one function of the launch memory.

  The second tiled region's output window is read back through the run's fold: it normalises the feature array the
  first region left with the mean and inverse-deviation rows the host computed from the first region's partial sums,
  scaled and shifted by the last two arguments.  The first region's three outputs — the features, and the per-tile
  column sums of the features and of their squares, each scaled by 1/8 and replicated on 8 sublanes — are functions of
  its entry contents, which the host stretch before it wrote: the node features and weights as launched, the two
  mean-aggregated arrays, the two bias rows.  Summing the 25 × 8 replicated partials from zero is the tiled total
  `totalK` by definition, so the result is `outK` of the features.

  What each region computes from its entry contents is taken as a hypothesis here, in the form in which it is proved
  for any entry contents.
-/
import proofs.«180272_j17540646437113_2_alg».proof.Proof.KernelHostPre
import proofs.«180272_j17540646437113_2_alg».proof.Proof.KernelHostMid

set_option maxRecDepth 16384

noncomputable section

namespace Cert.KernelIdeal.Hand

open Idealize.ShloMosaic Idealize.ShloMosaic.TcCoe Idealize.ShloMosaic.ValueIdx
open Idealize.SL.Sem
open scoped BigOperators

open Cert.SGC

/-- The 512 channels of every node as the first region computes them from its entry contents `V`. -/
abbrev entryFeat (V : (c : Dev nD) → (b : Ref sig .tc) → Buf (Elt Ideal) ((c : Thread nD τ).loc b)) (c : Dev nD) : Fin 50000 → Fin 512 → EReal :=
  feat (V c main_arg0) (V c main_v22) (V c main_v45) (V c main_arg3) (V c main_arg4)
    (rowVec (a := 256) (V c main_v46)) (V c main_arg6) (V c main_arg7) (rowVec (a := 256) (V c main_v47))

/-! ## What the regions compute, as hypotheses -/

/-- The first region's feature window ends at the features of its entry contents. -/
abbrev Region0Features : Prop :=
  ∀ (V : (c : Dev nD) → (b : Ref sig .tc) → Buf (Elt Ideal) ((c : Thread nD τ).loc b)) (c : Dev nD),
    ((Gen.dat0 (F := Ideal) V c).arrAt 9 cfg0.N : Mat 50000 512) = toMat (entryFeat V c)

/-- Its second output ends at the features' per-tile column sums, scaled by 1/8, on every sublane. -/
abbrev Region0Sums : Prop :=
  ∀ (V : (c : Dev nD) → (b : Ref sig .tc) → Buf (Elt Ideal) ((c : Thread nD τ).loc b)) (c : Dev nD),
    ((Gen.dat0 (F := Ideal) V c).arrAt 10 cfg0.N : Vec Ideal S25x8x512 .f32)
      = fun idx => part (entryFeat V c) (idx 0) (idx 2)

/-- Its third output likewise, of the squared features. -/
abbrev Region0SquareSums : Prop :=
  ∀ (V : (c : Dev nD) → (b : Ref sig .tc) → Buf (Elt Ideal) ((c : Thread nD τ).loc b)) (c : Dev nD),
    ((Gen.dat0 (F := Ideal) V c).arrAt 11 cfg0.N : Vec Ideal S25x8x512 .f32)
      = fun idx => part (fun i j => entryFeat V c i j * entryFeat V c i j) (idx 0) (idx 2)

/-- The second region's output window ends at the normalisation of its feature window by its four row windows. -/
abbrev Region1Output : Prop :=
  ∀ (V : (c : Dev nD) → (b : Ref sig .tc) → Buf (Elt Ideal) ((c : Thread nD τ).loc b)) (c : Dev nD),
    ((Gen.dat1 (F := Ideal) V c).arrAt 5 cfg1.N : Mat 50000 512)
      = toMat (normed (fun i j => (V c main_v48_0 : Mat 50000 512) (ix2 i j))
          (fun j => (V c main_v62 : Mat 1 512) (ix2 (0 : Fin 1) j)) (fun j => (V c main_v63 : Mat 1 512) (ix2 (0 : Fin 1) j))
          (rowVec (a := 512) (V c main_v64)) (rowVec (a := 512) (V c main_v65)))

/-! ## The glue -/

/-- Normalisation depends on its five operands only through their values. -/
theorem normed_congr {f f' : Fin 50000 → Fin 512 → EReal} {mean mean' inv inv' : Fin 512 → EReal} {γ γ' β β' : Vc 512}
    (h0 : f = f') (h1 : mean = mean') (h2 : inv = inv') (h3 : γ = γ') (h4 : β = β') :
    normed f mean inv γ β = normed f' mean' inv' γ' β' := by
  subst h0 h1 h2 h3 h4; rfl

/-- The first region's entry features are the features of the launch memory. -/
theorem entryFeat_V1 (m : (ℓ : Loc nD τ sig) → Buf (Elt Ideal) ℓ) (ρ : Dev nD → PrngReg) (c : Dev nD) :
    entryFeat (Gen.V1 m ρ) c = (feat (m ((c.tc : Thread nD τ).loc main_arg0)) (aggr (m ((c.tc : Thread nD τ).loc main_arg0)) (m ((c.tc : Thread nD τ).loc main_arg1))) (aggr (m ((c.tc : Thread nD τ).loc main_arg0)) (m ((c.tc : Thread nD τ).loc main_arg2)))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  unfold entryFeat
  rw [V1_arg0, V1_v22, V1_v45, V1_arg3, V1_arg4, rowVec_V1_v46, V1_arg6, V1_arg7, rowVec_V1_v47]

/-- The feature array as the second host stretch finds it. -/
theorem W2_v48_0 (h9 : Region0Features) (m : (ℓ : Loc nD τ sig) → Buf (Elt Ideal) ℓ) (ρ : Dev nD → PrngReg) (c : Dev nD) :
    ((Gen.W2 m ρ c (Proc.devRef .tc main_v48_0)) : Mat 50000 512) = toMat (entryFeat (Gen.V1 m ρ) c) :=
  (Gen.W2_arr m ρ c 9).trans (h9 (Gen.V1 m ρ) c)

/-- The features' partial sums as the second host stretch finds them. -/
theorem W2_v48_1 (h10 : Region0Sums) (m : (ℓ : Loc nD τ sig) → Buf (Elt Ideal) ℓ) (ρ : Dev nD → PrngReg) (c : Dev nD) :
    ((Gen.W2 m ρ c (Proc.devRef .tc main_v48_1)) : Vec Ideal S25x8x512 .f32) = fun idx => part (entryFeat (Gen.V1 m ρ) c) (idx 0) (idx 2) :=
  (Gen.W2_arr m ρ c 10).trans (h10 (Gen.V1 m ρ) c)

/-- The squared features' partial sums as the second host stretch finds them. -/
theorem W2_v48_2 (h11 : Region0SquareSums) (m : (ℓ : Loc nD τ sig) → Buf (Elt Ideal) ℓ) (ρ : Dev nD → PrngReg) (c : Dev nD) :
    ((Gen.W2 m ρ c (Proc.devRef .tc main_v48_2)) : Vec Ideal S25x8x512 .f32)
      = fun idx => part (fun i j => entryFeat (Gen.V1 m ρ) c i j * entryFeat (Gen.V1 m ρ) c i j) (idx 0) (idx 2) :=
  (Gen.W2_arr m ρ c 11).trans (h11 (Gen.V1 m ρ) c)

/-- The second region's five inputs over any feature function `f` the first region's outputs are stated with. -/
theorem region1_inputs (m : (ℓ : Loc nD τ sig) → Buf (Elt Ideal) ℓ) (ρ : Dev nD → PrngReg) (c : Dev nD) (f : Fin 50000 → Fin 512 → EReal)
    (hW9 : ((Gen.W2 m ρ c (Proc.devRef .tc main_v48_0)) : Mat 50000 512) = toMat f)
    (hW10 : ((Gen.W2 m ρ c (Proc.devRef .tc main_v48_1)) : Vec Ideal S25x8x512 .f32) = fun idx => part f (idx 0) (idx 2))
    (hW11 : ((Gen.W2 m ρ c (Proc.devRef .tc main_v48_2)) : Vec Ideal S25x8x512 .f32)
      = fun idx => part (fun i j => f i j * f i j) (idx 0) (idx 2)) :
    normed (fun (i : Fin 50000) (j : Fin 512) => (Gen.V3 m ρ c main_v48_0 : Mat 50000 512) (ix2 i j))
        (fun j : Fin 512 => (Gen.V3 m ρ c main_v62 : Mat 1 512) (ix2 (0 : Fin 1) j))
        (fun j : Fin 512 => (Gen.V3 m ρ c main_v63 : Mat 1 512) (ix2 (0 : Fin 1) j))
        (rowVec (a := 512) (Gen.V3 m ρ c main_v64)) (rowVec (a := 512) (Gen.V3 m ρ c main_v65))
      = outK f (m ((c.tc : Thread nD τ).loc main_arg9)) (m ((c.tc : Thread nD τ).loc main_arg10)) := by
  have e0 : (fun (i : Fin 50000) (j : Fin 512) => (Gen.V3 m ρ c main_v48_0 : Mat 50000 512) (ix2 i j)) = f := by
    funext i j; rw [V3_v48_0, hW9]; rfl
  have e1 : (fun j : Fin 512 => (Gen.V3 m ρ c main_v62 : Mat 1 512) (ix2 (0 : Fin 1) j)) = meanK f := by
    funext j; exact (V3_v62 m ρ c _ hW10 j).trans rfl
  have e2 : (fun j : Fin 512 => (Gen.V3 m ρ c main_v63 : Mat 1 512) (ix2 (0 : Fin 1) j)) = invK f := by
    funext j; exact (V3_v63 m ρ c _ _ hW10 hW11 j).trans rfl
  exact normed_congr e0 e1 e2 (rowVec_V3_v64 m ρ c) (rowVec_V3_v65 m ρ c)

/-- The result over the first region's entry features. -/
theorem result_entry (h9 : Region0Features) (h10 : Region0Sums) (h11 : Region0SquareSums) (h5 : Region1Output)
    (m : (ℓ : Loc nD τ sig) → Buf (Elt Ideal) ℓ) (ρ : Dev nD → PrngReg) (c : Dev nD) :
    (Gen.W4 (F := Ideal) m ρ c (Proc.devRef .tc main_v66) : Mat 50000 512)
      = toMat (outK (entryFeat (Gen.V1 m ρ) c) (m ((c.tc : Thread nD τ).loc main_arg9)) (m ((c.tc : Thread nD τ).loc main_arg10))) :=
  ((Gen.W4_arr m ρ c 5).trans (h5 (Gen.V3 m ρ) c)).trans
    (congrArg toMat (region1_inputs m ρ c _ (W2_v48_0 h9 m ρ c) (W2_v48_1 h10 m ρ c) (W2_v48_2 h11 m ρ c)))

/-- THE RESULT: the kernel program's output array is the block's output with the tiled statistics, of the features of
    the launch memory. -/
theorem result_eq (h9 : Region0Features) (h10 : Region0Sums) (h11 : Region0SquareSums) (h5 : Region1Output)
    (m : (ℓ : Loc nD τ sig) → Buf (Elt Ideal) ℓ) (ρ : Dev nD → PrngReg) (c : Dev nD) :
    (Gen.W4 (F := Ideal) m ρ c (Proc.devRef .tc main_v66) : Mat 50000 512)
      = toMat (outK (feat (m ((c.tc : Thread nD τ).loc main_arg0)) (aggr (m ((c.tc : Thread nD τ).loc main_arg0)) (m ((c.tc : Thread nD τ).loc main_arg1))) (aggr (m ((c.tc : Thread nD τ).loc main_arg0)) (m ((c.tc : Thread nD τ).loc main_arg2)))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
          (m ((c.tc : Thread nD τ).loc main_arg9)) (m ((c.tc : Thread nD τ).loc main_arg10))) := by
  rw [← entryFeat_V1 m ρ c]
  exact result_entry h9 h10 h11 h5 m ρ c

end Cert.KernelIdeal.Hand

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.RegionVal0Body.lean ====
/-
  The arithmetic of the first region's body, read entry by entry on the extended reals.

  At a tile of 2000 nodes the body forms, from the tile's rows of the node features and of the two aggregated arrays and
  from the four weight matrices and two bias rows,
      h(p, j) = (sum_k pos(p,k) Wpl(k,j) + sum_k x(p,k) Wpr(k,j)) + b_pos(j)            for j < 256,
      h(p, j) = (sum_k neg(p,k) Wnl(k,j-256) + sum_k x(p,k) Wnr(k,j-256)) + b_neg(j-256)  for j >= 256,
  (each matrix product accumulates from the zero block, and a change of float format is the identity on the extended
  reals), then the column sums over the 2000 rows of h and of h*h, each scaled by 1/8 and written to all 8 sublanes of a
  1 x 8 x 512 block.
-/
import proofs.«180272_j17540646437113_2_alg».proof.Proof.Gen.KernelIdeal.Skeleton
import proofs.«180272_j17540646437113_2_alg».proof.Proof.Spec
import proofs.«180272_j17540646437113_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Idealize.ShloMosaic
open Idealize.ShloMosaic.ValueIdx
open scoped BigOperators

/-- One sign's block of the first region's body at row p, channel q: the aggregated rows times the left weights plus
    the rows themselves times the right weights plus the bias row. -/
theorem half_apply (x ag : Vec Ideal S2000x256 .f32) (Wl Wr : Vec Ideal S256x256 .f32) (b : Vec Ideal S1x256 .f32)
    (p : Fin 2000) (q : Fin 256) :
    addf (addf
        (matmul dot_S2000x256_S256x256_S2000x256_1_0_0_1_n_n none (truncf .bf16 ag bitsLt_bf16_f32)
          (truncf .bf16 Wl bitsLt_bf16_f32) (constant (F := Ideal) S2000x256 .f32 0x00000000#32))
        (matmul dot_S2000x256_S256x256_S2000x256_1_0_0_1_n_n none (truncf .bf16 x bitsLt_bf16_f32)
          (truncf .bf16 Wr bitsLt_bf16_f32) (constant (F := Ideal) S2000x256 .f32 0x00000000#32)))
      (broadcastTo S2000x256 b broadcasts_S1x256_S2000x256) (ix2 p q)
      = ((∑ k : Fin 256, ag (ix2 p k) * Wl (ix2 k q)) + ∑ k : Fin 256, x (ix2 p k) * Wr (ix2 k q)) + b (ix2 (0 : Fin 1) q) := by
  have e1 := PlainDot.matmul_zero_apply dot_S2000x256_S256x256_S2000x256_1_0_0_1_n_n rfl rfl rfl rfl rfl rfl rfl rfl none
    (truncf .bf16 ag bitsLt_bf16_f32 : FVec Ideal S2000x256 .bf16) (truncf .bf16 Wl bitsLt_bf16_f32 : FVec Ideal S256x256 .bf16) p q
  have e2 := PlainDot.matmul_zero_apply dot_S2000x256_S256x256_S2000x256_1_0_0_1_n_n rfl rfl rfl rfl rfl rfl rfl rfl none
    (truncf .bf16 x bitsLt_bf16_f32 : FVec Ideal S2000x256 .bf16) (truncf .bf16 Wr bitsLt_bf16_f32 : FVec Ideal S256x256 .bf16) p q
  have e3 := broadcastTo_1b_ab_apply b broadcasts_S1x256_S2000x256 p q
  exact congrArg₂ (· + ·) (congrArg₂ (· + ·) e1 e2) e3

/-- One sign's convolution of a tile at row p, channel q, on the tile's blocks. -/
def halfVal (x ag : Vec Ideal S2000x256 .f32) (Wl Wr : Vec Ideal S256x256 .f32) (b : Vec Ideal S1x256 .f32)
    (p : Fin 2000) (q : Fin 256) : EReal :=
  ((∑ k : Fin 256, ag (ix2 p k) * Wl (ix2 k q)) + ∑ k : Fin 256, x (ix2 p k) * Wr (ix2 k q)) + b (ix2 (0 : Fin 1) q)

/-- The first region's feature block at row p, channel j: the positive sign's convolution in the first 256 channels,
    the negative sign's in the last 256 (the two blocks side by side). -/
theorem feat_block_apply (x pos neg : Vec Ideal S2000x256 .f32) (Wpl Wpr Wnl Wnr : Vec Ideal S256x256 .f32)
    (bp bn : Vec Ideal S1x256 .f32) (p : Fin 2000) (j : Fin 512) :
    k0_pay3 x pos neg Wpl Wpr Wnl Wnr bp bn (ix2 p j)
      = if h : j.val < 256 then halfVal x pos Wpl Wpr bp p ⟨j.val, h⟩
        else halfVal x neg Wnl Wnr bn p ⟨j.val - 256, by have := j.isLt; omega⟩ := by
  unfold k0_pay3
  simp only [shapeCast_self]
  by_cases h : j.val < 256
  · rw [dif_pos h]
    refine (concatenate_pair_apply_left (t := S2000x512) (s₁ := S2000x256) (s₂ := S2000x256) (1 : Fin 2) _ _ concatenates_S2000x256_S2000x256_S2000x512_d1 (ix2 p j) rfl
      (ix2 p (⟨j.val, h⟩ : Fin 256)) (fun b => by match b with | ⟨0, _⟩ => rfl | ⟨1, _⟩ => rfl)).trans ?_
    exact half_apply x pos Wpl Wpr bp p ⟨j.val, h⟩
  · rw [dif_neg h]
    have hj := j.isLt
    refine (concatenate_pair_apply_right (t := S2000x512) (s₁ := S2000x256) (s₂ := S2000x256) (1 : Fin 2) _ _ concatenates_S2000x256_S2000x256_S2000x512_d1 (ix2 p j) rfl rfl
      (ix2 p (⟨j.val - 256, by omega⟩ : Fin 256)) (fun b hb => by
        match b with
        | ⟨0, _⟩ => rfl
        | ⟨1, _⟩ => exact absurd rfl hb) (by show j.val - 256 + 256 = j.val; omega)).trans ?_
    exact half_apply x neg Wnl Wnr bn p ⟨j.val - 256, by omega⟩

/-- The feature block of a tile is the tile's rows of the feature function: if the three row blocks hold rows R of
    the node arrays at their row p, and the weight and bias blocks hold the weight and bias arrays, the body's block
    at (p, j) is the features of node R at channel j. -/
theorem feat_of_blocks (X AP AN : Cert.SGC.Mat 50000 256) (WPL WPR WNL WNR : Cert.SGC.Mat 256 256) (BP BN : Cert.SGC.Mat 1 256)
    (x pos neg : Vec Ideal S2000x256 .f32) (Wpl Wpr Wnl Wnr : Vec Ideal S256x256 .f32) (bp bn : Vec Ideal S1x256 .f32)
    (R : Fin 50000) (p : Fin 2000)
    (hx : ∀ k : Fin 256, x (ix2 p k) = X (ix2 R k)) (hpos : ∀ k : Fin 256, pos (ix2 p k) = AP (ix2 R k))
    (hneg : ∀ k : Fin 256, neg (ix2 p k) = AN (ix2 R k))
    (hWpl : ∀ k q : Fin 256, Wpl (ix2 k q) = WPL (ix2 k q)) (hWpr : ∀ k q : Fin 256, Wpr (ix2 k q) = WPR (ix2 k q))
    (hWnl : ∀ k q : Fin 256, Wnl (ix2 k q) = WNL (ix2 k q)) (hWnr : ∀ k q : Fin 256, Wnr (ix2 k q) = WNR (ix2 k q))
    (hbp : ∀ q : Fin 256, bp (ix2 (0 : Fin 1) q) = BP (ix2 (0 : Fin 1) q))
    (hbn : ∀ q : Fin 256, bn (ix2 (0 : Fin 1) q) = BN (ix2 (0 : Fin 1) q)) (j : Fin 512) :
    k0_pay3 x pos neg Wpl Wpr Wnl Wnr bp bn (ix2 p j)
      = Cert.SGC.feat X AP AN WPL WPR (Cert.SGC.rowVec BP) WNL WNR (Cert.SGC.rowVec BN) R j := by
  rw [feat_block_apply]
  unfold Cert.SGC.feat halfVal Cert.SGC.conv
  by_cases h : j.val < 256
  · rw [dif_pos h, dif_pos h]
    simp only [hx, hpos, hWpl, hWpr, hbp]
    rfl
  · rw [dif_neg h, dif_neg h]
    simp only [hx, hneg, hWnl, hWnr, hbn]
    rfl

/-! ## The column sums -/

/-- The index a sum over the first axis of a 2000 x 512 block visits at channel j and position r is (r, j). -/
theorem lift_col (j : Fin 512) (r : Fin 2000) : reduces_S2000x512_S512.lift (ix1 j) r = ix2 r j :=
  funext fun d => Fin.ext (by match d with | ⟨0, _⟩ => rfl | ⟨1, _⟩ => rfl)

/-- The sum over the rows of a 2000 x 512 block started from zero, at channel j, is the sum of column j. -/
theorem colsum_apply (v : FVec Ideal S2000x512 .f32) (hφ : FKind.Formats .f32)
    (hacc : (0x00000000#32 : BitVec 32) = FKind.add.neutral .f32 hφ) (j : Fin 512) :
    multiReduction .add [0] S512 v 0x00000000#32 reduces_S2000x512_S512 hφ hacc (ix1 j) = ∑ r : Fin 2000, v (ix2 r j) := by
  refine (Ideal.multiReduction_add_single v 0x00000000#32 reduces_S2000x512_S512 hφ hacc (ix1 j)).trans ?_
  exact Finset.sum_congr rfl fun r _ => congrArg v (lift_col j r)

/-- The scaling and replication of a vector of 512 column totals: every one of the 8 sublanes of the 1 x 8 x 512 block
    holds the total of channel j times 1/8. -/
theorem scale_rep_apply (w : FVec Ideal S512 .f32) (u : Fin 1) (s : Fin 8) (j : Fin 512) :
    k0_pay1 w (ix3 u s j) = w (ix1 j) * Cert.SGC.c8 := by
  unfold k0_pay1
  simp only [shapeCast_self]
  refine (broadcastTo_apply _ broadcasts_S1x1x512_S1x8x512 (ix3 u s j) (ix3 (0 : Fin 1) (0 : Fin 1) j) (fun a => by
    match a with
    | ⟨0, _⟩ => rfl
    | ⟨1, _⟩ => rfl
    | ⟨2, _⟩ => rfl)).trans ?_
  refine (shapeCast_ab_1ab_apply _ shapeCasts_S1x512_S1x1x512 (0 : Fin 1) (0 : Fin 1) j).trans ?_
  show shapeCast S1x512 w shapeCasts_S512_S1x512 (ix2 (0 : Fin 1) j) * Ideal.ofBits .f32 0x3E000000#32 = _
  rw [shapeCast_a_1a_apply w shapeCasts_S512_S1x512 (0 : Fin 1) j]
  rfl

/-- The second statistic's body is the first's applied to the column sums of the squares. -/
theorem sq_body_eq (v : FVec Ideal S2000x512 .f32) :
    k0_pay2 v = k0_pay1 (multiReduction .add [0] S512 (mulf v v) 0x00000000#32 reduces_S2000x512_S512 (.inl rfl) rfl) := rfl

/-- The first statistic of a tile: the column sums of the feature block, scaled by 1/8, on every sublane. -/
theorem sum_block_apply (x pos neg : Vec Ideal S2000x256 .f32) (Wpl Wpr Wnl Wnr : Vec Ideal S256x256 .f32)
    (bp bn : Vec Ideal S1x256 .f32) (u : Fin 1) (s : Fin 8) (j : Fin 512) :
    k0_pay1 (k0_pay4 x pos neg Wpl Wpr Wnl Wnr bp bn) (ix3 u s j)
      = (∑ r : Fin 2000, k0_pay3 x pos neg Wpl Wpr Wnl Wnr bp bn (ix2 r j)) * Cert.SGC.c8 := by
  refine (scale_rep_apply _ u s j).trans ?_
  exact congrArg (· * Cert.SGC.c8) (colsum_apply (k0_pay3 x pos neg Wpl Wpr Wnl Wnr bp bn) (.inl rfl) rfl j)

/-- The second statistic of a tile: the column sums of the squared feature block, scaled by 1/8, on every sublane. -/
theorem sq_block_apply (v : FVec Ideal S2000x512 .f32) (u : Fin 1) (s : Fin 8) (j : Fin 512) :
    k0_pay2 v (ix3 u s j) = (∑ r : Fin 2000, v (ix2 r j) * v (ix2 r j)) * Cert.SGC.c8 := by
  rw [sq_body_eq]
  refine (scale_rep_apply _ u s j).trans ?_
  exact congrArg (· * Cert.SGC.c8) (colsum_apply (mulf v v) (.inl rfl) rfl j)

end Cert.KernelIdeal.HandVal

end
-- ==== Proof.RegionVal0.lean ====
/-
  The first region of the signed graph-convolution block, read as functions of the arrays it finds.

  The region visits 25 tiles of 2000 nodes.  At tile t it reads rows 2000 t .. 2000 t + 1999 of the node features and of
  the two mean-aggregated neighbour arrays, and, whole, the four weight matrices and the two bias rows.  It writes the
  tile's 2000 x 512 block of features to the same rows of the feature array, and to slab t of each of two 25 x 8 x 512
  arrays the column sums over the tile of the features, respectively of their squares, scaled by 1/8 and repeated on
  the 8 sublanes.  The tiles cover the 50000 rows and the slabs cover the 25, so after the last tile
    * the feature array holds the features of every node (the specification's `feat`), and
    * the two statistics arrays hold the specification's scaled partial sums `part` of the features and of their squares.
-/
import proofs.«180272_j17540646437113_2_alg».proof.Proof.Gen.KernelIdeal.Frame
import proofs.«180272_j17540646437113_2_alg».proof.Proof.Spec
import proofs.«180272_j17540646437113_2_alg».proof.Proof.RegionVal0Body
import Idealize.ShloMosaic.Lib.Pipeline.Value
import Idealize.ShloMosaic.Lib.ValueIdx

set_option maxRecDepth 16384

noncomputable section

namespace Cert.KernelIdeal.HandVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- Zero offsets of a rank-2 block, spelt as the body's rectangles spell them. -/
theorem zeros2_s : (![0, 0] : Fin 2 → Nat) = fun _ => 0 := funext fun a => by fin_cases a <;> rfl
/-- Zero offsets of a rank-3 block. -/
theorem zeros3_s : (![0, 0, 0] : Fin 3 → Nat) = fun _ => 0 := funext fun a => by fin_cases a <;> rfl

/-- A tile's scaled column sum read at an index of the 25 x 8 x 512 array that is (T, s, j). -/
theorem part_at (f : Fin 50000 → Fin 512 → EReal) (T : Fin 25) (s : Fin 8) (j : Fin 512) (i : S25x8x512.Idx)
    (hi : i = ix3 T s j) (v : Fin 2000 → EReal) (hv : ∀ r : Fin 2000, v r = f (Cert.SGC.tileRow T r) j) :
    (∑ r : Fin 2000, v r) * Cert.SGC.c8 = (fun idx : S25x8x512.Idx => Cert.SGC.part f (idx 0) (idx 2)) i := by
  subst hi
  show _ = Cert.SGC.part f T j
  unfold Cert.SGC.part
  exact congrArg (· * Cert.SGC.c8) (Finset.sum_congr rfl fun r _ => hv r)

/-- The feature function read at an index of the 50000 x 512 array that is (R, j). -/
theorem feat_at (f : Fin 50000 → Fin 512 → EReal) (R : Fin 50000) (j : Fin 512) (i : S50000x512.Idx) (hi : i = ix2 R j)
    (v : EReal) (hv : v = f R j) : v = Cert.SGC.toMat f i := by
  subst hi hv; rfl

variable (V : (c : Dev nD) → (b : Ref sig .tc) → Buf (Elt Ideal) ((c : Thread nD τ).loc b))

/-- The 512 features of every node, from the arrays the first region finds. -/
abbrev featOf (c : Dev nD) : Fin 50000 → Fin 512 → EReal :=
  Cert.SGC.feat (V c main_arg0) (V c main_v22) (V c main_v45) (V c main_arg3) (V c main_arg4) (Cert.SGC.rowVec (V c main_v46))
    (V c main_arg6) (V c main_arg7) (Cert.SGC.rowVec (V c main_v47))

/-- The tile a grid point works on. -/
def tileOf (t : Fin cfg0.N) : Fin 25 := ⟨t.val, lt_of_lt_of_eq t.isLt N_0⟩

/-- The printed index maps over the 25 points: the three row windows and the feature output sit at tile t, column
    block 0; the weight and bias windows never move; the two statistics outputs sit at slab t. -/
theorem tiles0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The output windows' index maps over the 25 points. -/
theorem tiles0_out : ∀ t : Fin cfg0.N,
    win0_9.index t (0 : Fin 2) = t.val ∧ win0_9.index t (1 : Fin 2) = 0
    ∧ win0_10.index t (0 : Fin 3) = t.val ∧ win0_10.index t (1 : Fin 3) = 0 ∧ win0_10.index t (2 : Fin 3) = 0
    ∧ win0_11.index t (0 : Fin 3) = t.val ∧ win0_11.index t (1 : Fin 3) = 0 ∧ win0_11.index t (2 : Fin 3) = 0 :=
  (by decide +kernel : ∀ t : Fin grid0.N, _)

/-- The feature block of point t at (p, j) is the features of node 2000 t + p at channel j. -/
theorem tile_feat (c : Dev nD) (t : Fin cfg0.N) (p : Fin 2000) (j : Fin 512) :
    k0_pay3 (iblk0 V c 0 t) (iblk0 V c 1 t) (iblk0 V c 2 t) (iblk0 V c 3 t) (iblk0 V c 4 t) (iblk0 V c 6 t) (iblk0 V c 7 t)
        (iblk0 V c 5 t) (iblk0 V c 8 t) (ix2 p j)
      = featOf V c (Cert.SGC.tileRow (tileOf t) p) j := by
  obtain ⟨e00, e01, e10, e11, e20, e21, e30, e31, e40, e41, e50, e51, e60, e61, e70, e71, e80, e81⟩ := tiles0 t
  have ht : t.val < 25 := lt_of_lt_of_eq t.isLt N_0
  have hp : p.val < 2000 := p.isLt
  have hrow0 : ∀ k : Fin 256, (((cfg0.win 0).blk t).view.emb (ix2 p k) : S50000x256.Idx) = ix2 (Cert.SGC.tileRow (tileOf t) p) k := fun k => by
    funext a; apply Fin.ext
    match a with
    | ⟨0, _⟩ => show win0_0.index t (0 : Fin 2) * 2000 + 1 * p.val = 2000 * t.val + p.val; omega
    | ⟨1, _⟩ => show win0_0.index t (1 : Fin 2) * 256 + 1 * k.val = k.val; omega
  have hrow1 : ∀ k : Fin 256, (((cfg0.win 1).blk t).view.emb (ix2 p k) : S50000x256.Idx) = ix2 (Cert.SGC.tileRow (tileOf t) p) k := fun k => by
    funext a; apply Fin.ext
    match a with
    | ⟨0, _⟩ => show win0_1.index t (0 : Fin 2) * 2000 + 1 * p.val = 2000 * t.val + p.val; omega
    | ⟨1, _⟩ => show win0_1.index t (1 : Fin 2) * 256 + 1 * k.val = k.val; omega
  have hrow2 : ∀ k : Fin 256, (((cfg0.win 2).blk t).view.emb (ix2 p k) : S50000x256.Idx) = ix2 (Cert.SGC.tileRow (tileOf t) p) k := fun k => by
    funext a; apply Fin.ext
    match a with
    | ⟨0, _⟩ => show win0_2.index t (0 : Fin 2) * 2000 + 1 * p.val = 2000 * t.val + p.val; omega
    | ⟨1, _⟩ => show win0_2.index t (1 : Fin 2) * 256 + 1 * k.val = k.val; omega
  have hw3 : ∀ k q : Fin 256, (((cfg0.win 3).blk t).view.emb (ix2 k q) : S256x256.Idx) = ix2 k q := fun k q => by
    funext a; apply Fin.ext
    match a with
    | ⟨0, _⟩ => show win0_3.index t (0 : Fin 2) * 256 + 1 * k.val = k.val; omega
    | ⟨1, _⟩ => show win0_3.index t (1 : Fin 2) * 256 + 1 * q.val = q.val; omega
  have hw4 : ∀ k q : Fin 256, (((cfg0.win 4).blk t).view.emb (ix2 k q) : S256x256.Idx) = ix2 k q := fun k q => by
    funext a; apply Fin.ext
    match a with
    | ⟨0, _⟩ => show win0_4.index t (0 : Fin 2) * 256 + 1 * k.val = k.val; omega
    | ⟨1, _⟩ => show win0_4.index t (1 : Fin 2) * 256 + 1 * q.val = q.val; omega
  have hw6 : ∀ k q : Fin 256, (((cfg0.win 6).blk t).view.emb (ix2 k q) : S256x256.Idx) = ix2 k q := fun k q => by
    funext a; apply Fin.ext
    match a with
    | ⟨0, _⟩ => show win0_6.index t (0 : Fin 2) * 256 + 1 * k.val = k.val; omega
    | ⟨1, _⟩ => show win0_6.index t (1 : Fin 2) * 256 + 1 * q.val = q.val; omega
  have hw7 : ∀ k q : Fin 256, (((cfg0.win 7).blk t).view.emb (ix2 k q) : S256x256.Idx) = ix2 k q := fun k q => by
    funext a; apply Fin.ext
    match a with
    | ⟨0, _⟩ => show win0_7.index t (0 : Fin 2) * 256 + 1 * k.val = k.val; omega
    | ⟨1, _⟩ => show win0_7.index t (1 : Fin 2) * 256 + 1 * q.val = q.val; omega
  have hb5 : ∀ q : Fin 256, (((cfg0.win 5).blk t).view.emb (ix2 (0 : Fin 1) q) : S1x256.Idx) = ix2 (0 : Fin 1) q := fun q => by
    funext a; apply Fin.ext
    match a with
    | ⟨0, _⟩ => show win0_5.index t (0 : Fin 2) * 1 + 1 * 0 = 0; omega
    | ⟨1, _⟩ => show win0_5.index t (1 : Fin 2) * 256 + 1 * q.val = q.val; omega
  have hb8 : ∀ q : Fin 256, (((cfg0.win 8).blk t).view.emb (ix2 (0 : Fin 1) q) : S1x256.Idx) = ix2 (0 : Fin 1) q := fun q => by
    funext a; apply Fin.ext
    match a with
    | ⟨0, _⟩ => show win0_8.index t (0 : Fin 2) * 1 + 1 * 0 = 0; omega
    | ⟨1, _⟩ => show win0_8.index t (1 : Fin 2) * 256 + 1 * q.val = q.val; omega
  exact feat_of_blocks (V c main_arg0) (V c main_v22) (V c main_v45) (V c main_arg3) (V c main_arg4) (V c main_arg6) (V c main_arg7)
    (V c main_v46) (V c main_v47)
    (iblk0 V c 0 t) (iblk0 V c 1 t) (iblk0 V c 2 t) (iblk0 V c 3 t) (iblk0 V c 4 t) (iblk0 V c 6 t) (iblk0 V c 7 t)
    (iblk0 V c 5 t) (iblk0 V c 8 t) (Cert.SGC.tileRow (tileOf t) p) p
    (fun k => congrArg (V c main_arg0) (hrow0 k)) (fun k => congrArg (V c main_v22) (hrow1 k)) (fun k => congrArg (V c main_v45) (hrow2 k))
    (fun k q => congrArg (V c main_arg3) (hw3 k q)) (fun k q => congrArg (V c main_arg4) (hw4 k q))
    (fun k q => congrArg (V c main_arg6) (hw6 k q)) (fun k q => congrArg (V c main_arg7) (hw7 k q))
    (fun q => congrArg (V c main_v46) (hb5 q)) (fun q => congrArg (V c main_v47) (hb8 q)) j

/-! ## The feature array -/

/-- What point t writes back to the feature array is tile t of the feature function. -/
theorem flushed0_9_eq (c : Dev nD) (t : Fin cfg0.N) :
    (dat0 V c).flushed 9 t = ((cfg0.win 9).blk t).view.read (Elt Ideal) (Cert.SGC.toMat (featOf V c)) := by
  show (cfg0.win 9).cut (grid0.coords t) ((dat0 V c).after 9 t) = _
  rw [after0_9]
  unfold out0_9
  rw [View.canon_unit_zero zeros2_s]
  simp only [View.ld_unit_zero (S := S2000x256) zeros2_s, View.ld_unit_zero (S := S256x256) zeros2_s,
    View.ld_unit_zero (S := S1x256) zeros2_s]
  obtain ⟨e90, e91, -⟩ := tiles0_out t
  have ht : t.val < 25 := lt_of_lt_of_eq t.isLt N_0
  funext y
  obtain ⟨p, j, rfl⟩ : ∃ (p : Fin 2000) (j : Fin 512), y = ix2 p j := ⟨y 0, y 1, eq_ix2 y⟩
  have hp : p.val < 2000 := p.isLt
  have h9 : (((cfg0.win 9).blk t).view.emb (ix2 p j) : S50000x512.Idx) = ix2 (Cert.SGC.tileRow (tileOf t) p) j := by
    funext a; apply Fin.ext
    match a with
    | ⟨0, _⟩ => show win0_9.index t (0 : Fin 2) * 2000 + 1 * p.val = 2000 * t.val + p.val; omega
    | ⟨1, _⟩ => show win0_9.index t (1 : Fin 2) * 512 + 1 * j.val = j.val; omega
  exact feat_at (featOf V c) (Cert.SGC.tileRow (tileOf t) p) j (((cfg0.win 9).blk t).view.emb (ix2 p j)) h9 _ (tile_feat V c t p j)

/-- An index of the feature array is in point t's tile iff each coordinate is in the tile's range on its axis. -/
theorem mem_tile0_9 (t : Fin cfg0.N) (i : S50000x512.Idx) :
    i ∈ ((cfg0.win 9).blk t).view.set ↔ ∀ a : Fin 2, win0_9.index t a * S2000x512.size a ≤ (i a).val ∧ (i a).val < win0_9.index t a * S2000x512.size a + S2000x512.size a := by
  show i ∈ ((View.whole main_v48_0).slice (win0_9.rect t)).set ↔ _
  rw [View.set_slice_whole, Rect.mem_set_unit]
  exact Iff.rfl

/-- Every row of the feature array is in the tile of the point numbered row / 2000. -/
theorem covered0_9 (i : S50000x512.Idx) : ∃ t : Fin cfg0.N, (cfg0.win 9).flush t = true ∧ i ∈ ((cfg0.win 9).blk t).view.set := by
  have hi0 : (i 0).val < 50000 := (i 0).isLt
  have hi1 : (i 1).val < 512 := (i 1).isLt
  have hN : cfg0.N = 25 := N_0
  let t : Fin cfg0.N := ⟨(i 0).val / 2000, by rw [hN]; omega⟩
  have htv : t.val = (i 0).val / 2000 := rfl
  obtain ⟨e90, e91, -⟩ := tiles0_out t
  refine ⟨t, flush0_9 t, ?_⟩
  rw [mem_tile0_9]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 512 ≤ (i 1).val ∧ (i 1).val < win0_9.index t (1 : Fin 2) * 512 + 512; omega

/-- The first region's feature array after its 25 points: the features of every node. -/
theorem arr0_9 (c : Dev nD) : (dat0 V c).arrAt 9 cfg0.N = Cert.SGC.toMat (featOf V c) :=
  (dat0 V c).arrAt_eq_of_cover 9 (Cert.SGC.toMat (featOf V c)) (fun t _ => flushed0_9_eq V c t) covered0_9

/-! ## The two statistics arrays -/

/-- The scaled partial column sums of a two-index function, as a 25 x 8 x 512 array: slab T, every sublane, channel j. -/
abbrev partArr (f : Fin 50000 → Fin 512 → EReal) : S25x8x512.Idx → EReal :=
  fun idx : S25x8x512.Idx => Cert.SGC.part f (idx 0) (idx 2)

/-- Where element (u, s, j) of point t's 1 x 8 x 512 block sits in a statistics array: (t, s, j). -/
theorem slab_emb10 (t : Fin cfg0.N) (u : Fin 1) (s : Fin 8) (j : Fin 512) :
    (((cfg0.win 10).blk t).view.emb (ix3 u s j) : S25x8x512.Idx) = ix3 (tileOf t) s j := by
  obtain ⟨-, -, e0, e1, e2, -⟩ := tiles0_out t
  have hu : u.val = 0 := by omega
  funext a; apply Fin.ext
  match a with
  | ⟨0, _⟩ => show win0_10.index t (0 : Fin 3) * 1 + 1 * u.val = t.val; omega
  | ⟨1, _⟩ => show win0_10.index t (1 : Fin 3) * 8 + 1 * s.val = s.val; omega
  | ⟨2, _⟩ => show win0_10.index t (2 : Fin 3) * 512 + 1 * j.val = j.val; omega

theorem slab_emb11 (t : Fin cfg0.N) (u : Fin 1) (s : Fin 8) (j : Fin 512) :
    (((cfg0.win 11).blk t).view.emb (ix3 u s j) : S25x8x512.Idx) = ix3 (tileOf t) s j := by
  obtain ⟨-, -, -, -, -, e0, e1, e2⟩ := tiles0_out t
  have hu : u.val = 0 := by omega
  funext a; apply Fin.ext
  match a with
  | ⟨0, _⟩ => show win0_11.index t (0 : Fin 3) * 1 + 1 * u.val = t.val; omega
  | ⟨1, _⟩ => show win0_11.index t (1 : Fin 3) * 8 + 1 * s.val = s.val; omega
  | ⟨2, _⟩ => show win0_11.index t (2 : Fin 3) * 512 + 1 * j.val = j.val; omega

/-- What point t writes back to the first statistics array is slab t of the scaled partial sums of the features. -/
theorem flushed0_10_eq (c : Dev nD) (t : Fin cfg0.N) :
    (dat0 V c).flushed 10 t = ((cfg0.win 10).blk t).view.read (Elt Ideal) (partArr (featOf V c)) := by
  show (cfg0.win 10).cut (grid0.coords t) ((dat0 V c).after 10 t) = _
  rw [after0_10]
  unfold out0_10
  rw [View.canon_unit_zero zeros3_s]
  simp only [View.ld_unit_zero (S := S2000x256) zeros2_s, View.ld_unit_zero (S := S256x256) zeros2_s,
    View.ld_unit_zero (S := S1x256) zeros2_s]
  funext y
  obtain ⟨u, s, j, rfl⟩ : ∃ (u : Fin 1) (s : Fin 8) (j : Fin 512), y = ix3 u s j := ⟨y 0, y 1, y 2, eq_ix3 y⟩
  refine (sum_block_apply (iblk0 V c 0 t) (iblk0 V c 1 t) (iblk0 V c 2 t) (iblk0 V c 3 t) (iblk0 V c 4 t) (iblk0 V c 6 t)
    (iblk0 V c 7 t) (iblk0 V c 5 t) (iblk0 V c 8 t) u s j).trans ?_
  exact part_at (featOf V c) (tileOf t) s j (((cfg0.win 10).blk t).view.emb (ix3 u s j)) (slab_emb10 t u s j)
    (fun r => k0_pay3 (iblk0 V c 0 t) (iblk0 V c 1 t) (iblk0 V c 2 t) (iblk0 V c 3 t) (iblk0 V c 4 t) (iblk0 V c 6 t)
      (iblk0 V c 7 t) (iblk0 V c 5 t) (iblk0 V c 8 t) (ix2 r j))
    (fun r => tile_feat V c t r j)

/-- What point t writes back to the second statistics array is slab t of the scaled partial sums of the squares. -/
theorem flushed0_11_eq (c : Dev nD) (t : Fin cfg0.N) :
    (dat0 V c).flushed 11 t = ((cfg0.win 11).blk t).view.read (Elt Ideal) (partArr (fun i j => featOf V c i j * featOf V c i j)) := by
  show (cfg0.win 11).cut (grid0.coords t) ((dat0 V c).after 11 t) = _
  rw [after0_11]
  unfold out0_11
  rw [View.canon_unit_zero zeros3_s]
  simp only [View.ld_unit_zero (S := S2000x256) zeros2_s, View.ld_unit_zero (S := S256x256) zeros2_s,
    View.ld_unit_zero (S := S1x256) zeros2_s]
  funext y
  obtain ⟨u, s, j, rfl⟩ : ∃ (u : Fin 1) (s : Fin 8) (j : Fin 512), y = ix3 u s j := ⟨y 0, y 1, y 2, eq_ix3 y⟩
  refine (sq_block_apply (k0_pay3 (iblk0 V c 0 t) (iblk0 V c 1 t) (iblk0 V c 2 t) (iblk0 V c 3 t) (iblk0 V c 4 t) (iblk0 V c 6 t)
    (iblk0 V c 7 t) (iblk0 V c 5 t) (iblk0 V c 8 t)) u s j).trans ?_
  exact part_at (fun i j => featOf V c i j * featOf V c i j) (tileOf t) s j (((cfg0.win 11).blk t).view.emb (ix3 u s j)) (slab_emb11 t u s j)
    (fun r => k0_pay3 (iblk0 V c 0 t) (iblk0 V c 1 t) (iblk0 V c 2 t) (iblk0 V c 3 t) (iblk0 V c 4 t) (iblk0 V c 6 t)
        (iblk0 V c 7 t) (iblk0 V c 5 t) (iblk0 V c 8 t) (ix2 r j)
      * k0_pay3 (iblk0 V c 0 t) (iblk0 V c 1 t) (iblk0 V c 2 t) (iblk0 V c 3 t) (iblk0 V c 4 t) (iblk0 V c 6 t)
        (iblk0 V c 7 t) (iblk0 V c 5 t) (iblk0 V c 8 t) (ix2 r j))
    (fun r => congrArg₂ (· * ·) (tile_feat V c t r j) (tile_feat V c t r j))

/-- An index of a statistics array is in point t's slab iff each coordinate is in the slab's range on its axis. -/
theorem mem_slab0_10 (t : Fin cfg0.N) (i : S25x8x512.Idx) :
    i ∈ ((cfg0.win 10).blk t).view.set ↔ ∀ a : Fin 3, win0_10.index t a * S1x8x512.size a ≤ (i a).val ∧ (i a).val < win0_10.index t a * S1x8x512.size a + S1x8x512.size a := by
  show i ∈ ((View.whole main_v48_1).slice (win0_10.rect t)).set ↔ _
  rw [View.set_slice_whole, Rect.mem_set_unit]
  exact Iff.rfl

theorem mem_slab0_11 (t : Fin cfg0.N) (i : S25x8x512.Idx) :
    i ∈ ((cfg0.win 11).blk t).view.set ↔ ∀ a : Fin 3, win0_11.index t a * S1x8x512.size a ≤ (i a).val ∧ (i a).val < win0_11.index t a * S1x8x512.size a + S1x8x512.size a := by
  show i ∈ ((View.whole main_v48_2).slice (win0_11.rect t)).set ↔ _
  rw [View.set_slice_whole, Rect.mem_set_unit]
  exact Iff.rfl

/-- Slab T of a statistics array is the block of point T. -/
theorem covered0_10 (i : S25x8x512.Idx) : ∃ t : Fin cfg0.N, (cfg0.win 10).flush t = true ∧ i ∈ ((cfg0.win 10).blk t).view.set := by
  have hi0 : (i 0).val < 25 := (i 0).isLt
  have hi1 : (i 1).val < 8 := (i 1).isLt
  have hi2 : (i 2).val < 512 := (i 2).isLt
  have hN : cfg0.N = 25 := N_0
  let t : Fin cfg0.N := ⟨(i 0).val, by rw [hN]; exact hi0⟩
  have htv : t.val = (i 0).val := rfl
  obtain ⟨-, -, e0, e1, e2, -⟩ := tiles0_out t
  refine ⟨t, flush0_10 t, ?_⟩
  rw [mem_slab0_10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 8 ≤ (i 1).val ∧ (i 1).val < win0_10.index t (1 : Fin 3) * 8 + 8; omega
  | ⟨2, _⟩ => show win0_10.index t (2 : Fin 3) * 512 ≤ (i 2).val ∧ (i 2).val < win0_10.index t (2 : Fin 3) * 512 + 512; omega

theorem covered0_11 (i : S25x8x512.Idx) : ∃ t : Fin cfg0.N, (cfg0.win 11).flush t = true ∧ i ∈ ((cfg0.win 11).blk t).view.set := by
  have hi0 : (i 0).val < 25 := (i 0).isLt
  have hi1 : (i 1).val < 8 := (i 1).isLt
  have hi2 : (i 2).val < 512 := (i 2).isLt
  have hN : cfg0.N = 25 := N_0
  let t : Fin cfg0.N := ⟨(i 0).val, by rw [hN]; exact hi0⟩
  have htv : t.val = (i 0).val := rfl
  obtain ⟨-, -, -, -, -, e0, e1, e2⟩ := tiles0_out t
  refine ⟨t, flush0_11 t, ?_⟩
  rw [mem_slab0_11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 8 ≤ (i 1).val ∧ (i 1).val < win0_11.index t (1 : Fin 3) * 8 + 8; omega
  | ⟨2, _⟩ => show win0_11.index t (2 : Fin 3) * 512 ≤ (i 2).val ∧ (i 2).val < win0_11.index t (2 : Fin 3) * 512 + 512; omega

/-- The first statistics array after the 25 points: slab t, every sublane, channel j holds 1/8 of tile t's column sum
    of the features. -/
theorem arr0_10 (c : Dev nD) : (dat0 V c).arrAt 10 cfg0.N
    = fun idx : S25x8x512.Idx => Cert.SGC.part (featOf V c) (idx 0) (idx 2) :=
  (dat0 V c).arrAt_eq_of_cover 10 (partArr (featOf V c)) (fun t _ => flushed0_10_eq V c t) covered0_10

/-- The second statistics array after the 25 points: the same of the squared features. -/
theorem arr0_11 (c : Dev nD) : (dat0 V c).arrAt 11 cfg0.N
    = fun idx : S25x8x512.Idx => Cert.SGC.part (fun i j => featOf V c i j * featOf V c i j) (idx 0) (idx 2) :=
  (dat0 V c).arrAt_eq_of_cover 11 (partArr (fun i j => featOf V c i j * featOf V c i j)) (fun t _ => flushed0_11_eq V c t) covered0_11

end Cert.KernelIdeal.HandVal

end
-- ==== Proof.RegionVal1.lean ====
/-
  The normalising region of the signed graph-convolution block, read as a function of the arrays it finds.

  The region visits 25 tiles of 2000 rows.  At a tile it reads the tile's rows of the feature array and, whole, the four
  1 x 512 rows holding the mean, the inverse deviation, the scale and the shift, and writes
      max(((h - mean) * inv) * scale + shift, 0)
  to the same rows of the output.  The tiles cover all 50000 rows, so after the last tile the output array is that
  function of the arrays at the region's entry, entry by entry.
-/
import proofs.«180272_j17540646437113_2_alg».proof.Proof.Gen.KernelIdeal.Frame
import proofs.«180272_j17540646437113_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.HandVal

open Cert.KernelIdeal Cert.KernelIdeal.Gen Idealize.ShloMosaic Idealize.ShloMosaic.TcCoe Idealize.SL.Sem
open Idealize.ShloMosaic.ValueIdx
open Idealize.ShloMosaic.Pipeline (Dat)

/-! # The normalising region: what it leaves in its output array

Each of the 25 grid points reads a tile of 2000 rows of the feature array and the four 1 x 512 rows (mean, inverse
deviation, scale, shift) whole, and writes max(((h - mean) * inv) * scale + shift, 0) to the same tile of the output.
The tiles cover the 50000 rows, so the output array is that function of the arrays the region finds, row by row. -/

/-- The normalising body at row p of the tile and channel j. -/
theorem norm_body_apply (x0 : Vec Ideal S2000x512 .f32) (x1 x2 x3 x4 : Vec Ideal S1x512 .f32) (p : Fin 2000) (j : Fin 512) :
    k1_pay1 x0 x1 x2 x3 x4 (ix2 p j)
      = max ((((x0 (ix2 p j) - x1 (ix2 (0 : Fin 1) j)) * x2 (ix2 (0 : Fin 1) j)) * x3 (ix2 (0 : Fin 1) j)) + x4 (ix2 (0 : Fin 1) j)) Cert.SGC.c0 := by
  unfold k1_pay1
  simp only [shapeCast_self]
  show max ((((x0 (ix2 p j) - broadcastTo S2000x512 x1 broadcasts_S1x512_S2000x512 (ix2 p j)) * broadcastTo S2000x512 x2 broadcasts_S1x512_S2000x512 (ix2 p j)) * broadcastTo S2000x512 x3 broadcasts_S1x512_S2000x512 (ix2 p j)) + broadcastTo S2000x512 x4 broadcasts_S1x512_S2000x512 (ix2 p j)) (Ideal.ofBits .f32 0#32) = _
  rw [broadcastTo_1b_ab_apply x1, broadcastTo_1b_ab_apply x2, broadcastTo_1b_ab_apply x3, broadcastTo_1b_ab_apply x4]
  rfl

/-- The normalised value at row R, channel j, from entries read at indices that are (R, j) and (0, j). -/
theorem normed_at (A0 : S50000x512.Idx → EReal) (A1 A2 A3 A4 : S1x512.Idx → EReal) (R : Fin 50000) (j : Fin 512)
    (i0 i5 : S50000x512.Idx) (i1 i2 i3 i4 : S1x512.Idx) (h0 : i0 = ix2 R j) (h5 : i5 = ix2 R j)
    (h1 : i1 = ix2 (0 : Fin 1) j) (h2 : i2 = ix2 (0 : Fin 1) j) (h3 : i3 = ix2 (0 : Fin 1) j) (h4 : i4 = ix2 (0 : Fin 1) j) :
    max ((((A0 i0 - A1 i1) * A2 i2) * A3 i3) + A4 i4) Cert.SGC.c0
      = Cert.SGC.toMat (Cert.SGC.normed (fun i j => A0 (ix2 i j)) (fun j => A1 (ix2 (0 : Fin 1) j))
          (fun j => A2 (ix2 (0 : Fin 1) j)) (Cert.SGC.rowVec A3) (Cert.SGC.rowVec A4)) i5 := by
  subst h0 h5 h1 h2 h3 h4; rfl

variable (V : (c : Dev nD) → (b : Ref sig .tc) → Buf (Elt Ideal) ((c : Thread nD τ).loc b))

/-- Zero offsets, spelt as the body's rectangles spell them. -/
theorem zeros2_n : (![0, 0] : Fin 2 → Nat) = fun _ => 0 := funext fun a => by fin_cases a <;> rfl

/-- The normalised array as one function of the arrays the region finds. -/
abbrev normedOf (c : Dev nD) : S50000x512.Idx → EReal :=
  Cert.SGC.toMat (Cert.SGC.normed (fun i j => V c main_v48_0 (ix2 i j)) (fun j => V c main_v62 (ix2 (0 : Fin 1) j))
    (fun j => V c main_v63 (ix2 (0 : Fin 1) j)) (Cert.SGC.rowVec (V c main_v64)) (Cert.SGC.rowVec (V c main_v65)))

/-- The printed index maps over the 25 points: the feature window and the output window sit at tile t, column block 0;
    the four row windows never move. -/
theorem tiles1 : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point t writes back is tile t of the normalised array. -/
theorem flushed1_5_eq (c : Dev nD) (t : Fin cfg1.N) :
    (dat1 V c).flushed 5 t = ((cfg1.win 5).blk t).view.read (Elt Ideal) (normedOf V c) := by
  show (cfg1.win 5).cut (grid1.coords t) ((dat1 V c).after 5 t) = _
  rw [after1_5]
  unfold out1_5
  rw [View.canon_unit_zero zeros2_n]
  simp only [View.ld_unit_zero (S := S2000x512) zeros2_n, View.ld_unit_zero (S := S1x512) zeros2_n]
  obtain ⟨e50, e51, e00, e01, e10, e11, e20, e21, e30, e31, e40, e41⟩ := tiles1 t
  funext y
  obtain ⟨p, j, rfl⟩ : ∃ (p : Fin 2000) (j : Fin 512), y = ix2 p j := ⟨y 0, y 1, eq_ix2 y⟩
  refine (norm_body_apply (iblk1 V c 0 t) (iblk1 V c 1 t) (iblk1 V c 2 t) (iblk1 V c 3 t) (iblk1 V c 4 t) p j).trans ?_
  have ht : t.val < 25 := lt_of_lt_of_eq t.isLt N_1
  have hp : p.val < 2000 := p.isLt
  have hj : j.val < 512 := j.isLt
  have h5 : (((cfg1.win 5).blk t).view.emb (ix2 p j) : S50000x512.Idx) = ix2 (⟨2000 * t.val + p.val, by omega⟩ : Fin 50000) j := by
    funext a; apply Fin.ext
    match a with
    | ⟨0, _⟩ => show win1_5.index t (0 : Fin 2) * 2000 + 1 * p.val = 2000 * t.val + p.val; omega
    | ⟨1, _⟩ => show win1_5.index t (1 : Fin 2) * 512 + 1 * j.val = j.val; omega
  have h0 : (((cfg1.win 0).blk t).view.emb (ix2 p j) : S50000x512.Idx) = ix2 (⟨2000 * t.val + p.val, by omega⟩ : Fin 50000) j := by
    funext a; apply Fin.ext
    match a with
    | ⟨0, _⟩ => show win1_0.index t (0 : Fin 2) * 2000 + 1 * p.val = 2000 * t.val + p.val; omega
    | ⟨1, _⟩ => show win1_0.index t (1 : Fin 2) * 512 + 1 * j.val = j.val; omega
  have h1 : (((cfg1.win 1).blk t).view.emb (ix2 (0 : Fin 1) j) : S1x512.Idx) = ix2 (0 : Fin 1) j := by
    funext a; apply Fin.ext
    match a with
    | ⟨0, _⟩ => show win1_1.index t (0 : Fin 2) * 1 + 1 * 0 = 0; omega
    | ⟨1, _⟩ => show win1_1.index t (1 : Fin 2) * 512 + 1 * j.val = j.val; omega
  have h2 : (((cfg1.win 2).blk t).view.emb (ix2 (0 : Fin 1) j) : S1x512.Idx) = ix2 (0 : Fin 1) j := by
    funext a; apply Fin.ext
    match a with
    | ⟨0, _⟩ => show win1_2.index t (0 : Fin 2) * 1 + 1 * 0 = 0; omega
    | ⟨1, _⟩ => show win1_2.index t (1 : Fin 2) * 512 + 1 * j.val = j.val; omega
  have h3 : (((cfg1.win 3).blk t).view.emb (ix2 (0 : Fin 1) j) : S1x512.Idx) = ix2 (0 : Fin 1) j := by
    funext a; apply Fin.ext
    match a with
    | ⟨0, _⟩ => show win1_3.index t (0 : Fin 2) * 1 + 1 * 0 = 0; omega
    | ⟨1, _⟩ => show win1_3.index t (1 : Fin 2) * 512 + 1 * j.val = j.val; omega
  have h4 : (((cfg1.win 4).blk t).view.emb (ix2 (0 : Fin 1) j) : S1x512.Idx) = ix2 (0 : Fin 1) j := by
    funext a; apply Fin.ext
    match a with
    | ⟨0, _⟩ => show win1_4.index t (0 : Fin 2) * 1 + 1 * 0 = 0; omega
    | ⟨1, _⟩ => show win1_4.index t (1 : Fin 2) * 512 + 1 * j.val = j.val; omega
  exact normed_at (V c main_v48_0) (V c main_v62) (V c main_v63) (V c main_v64) (V c main_v65) ⟨2000 * t.val + p.val, by omega⟩ j
    (((cfg1.win 0).blk t).view.emb (ix2 p j)) (((cfg1.win 5).blk t).view.emb (ix2 p j))
    (((cfg1.win 1).blk t).view.emb (ix2 (0 : Fin 1) j)) (((cfg1.win 2).blk t).view.emb (ix2 (0 : Fin 1) j))
    (((cfg1.win 3).blk t).view.emb (ix2 (0 : Fin 1) j)) (((cfg1.win 4).blk t).view.emb (ix2 (0 : Fin 1) j)) h0 h5 h1 h2 h3 h4

/-- An index of the output array is in point t's tile iff each coordinate is in the tile's range on its axis. -/
theorem mem_tile1_5 (t : Fin cfg1.N) (i : S50000x512.Idx) :
    i ∈ ((cfg1.win 5).blk t).view.set ↔ ∀ a : Fin 2, win1_5.index t a * S2000x512.size a ≤ (i a).val ∧ (i a).val < win1_5.index t a * S2000x512.size a + S2000x512.size a := by
  show i ∈ ((View.whole main_v66).slice (win1_5.rect t)).set ↔ _
  rw [View.set_slice_whole, Rect.mem_set_unit]
  exact Iff.rfl

/-- Every row is in the tile of the point numbered row / 2000. -/
theorem covered1_5 (i : S50000x512.Idx) : ∃ t : Fin cfg1.N, (cfg1.win 5).flush t = true ∧ i ∈ ((cfg1.win 5).blk t).view.set := by
  have hi0 : (i 0).val < 50000 := (i 0).isLt
  have hi1 : (i 1).val < 512 := (i 1).isLt
  have hN : cfg1.N = 25 := N_1
  let t : Fin cfg1.N := ⟨(i 0).val / 2000, by rw [hN]; omega⟩
  have htv : t.val = (i 0).val / 2000 := rfl
  obtain ⟨e50, e51, -⟩ := tiles1 t
  refine ⟨t, flush1_5 t, ?_⟩
  rw [mem_tile1_5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 512 ≤ (i 1).val ∧ (i 1).val < win1_5.index t (1 : Fin 2) * 512 + 512; omega

/-- The normalising region's output array after its 25 points. -/
theorem arr1_5 (c : Dev nD) : (dat1 V c).arrAt 5 cfg1.N
    = Cert.SGC.toMat (Cert.SGC.normed (fun i j => V c main_v48_0 (ix2 i j)) (fun j => V c main_v62 (ix2 (0 : Fin 1) j))
        (fun j => V c main_v63 (ix2 (0 : Fin 1) j)) (Cert.SGC.rowVec (V c main_v64)) (Cert.SGC.rowVec (V c main_v65))) :=
  (dat1 V c).arrAt_eq_of_cover 5 (normedOf V c) (fun t _ => flushed1_5_eq V c t) covered1_5

end Cert.KernelIdeal.HandVal

end
-- ==== Proof.RefOps.lean ====
/-
  The reference program as a straight line of host operations, and its run.

  The printed reference is a sequence of host operations with three calls of outlined functions (the variance of the
  columns, inside it the selection against a constant, and the maximum with zero). A call means the callee's body run
  on the call's own buffers, so the program is one line of 118 operations: the positive edge table's aggregation
  (`opsA`), the positive sign's convolution (`opsB`), the negative table's aggregation (`opsC`), the negative sign's
  convolution and the join of the two (`opsD`), the batch normalisation with its statistics and the clamp (`opsE`).
  Every weakly fair execution terminates with each buffer at the fold of the operations over the launch contents.
-/
import proofs.«180272_j17540646437113_2_alg».proof.Proof.RefTerm
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- The positive edge table's mean aggregation: the 29 operations ending at `main_v22`. -/
abbrev opsA : List (HloOp τ sig (Elt F)) :=
  [ StableHlo.unary main_arg1 main_v0 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v0 main_v1 rfl shapeCasts_S1x300000_S300000,
    StableHlo.unary main_arg1 main_v2 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v2 main_v3 rfl shapeCasts_S1x300000_S300000,
    StableHlo.nullary main_c (constantI S_ 32 0#32),
    StableHlo.unary main_c main_v4 (broadcastInDim S300000 ![] bcast_S_S300000 : (⟨S_, .i32⟩ : BufTy).Contents (Elt F) → (⟨S300000, .i32⟩ : BufTy).Contents (Elt F)),
    StableHlo.binary main_v1 main_v4 main_v5 (cmpi .slt : (⟨S300000, .i32⟩ : BufTy).Contents (Elt F) → (⟨S300000, .i32⟩ : BufTy).Contents (Elt F) → (⟨S300000, .i1⟩ : BufTy).Contents (Elt F)),
    StableHlo.nullary main_c_0 (constantI S_ 32 50000#32),
    StableHlo.unary main_c_0 main_v6 (broadcastInDim S300000 ![] bcast_S_S300000 : (⟨S_, .i32⟩ : BufTy).Contents (Elt F) → (⟨S300000, .i32⟩ : BufTy).Contents (Elt F)),
    StableHlo.binary main_v1 main_v6 main_v7 (addi : (⟨S300000, .i32⟩ : BufTy).Contents (Elt F) → (⟨S300000, .i32⟩ : BufTy).Contents (Elt F) → (⟨S300000, .i32⟩ : BufTy).Contents (Elt F)),
    StableHlo.ternary main_v5 main_v7 main_v1 main_v8 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v8 main_v9 (broadcastInDim S300000x1 ![0] bcast_S300000_S300000x1_0 : (⟨S300000, .i32⟩ : BufTy).Contents (Elt F) → (⟨S300000x1, .i32⟩ : BufTy).Contents (Elt F)),
    StableHlo.binary main_arg0 main_v9 main_v10 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    StableHlo.nullary main_cst (constant S_ .f32 0x00000000#32),
    StableHlo.unary main_cst main_v11 (broadcastInDim S50000x256 ![] bcast_S_S50000x256 : (⟨S_, .f32⟩ : BufTy).Contents (Elt F) → (⟨S50000x256, .f32⟩ : BufTy).Contents (Elt F)),
    StableHlo.unary main_v3 main_v12 (broadcastInDim S300000x1 ![0] bcast_S300000_S300000x1_0 : (⟨S300000, .i32⟩ : BufTy).Contents (Elt F) → (⟨S300000x1, .i32⟩ : BufTy).Contents (Elt F)),
    StableHlo.ternary main_v11 main_v12 main_v10 main_v13 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    StableHlo.nullary main_cst_1 (constant S_ .f32 0x3F800000#32),
    StableHlo.unary main_cst_1 main_v14 (broadcastInDim S300000 ![] bcast_S_S300000 : (⟨S_, .f32⟩ : BufTy).Contents (Elt F) → (⟨S300000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S300000x1 ![0] bcast_S300000_S300000x1_0 : (⟨S300000, .i32⟩ : BufTy).Contents (Elt F) → (⟨S300000x1, .i32⟩ : BufTy).Contents (Elt F)),
    StableHlo.ternary main_v15 main_v16 main_v14 main_v17 ((fun x i u => Host.scatterAdd scatter_S50000_S300000x1_S300000_n_0_0_1 x i u) : (⟨S50000, .f32⟩ : BufTy).Contents (Elt F) → (⟨S300000x1, .i32⟩ : BufTy).Contents (Elt F) → (⟨S300000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x256 ![0, 1] bcast_S50000x1_S50000x256_0_1 : (⟨S50000x1, .f32⟩ : BufTy).Contents (Elt F) → (⟨S50000x256, .f32⟩ : BufTy).Contents (Elt F)),
    StableHlo.binary main_v13 main_v21 main_v22 (Host.divf : (⟨S50000x256, .f32⟩ : BufTy).Contents (Elt F) → (⟨S50000x256, .f32⟩ : BufTy).Contents (Elt F) → (⟨S50000x256, .f32⟩ : BufTy).Contents (Elt F)) ]

/-- The positive sign's convolution: the 6 operations ending at `main_v28`. -/
abbrev opsB : List (HloOp τ sig (Elt F)) :=
  [ StableHlo.binary main_v22 main_arg3 main_v23 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_arg0 main_arg4 main_v24 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v23 main_v24 main_v25 (addf : (⟨S50000x256, .f32⟩ : BufTy).Contents (Elt F) → (⟨S50000x256, .f32⟩ : BufTy).Contents (Elt F) → (⟨S50000x256, .f32⟩ : BufTy).Contents (Elt F)),
    StableHlo.unary main_arg5 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S50000x256 ![0, 1] bcast_S1x256_S50000x256_0_1 : (⟨S1x256, .f32⟩ : BufTy).Contents (Elt F) → (⟨S50000x256, .f32⟩ : BufTy).Contents (Elt F)),
    StableHlo.binary main_v25 main_v27 main_v28 (addf : (⟨S50000x256, .f32⟩ : BufTy).Contents (Elt F) → (⟨S50000x256, .f32⟩ : BufTy).Contents (Elt F) → (⟨S50000x256, .f32⟩ : BufTy).Contents (Elt F)) ]

/-- The negative edge table's mean aggregation: the 29 operations ending at `main_v51`. -/
abbrev opsC : List (HloOp τ sig (Elt F)) :=
  [ StableHlo.unary main_arg2 main_v29 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v29 main_v30 rfl shapeCasts_S1x300000_S300000,
    StableHlo.unary main_arg2 main_v31 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v31 main_v32 rfl shapeCasts_S1x300000_S300000,
    StableHlo.nullary main_c_4 (constantI S_ 32 0#32),
    StableHlo.unary main_c_4 main_v33 (broadcastInDim S300000 ![] bcast_S_S300000 : (⟨S_, .i32⟩ : BufTy).Contents (Elt F) → (⟨S300000, .i32⟩ : BufTy).Contents (Elt F)),
    StableHlo.binary main_v30 main_v33 main_v34 (cmpi .slt : (⟨S300000, .i32⟩ : BufTy).Contents (Elt F) → (⟨S300000, .i32⟩ : BufTy).Contents (Elt F) → (⟨S300000, .i1⟩ : BufTy).Contents (Elt F)),
    StableHlo.nullary main_c_5 (constantI S_ 32 50000#32),
    StableHlo.unary main_c_5 main_v35 (broadcastInDim S300000 ![] bcast_S_S300000 : (⟨S_, .i32⟩ : BufTy).Contents (Elt F) → (⟨S300000, .i32⟩ : BufTy).Contents (Elt F)),
    StableHlo.binary main_v30 main_v35 main_v36 (addi : (⟨S300000, .i32⟩ : BufTy).Contents (Elt F) → (⟨S300000, .i32⟩ : BufTy).Contents (Elt F) → (⟨S300000, .i32⟩ : BufTy).Contents (Elt F)),
    StableHlo.ternary main_v34 main_v36 main_v30 main_v37 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v37 main_v38 (broadcastInDim S300000x1 ![0] bcast_S300000_S300000x1_0 : (⟨S300000, .i32⟩ : BufTy).Contents (Elt F) → (⟨S300000x1, .i32⟩ : BufTy).Contents (Elt F)),
    StableHlo.binary main_arg0 main_v38 main_v39 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    StableHlo.nullary main_cst_6 (constant S_ .f32 0x00000000#32),
    StableHlo.unary main_cst_6 main_v40 (broadcastInDim S50000x256 ![] bcast_S_S50000x256 : (⟨S_, .f32⟩ : BufTy).Contents (Elt F) → (⟨S50000x256, .f32⟩ : BufTy).Contents (Elt F)),
    StableHlo.unary main_v32 main_v41 (broadcastInDim S300000x1 ![0] bcast_S300000_S300000x1_0 : (⟨S300000, .i32⟩ : BufTy).Contents (Elt F) → (⟨S300000x1, .i32⟩ : BufTy).Contents (Elt F)),
    StableHlo.ternary main_v40 main_v41 main_v39 main_v42 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    StableHlo.nullary main_cst_7 (constant S_ .f32 0x3F800000#32),
    StableHlo.unary main_cst_7 main_v43 (broadcastInDim S300000 ![] bcast_S_S300000 : (⟨S_, .f32⟩ : BufTy).Contents (Elt F) → (⟨S300000, .f32⟩ : BufTy).Contents (Elt F)),
    StableHlo.nullary main_cst_8 (constant S_ .f32 0x00000000#32),
    StableHlo.unary main_cst_8 main_v44 (broadcastInDim S50000 ![] bcast_S_S50000 : (⟨S_, .f32⟩ : BufTy).Contents (Elt F) → (⟨S50000, .f32⟩ : BufTy).Contents (Elt F)),
    StableHlo.unary main_v32 main_v45 (broadcastInDim S300000x1 ![0] bcast_S300000_S300000x1_0 : (⟨S300000, .i32⟩ : BufTy).Contents (Elt F) → (⟨S300000x1, .i32⟩ : BufTy).Contents (Elt F)),
    StableHlo.ternary main_v44 main_v45 main_v43 main_v46 ((fun x i u => Host.scatterAdd scatter_S50000_S300000x1_S300000_n_0_0_1 x i u) : (⟨S50000, .f32⟩ : BufTy).Contents (Elt F) → (⟨S300000x1, .i32⟩ : BufTy).Contents (Elt F) → (⟨S300000, .f32⟩ : BufTy).Contents (Elt F) → (⟨S50000, .f32⟩ : BufTy).Contents (Elt F)),
    StableHlo.nullary main_cst_9 (constant S_ .f32 0x3F800000#32),
    StableHlo.unary main_cst_9 main_v47 (broadcastInDim S50000 ![] bcast_S_S50000 : (⟨S_, .f32⟩ : BufTy).Contents (Elt F) → (⟨S50000, .f32⟩ : BufTy).Contents (Elt F)),
    StableHlo.binary main_v46 main_v47 main_v48 (maximumf : (⟨S50000, .f32⟩ : BufTy).Contents (Elt F) → (⟨S50000, .f32⟩ : BufTy).Contents (Elt F) → (⟨S50000, .f32⟩ : BufTy).Contents (Elt F)),
    StableHlo.unary main_v48 main_v49 (broadcastInDim S50000x1 ![0] bcast_S50000_S50000x1_0 : (⟨S50000, .f32⟩ : BufTy).Contents (Elt F) → (⟨S50000x1, .f32⟩ : BufTy).Contents (Elt F)),
    StableHlo.unary main_v49 main_v50 (broadcastInDim S50000x256 ![0, 1] bcast_S50000x1_S50000x256_0_1 : (⟨S50000x1, .f32⟩ : BufTy).Contents (Elt F) → (⟨S50000x256, .f32⟩ : BufTy).Contents (Elt F)),
    StableHlo.binary main_v42 main_v50 main_v51 (Host.divf : (⟨S50000x256, .f32⟩ : BufTy).Contents (Elt F) → (⟨S50000x256, .f32⟩ : BufTy).Contents (Elt F) → (⟨S50000x256, .f32⟩ : BufTy).Contents (Elt F)) ]

/-- The negative sign's convolution and the join of the two signs: the 7 operations ending at `main_v58`. -/
abbrev opsD : List (HloOp τ sig (Elt F)) :=
  [ StableHlo.binary main_v51 main_arg6 main_v52 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_arg0 main_arg7 main_v53 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v52 main_v53 main_v54 (addf : (⟨S50000x256, .f32⟩ : BufTy).Contents (Elt F) → (⟨S50000x256, .f32⟩ : BufTy).Contents (Elt F) → (⟨S50000x256, .f32⟩ : BufTy).Contents (Elt F)),
    StableHlo.unary main_arg8 main_v55 (broadcastInDim S1x256 ![1] bcast_S256_S1x256_1 : (⟨S256, .f32⟩ : BufTy).Contents (Elt F) → (⟨S1x256, .f32⟩ : BufTy).Contents (Elt F)),
    StableHlo.unary main_v55 main_v56 (broadcastInDim S50000x256 ![0, 1] bcast_S1x256_S50000x256_0_1 : (⟨S1x256, .f32⟩ : BufTy).Contents (Elt F) → (⟨S50000x256, .f32⟩ : BufTy).Contents (Elt F)),
    StableHlo.binary main_v54 main_v56 main_v57 (addf : (⟨S50000x256, .f32⟩ : BufTy).Contents (Elt F) → (⟨S50000x256, .f32⟩ : BufTy).Contents (Elt F) → (⟨S50000x256, .f32⟩ : BufTy).Contents (Elt F)),
    StableHlo.binary main_v28 main_v57 main_v58 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)) ]

/-- The batch normalisation: the column means, the variance and its selection (the two callees' operations over
    the call's buffers), the normalisation, scale and shift, and the maximum with zero (the third callee's): the 47
    operations ending at `main_v78`. -/
abbrev opsE : List (HloOp τ sig (Elt F)) :=
  [ StableHlo.nullary main_cst_10 (constant S_ .f32 0x00000000#32),
    StableHlo.binary main_v58 main_cst_10 main_v59 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_11 (constant S_ .f32 0x47435000#32),
    StableHlo.unary main_cst_11 main_v60 (broadcastInDim S512 ![] bcast_S_S512 : (⟨S_, .f32⟩ : BufTy).Contents (Elt F) → (⟨S512, .f32⟩ : BufTy).Contents (Elt F)),
    StableHlo.binary main_v59 main_v60 main_v61 (Host.divf : (⟨S512, .f32⟩ : BufTy).Contents (Elt F) → (⟨S512, .f32⟩ : BufTy).Contents (Elt F) → (⟨S512, .f32⟩ : BufTy).Contents (Elt F)),
    StableHlo.nullary main_c_12 (constantI S_ 32 0#32),
    StableHlo.TRef.nullary main_call0.cst (constant S_ .f32 0x00000000#32),
    StableHlo.TRef.binary (.of main_v58 : StableHlo.TRef sig ⟨S50000x512, .f32⟩) main_call0.cst main_call0.v0 (fun x v => Host.reduceAdd x v reducesTo_S50000x512_S512_d0 h_S_),
    StableHlo.TRef.unary main_call0.v0 main_call0.v1 (broadcastInDim S1x512 ![1] bcast_S512_S1x512_1),
    StableHlo.TRef.nullary main_call0.cst_0 (constant S_ .f32 0x47435000#32),
    StableHlo.TRef.unary main_call0.cst_0 main_call0.v2 (broadcastInDim S1x512 ![] bcast_S_S1x512),
    StableHlo.TRef.binary main_call0.v1 main_call0.v2 main_call0.v3 Host.divf,
    StableHlo.TRef.unary main_call0.v3 main_call0.v4 (broadcastInDim S50000x512 ![0, 1] bcast_S1x512_S50000x512_0_1),
    StableHlo.TRef.binary (.of main_v58 : StableHlo.TRef sig ⟨S50000x512, .f32⟩) main_call0.v4 main_call0.v5 subf,
    StableHlo.TRef.binary main_call0.v5 main_call0.v5 main_call0.v6 mulf,
    StableHlo.TRef.unary (.of main_c_12 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x512_S512_d0 h_S_),
    StableHlo.TRef.unary main_call0.v8 main_call0.v10 (broadcastInDim S512 ![] bcast_S_S512),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S512 ![] bcast_S_S512),
    StableHlo.TRef.ternary main_call0.v12 main_call0.v11 main_call0.call0.v1 main_call0.call0.v2 (fun p a b => select (broadcastInDim S512 ![] bcast_S_S512 p) a b),
    StableHlo.unary main_v61 main_v63 (broadcastInDim S1x512 ![1] bcast_S512_S1x512_1 : (⟨S512, .f32⟩ : BufTy).Contents (Elt F) → (⟨S1x512, .f32⟩ : BufTy).Contents (Elt F)),
    StableHlo.unary main_v63 main_v64 (broadcastInDim S50000x512 ![0, 1] bcast_S1x512_S50000x512_0_1 : (⟨S1x512, .f32⟩ : BufTy).Contents (Elt F) → (⟨S50000x512, .f32⟩ : BufTy).Contents (Elt F)),
    StableHlo.binary main_v58 main_v64 main_v65 (subf : (⟨S50000x512, .f32⟩ : BufTy).Contents (Elt F) → (⟨S50000x512, .f32⟩ : BufTy).Contents (Elt F) → (⟨S50000x512, .f32⟩ : BufTy).Contents (Elt F)),
    StableHlo.nullary main_cst_13 (constant S_ .f32 0x3727C5AC#32),
    StableHlo.unary main_cst_13 main_v66 (broadcastInDim S512 ![] bcast_S_S512 : (⟨S_, .f32⟩ : BufTy).Contents (Elt F) → (⟨S512, .f32⟩ : BufTy).Contents (Elt F)),
    StableHlo.binary main_v62 main_v66 main_v67 (addf : (⟨S512, .f32⟩ : BufTy).Contents (Elt F) → (⟨S512, .f32⟩ : BufTy).Contents (Elt F) → (⟨S512, .f32⟩ : BufTy).Contents (Elt F)),
    StableHlo.unary main_v67 main_v68 (Host.rsqrt : (⟨S512, .f32⟩ : BufTy).Contents (Elt F) → (⟨S512, .f32⟩ : BufTy).Contents (Elt F)),
    StableHlo.unary main_v68 main_v69 (broadcastInDim S1x512 ![1] bcast_S512_S1x512_1 : (⟨S512, .f32⟩ : BufTy).Contents (Elt F) → (⟨S1x512, .f32⟩ : BufTy).Contents (Elt F)),
    StableHlo.unary main_v69 main_v70 (broadcastInDim S50000x512 ![0, 1] bcast_S1x512_S50000x512_0_1 : (⟨S1x512, .f32⟩ : BufTy).Contents (Elt F) → (⟨S50000x512, .f32⟩ : BufTy).Contents (Elt F)),
    StableHlo.binary main_v65 main_v70 main_v71 (mulf : (⟨S50000x512, .f32⟩ : BufTy).Contents (Elt F) → (⟨S50000x512, .f32⟩ : BufTy).Contents (Elt F) → (⟨S50000x512, .f32⟩ : BufTy).Contents (Elt F)),
    StableHlo.unary main_arg9 main_v72 (broadcastInDim S1x512 ![1] bcast_S512_S1x512_1 : (⟨S512, .f32⟩ : BufTy).Contents (Elt F) → (⟨S1x512, .f32⟩ : BufTy).Contents (Elt F)),
    StableHlo.unary main_v72 main_v73 (broadcastInDim S50000x512 ![0, 1] bcast_S1x512_S50000x512_0_1 : (⟨S1x512, .f32⟩ : BufTy).Contents (Elt F) → (⟨S50000x512, .f32⟩ : BufTy).Contents (Elt F)),
    StableHlo.binary main_v71 main_v73 main_v74 (mulf : (⟨S50000x512, .f32⟩ : BufTy).Contents (Elt F) → (⟨S50000x512, .f32⟩ : BufTy).Contents (Elt F) → (⟨S50000x512, .f32⟩ : BufTy).Contents (Elt F)),
    StableHlo.unary main_arg10 main_v75 (broadcastInDim S1x512 ![1] bcast_S512_S1x512_1 : (⟨S512, .f32⟩ : BufTy).Contents (Elt F) → (⟨S1x512, .f32⟩ : BufTy).Contents (Elt F)),
    StableHlo.unary main_v75 main_v76 (broadcastInDim S50000x512 ![0, 1] bcast_S1x512_S50000x512_0_1 : (⟨S1x512, .f32⟩ : BufTy).Contents (Elt F) → (⟨S50000x512, .f32⟩ : BufTy).Contents (Elt F)),
    StableHlo.binary main_v74 main_v76 main_v77 (addf : (⟨S50000x512, .f32⟩ : BufTy).Contents (Elt F) → (⟨S50000x512, .f32⟩ : BufTy).Contents (Elt F) → (⟨S50000x512, .f32⟩ : BufTy).Contents (Elt F)),
    StableHlo.TRef.nullary main_call1.cst (constant S_ .f32 0x00000000#32),
    StableHlo.TRef.unary main_call1.cst main_call1.v0 (broadcastInDim S50000x512 ![] bcast_S_S50000x512),
    StableHlo.TRef.binary (.of main_v77 : StableHlo.TRef sig ⟨S50000x512, .f32⟩) main_call1.v0 main_call1.v1 maximumf ]

/-- @main's 118 operations in order. -/
abbrev ops : List (HloOp τ sig (Elt F)) := opsA ++ (opsB ++ (opsC ++ (opsD ++ opsE)))

set_option maxRecDepth 4096 in
/-- @main is that straight line: the callees' definitions unfolded at their calls and the records at their fields,
    both sides are one chain of steps once sequencing is reassociated. -/
theorem main_eq (c : Dev nD) : main (F := F) c = seq ops := by
  simp only [main, main_part0, main_part1, fn_var.body, fn_where.body, fn_relu.body, ops, opsA, opsB, opsC, opsD, opsE,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem opsB_sub : (opsB : List (HloOp τ sig (Elt F))).Forall fun op => op.bufs ⊆ tcRefs τ sig :=
  ⟨binary_bufs_sub .., binary_bufs_sub .., binary_bufs_sub .., unary_bufs_sub .., unary_bufs_sub .., binary_bufs_sub ..⟩
theorem opsC_sub : (opsC : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem opsD_sub : (opsD : List (HloOp τ sig (Elt F))).Forall fun op => op.bufs ⊆ tcRefs τ sig :=
  ⟨binary_bufs_sub .., binary_bufs_sub .., binary_bufs_sub .., unary_bufs_sub .., unary_bufs_sub .., binary_bufs_sub .., binary_bufs_sub ..⟩
theorem opsE_sub : (opsE : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The fold over two lines run one after the other is the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The whole line's fold, stretch by stretch. -/
theorem after_ops (V : Valuation τ sig (Elt F)) :
    after ops V = after opsE (after opsD (after opsC (after opsB (after opsA V)))) := by
  simp only [ops, after_append]

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefRunE.lean ====
/-
  The batch normalisation stretch of the reference, folded: after its 47 operations the result buffer holds the
  composed term of the contents found at the joined features and at the scale and shift arguments.
-/
import proofs.«180272_j17540646437113_2_alg».proof.Proof.RefOps

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F] [Facts]

attribute [local irreducible] Host.reduceAdd in
set_option maxRecDepth 16384 in
set_option maxHeartbeats 400000 in
/-- The fold of the batch normalisation's operations at the result buffer is the composed term, by computation:
    each operation's result decides whether the buffer read is the one it writes. -/
theorem afterE (W : Valuation τ sig (Elt F)) :
    after opsE W (main_v78 : DevRef τ sig)
      = bnTerm (W (main_v58 : DevRef τ sig)) (W (main_arg9 : DevRef τ sig)) (W (main_arg10 : DevRef τ sig)) := by
  simp only [after_cons, after_nil]
  rfl

end Cert.ReferenceIdeal.Hand

end
-- ==== Proof.RefRun.lean ====
/-
  The reference's run read back: every weakly fair execution of the reference terminates with its result buffer at
  the three staged terms composed — the batch normalisation (`bnTerm`) of the signed convolutions (`hostFeat`) of the
  node features and their two mean aggregations (`aggr`) — of the arguments' launch contents, the arguments unchanged.

  The fold of the 118 operations is taken stretch by stretch: each stretch's value at its last buffer is its staged
  term of what the stretch reads (by computation: every operation's result decides whether the buffer read is the one it
  writes), every argument buffer and the positive sign's output pass through the stretches that do not write them,
  and the five equations compose.
-/
import proofs.«180272_j17540646437113_2_alg».proof.Proof.RefOps
import proofs.«180272_j17540646437113_2_alg».proof.Proof.RefRunE
import proofs.«180272_j17540646437113_2_alg».proof.Defs

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- One sign's convolution: aggregated rows · left weights + own rows · right weights + the bias spread over the nodes. -/
def convTerm (x ag : Vec F S50000x256 .f32) (Wl Wr : Vec F S256x256 .f32) (b : Vec F S256 .f32) : Vec F S50000x256 .f32 :=
  addf (addf (Host.dotGeneral dot_S50000x256_S256x256_S50000x256_1_0_0_1_n_n none ag Wl)
          (Host.dotGeneral dot_S50000x256_S256x256_S50000x256_1_0_0_1_n_n none x Wr))
    (broadcastInDim S50000x256 ![0, 1] bcast_S1x256_S50000x256_0_1 (broadcastInDim S1x256 ![1] bcast_S256_S1x256_1 b))

/-- The 512 channels are the two signs' convolutions side by side. -/
theorem hostFeat_eq (x ap an : Vec F S50000x256 .f32) (Wpl Wpr : Vec F S256x256 .f32) (bp : Vec F S256 .f32)
    (Wnl Wnr : Vec F S256x256 .f32) (bn : Vec F S256 .f32) :
    hostFeat x ap an Wpl Wpr bp Wnl Wnr bn
      = concatenate S50000x512 1 [⟨S50000x256, convTerm x ap Wpl Wpr bp⟩, ⟨S50000x256, convTerm x an Wnl Wnr bn⟩]
          concatenates_S50000x256_S50000x256_S50000x512_d1 := rfl

/-! ## Each stretch's value at its last buffer -/

attribute [local irreducible] Host.gather in
set_option maxRecDepth 16384 in
theorem afterA (W : Valuation τ sig (Elt F)) :
    after opsA W (main_v22 : DevRef τ sig) = aggr (W (main_arg0 : DevRef τ sig)) (W (main_arg1 : DevRef τ sig)) := by
  simp only [after_cons, after_nil]
  rfl

theorem afterB (W : Valuation τ sig (Elt F)) :
    after opsB W (main_v28 : DevRef τ sig)
      = convTerm (W (main_arg0 : DevRef τ sig)) (W (main_v22 : DevRef τ sig)) (W (main_arg3 : DevRef τ sig)) (W (main_arg4 : DevRef τ sig)) (W (main_arg5 : DevRef τ sig)) := by
  simp only [after_cons, after_nil]
  rfl

attribute [local irreducible] Host.gather in
set_option maxRecDepth 16384 in
theorem afterC (W : Valuation τ sig (Elt F)) :
    after opsC W (main_v51 : DevRef τ sig) = aggr (W (main_arg0 : DevRef τ sig)) (W (main_arg2 : DevRef τ sig)) := by
  simp only [after_cons, after_nil]
  rfl

theorem afterD (W : Valuation τ sig (Elt F)) :
    after opsD W (main_v58 : DevRef τ sig)
      = concatenate S50000x512 1 [⟨S50000x256, (W (main_v28 : DevRef τ sig))⟩,
            ⟨S50000x256, convTerm (W (main_arg0 : DevRef τ sig)) (W (main_v51 : DevRef τ sig)) (W (main_arg6 : DevRef τ sig)) (W (main_arg7 : DevRef τ sig)) (W (main_arg8 : DevRef τ sig))⟩]
          concatenates_S50000x256_S50000x256_S50000x512_d1 := by
  simp only [after_cons, after_nil]
  rfl

/-! ## What a stretch does not write it leaves -/

theorem keepA_arg0 (W : Valuation τ sig (Elt F)) :
    after opsA W (main_arg0 : DevRef τ sig) = W (main_arg0 : DevRef τ sig) := by
  simp only [after_cons, after_nil]
  rfl

theorem keepA_arg1 (W : Valuation τ sig (Elt F)) :
    after opsA W (main_arg1 : DevRef τ sig) = W (main_arg1 : DevRef τ sig) := by
  simp only [after_cons, after_nil]
  rfl

theorem keepA_arg2 (W : Valuation τ sig (Elt F)) :
    after opsA W (main_arg2 : DevRef τ sig) = W (main_arg2 : DevRef τ sig) := by
  simp only [after_cons, after_nil]
  rfl

theorem keepA_arg3 (W : Valuation τ sig (Elt F)) :
    after opsA W (main_arg3 : DevRef τ sig) = W (main_arg3 : DevRef τ sig) := by
  simp only [after_cons, after_nil]
  rfl

theorem keepA_arg4 (W : Valuation τ sig (Elt F)) :
    after opsA W (main_arg4 : DevRef τ sig) = W (main_arg4 : DevRef τ sig) := by
  simp only [after_cons, after_nil]
  rfl

theorem keepA_arg5 (W : Valuation τ sig (Elt F)) :
    after opsA W (main_arg5 : DevRef τ sig) = W (main_arg5 : DevRef τ sig) := by
  simp only [after_cons, after_nil]
  rfl

theorem keepA_arg6 (W : Valuation τ sig (Elt F)) :
    after opsA W (main_arg6 : DevRef τ sig) = W (main_arg6 : DevRef τ sig) := by
  simp only [after_cons, after_nil]
  rfl

theorem keepA_arg7 (W : Valuation τ sig (Elt F)) :
    after opsA W (main_arg7 : DevRef τ sig) = W (main_arg7 : DevRef τ sig) := by
  simp only [after_cons, after_nil]
  rfl

theorem keepA_arg8 (W : Valuation τ sig (Elt F)) :
    after opsA W (main_arg8 : DevRef τ sig) = W (main_arg8 : DevRef τ sig) := by
  simp only [after_cons, after_nil]
  rfl

theorem keepA_arg9 (W : Valuation τ sig (Elt F)) :
    after opsA W (main_arg9 : DevRef τ sig) = W (main_arg9 : DevRef τ sig) := by
  simp only [after_cons, after_nil]
  rfl

theorem keepA_arg10 (W : Valuation τ sig (Elt F)) :
    after opsA W (main_arg10 : DevRef τ sig) = W (main_arg10 : DevRef τ sig) := by
  simp only [after_cons, after_nil]
  rfl

theorem keepB_arg0 (W : Valuation τ sig (Elt F)) :
    after opsB W (main_arg0 : DevRef τ sig) = W (main_arg0 : DevRef τ sig) := by
  simp only [after_cons, after_nil]
  rfl

theorem keepB_arg1 (W : Valuation τ sig (Elt F)) :
    after opsB W (main_arg1 : DevRef τ sig) = W (main_arg1 : DevRef τ sig) := by
  simp only [after_cons, after_nil]
  rfl

theorem keepB_arg2 (W : Valuation τ sig (Elt F)) :
    after opsB W (main_arg2 : DevRef τ sig) = W (main_arg2 : DevRef τ sig) := by
  simp only [after_cons, after_nil]
  rfl

theorem keepB_arg3 (W : Valuation τ sig (Elt F)) :
    after opsB W (main_arg3 : DevRef τ sig) = W (main_arg3 : DevRef τ sig) := by
  simp only [after_cons, after_nil]
  rfl

theorem keepB_arg4 (W : Valuation τ sig (Elt F)) :
    after opsB W (main_arg4 : DevRef τ sig) = W (main_arg4 : DevRef τ sig) := by
  simp only [after_cons, after_nil]
  rfl

theorem keepB_arg5 (W : Valuation τ sig (Elt F)) :
    after opsB W (main_arg5 : DevRef τ sig) = W (main_arg5 : DevRef τ sig) := by
  simp only [after_cons, after_nil]
  rfl

theorem keepB_arg6 (W : Valuation τ sig (Elt F)) :
    after opsB W (main_arg6 : DevRef τ sig) = W (main_arg6 : DevRef τ sig) := by
  simp only [after_cons, after_nil]
  rfl

theorem keepB_arg7 (W : Valuation τ sig (Elt F)) :
    after opsB W (main_arg7 : DevRef τ sig) = W (main_arg7 : DevRef τ sig) := by
  simp only [after_cons, after_nil]
  rfl

theorem keepB_arg8 (W : Valuation τ sig (Elt F)) :
    after opsB W (main_arg8 : DevRef τ sig) = W (main_arg8 : DevRef τ sig) := by
  simp only [after_cons, after_nil]
  rfl

theorem keepB_arg9 (W : Valuation τ sig (Elt F)) :
    after opsB W (main_arg9 : DevRef τ sig) = W (main_arg9 : DevRef τ sig) := by
  simp only [after_cons, after_nil]
  rfl

theorem keepB_arg10 (W : Valuation τ sig (Elt F)) :
    after opsB W (main_arg10 : DevRef τ sig) = W (main_arg10 : DevRef τ sig) := by
  simp only [after_cons, after_nil]
  rfl

theorem keepC_arg0 (W : Valuation τ sig (Elt F)) :
    after opsC W (main_arg0 : DevRef τ sig) = W (main_arg0 : DevRef τ sig) := by
  simp only [after_cons, after_nil]
  rfl

theorem keepC_arg1 (W : Valuation τ sig (Elt F)) :
    after opsC W (main_arg1 : DevRef τ sig) = W (main_arg1 : DevRef τ sig) := by
  simp only [after_cons, after_nil]
  rfl

theorem keepC_arg2 (W : Valuation τ sig (Elt F)) :
    after opsC W (main_arg2 : DevRef τ sig) = W (main_arg2 : DevRef τ sig) := by
  simp only [after_cons, after_nil]
  rfl

theorem keepC_arg3 (W : Valuation τ sig (Elt F)) :
    after opsC W (main_arg3 : DevRef τ sig) = W (main_arg3 : DevRef τ sig) := by
  simp only [after_cons, after_nil]
  rfl

theorem keepC_arg4 (W : Valuation τ sig (Elt F)) :
    after opsC W (main_arg4 : DevRef τ sig) = W (main_arg4 : DevRef τ sig) := by
  simp only [after_cons, after_nil]
  rfl

theorem keepC_arg5 (W : Valuation τ sig (Elt F)) :
    after opsC W (main_arg5 : DevRef τ sig) = W (main_arg5 : DevRef τ sig) := by
  simp only [after_cons, after_nil]
  rfl

theorem keepC_arg6 (W : Valuation τ sig (Elt F)) :
    after opsC W (main_arg6 : DevRef τ sig) = W (main_arg6 : DevRef τ sig) := by
  simp only [after_cons, after_nil]
  rfl

theorem keepC_arg7 (W : Valuation τ sig (Elt F)) :
    after opsC W (main_arg7 : DevRef τ sig) = W (main_arg7 : DevRef τ sig) := by
  simp only [after_cons, after_nil]
  rfl

theorem keepC_arg8 (W : Valuation τ sig (Elt F)) :
    after opsC W (main_arg8 : DevRef τ sig) = W (main_arg8 : DevRef τ sig) := by
  simp only [after_cons, after_nil]
  rfl

theorem keepC_arg9 (W : Valuation τ sig (Elt F)) :
    after opsC W (main_arg9 : DevRef τ sig) = W (main_arg9 : DevRef τ sig) := by
  simp only [after_cons, after_nil]
  rfl

theorem keepC_arg10 (W : Valuation τ sig (Elt F)) :
    after opsC W (main_arg10 : DevRef τ sig) = W (main_arg10 : DevRef τ sig) := by
  simp only [after_cons, after_nil]
  rfl

theorem keepD_arg0 (W : Valuation τ sig (Elt F)) :
    after opsD W (main_arg0 : DevRef τ sig) = W (main_arg0 : DevRef τ sig) := by
  simp only [after_cons, after_nil]
  rfl

theorem keepD_arg1 (W : Valuation τ sig (Elt F)) :
    after opsD W (main_arg1 : DevRef τ sig) = W (main_arg1 : DevRef τ sig) := by
  simp only [after_cons, after_nil]
  rfl

theorem keepD_arg2 (W : Valuation τ sig (Elt F)) :
    after opsD W (main_arg2 : DevRef τ sig) = W (main_arg2 : DevRef τ sig) := by
  simp only [after_cons, after_nil]
  rfl

theorem keepD_arg3 (W : Valuation τ sig (Elt F)) :
    after opsD W (main_arg3 : DevRef τ sig) = W (main_arg3 : DevRef τ sig) := by
  simp only [after_cons, after_nil]
  rfl

theorem keepD_arg4 (W : Valuation τ sig (Elt F)) :
    after opsD W (main_arg4 : DevRef τ sig) = W (main_arg4 : DevRef τ sig) := by
  simp only [after_cons, after_nil]
  rfl

theorem keepD_arg5 (W : Valuation τ sig (Elt F)) :
    after opsD W (main_arg5 : DevRef τ sig) = W (main_arg5 : DevRef τ sig) := by
  simp only [after_cons, after_nil]
  rfl

theorem keepD_arg6 (W : Valuation τ sig (Elt F)) :
    after opsD W (main_arg6 : DevRef τ sig) = W (main_arg6 : DevRef τ sig) := by
  simp only [after_cons, after_nil]
  rfl

theorem keepD_arg7 (W : Valuation τ sig (Elt F)) :
    after opsD W (main_arg7 : DevRef τ sig) = W (main_arg7 : DevRef τ sig) := by
  simp only [after_cons, after_nil]
  rfl

theorem keepD_arg8 (W : Valuation τ sig (Elt F)) :
    after opsD W (main_arg8 : DevRef τ sig) = W (main_arg8 : DevRef τ sig) := by
  simp only [after_cons, after_nil]
  rfl

theorem keepD_arg9 (W : Valuation τ sig (Elt F)) :
    after opsD W (main_arg9 : DevRef τ sig) = W (main_arg9 : DevRef τ sig) := by
  simp only [after_cons, after_nil]
  rfl

theorem keepD_arg10 (W : Valuation τ sig (Elt F)) :
    after opsD W (main_arg10 : DevRef τ sig) = W (main_arg10 : DevRef τ sig) := by
  simp only [after_cons, after_nil]
  rfl

theorem keepE_arg0 (W : Valuation τ sig (Elt F)) :
    after opsE W (main_arg0 : DevRef τ sig) = W (main_arg0 : DevRef τ sig) := by
  simp only [after_cons, after_nil]
  rfl

theorem keepE_arg1 (W : Valuation τ sig (Elt F)) :
    after opsE W (main_arg1 : DevRef τ sig) = W (main_arg1 : DevRef τ sig) := by
  simp only [after_cons, after_nil]
  rfl

theorem keepE_arg2 (W : Valuation τ sig (Elt F)) :
    after opsE W (main_arg2 : DevRef τ sig) = W (main_arg2 : DevRef τ sig) := by
  simp only [after_cons, after_nil]
  rfl

theorem keepE_arg3 (W : Valuation τ sig (Elt F)) :
    after opsE W (main_arg3 : DevRef τ sig) = W (main_arg3 : DevRef τ sig) := by
  simp only [after_cons, after_nil]
  rfl

theorem keepE_arg4 (W : Valuation τ sig (Elt F)) :
    after opsE W (main_arg4 : DevRef τ sig) = W (main_arg4 : DevRef τ sig) := by
  simp only [after_cons, after_nil]
  rfl

theorem keepE_arg5 (W : Valuation τ sig (Elt F)) :
    after opsE W (main_arg5 : DevRef τ sig) = W (main_arg5 : DevRef τ sig) := by
  simp only [after_cons, after_nil]
  rfl

theorem keepE_arg6 (W : Valuation τ sig (Elt F)) :
    after opsE W (main_arg6 : DevRef τ sig) = W (main_arg6 : DevRef τ sig) := by
  simp only [after_cons, after_nil]
  rfl

theorem keepE_arg7 (W : Valuation τ sig (Elt F)) :
    after opsE W (main_arg7 : DevRef τ sig) = W (main_arg7 : DevRef τ sig) := by
  simp only [after_cons, after_nil]
  rfl

theorem keepE_arg8 (W : Valuation τ sig (Elt F)) :
    after opsE W (main_arg8 : DevRef τ sig) = W (main_arg8 : DevRef τ sig) := by
  simp only [after_cons, after_nil]
  rfl

theorem keepE_arg9 (W : Valuation τ sig (Elt F)) :
    after opsE W (main_arg9 : DevRef τ sig) = W (main_arg9 : DevRef τ sig) := by
  simp only [after_cons, after_nil]
  rfl

theorem keepE_arg10 (W : Valuation τ sig (Elt F)) :
    after opsE W (main_arg10 : DevRef τ sig) = W (main_arg10 : DevRef τ sig) := by
  simp only [after_cons, after_nil]
  rfl

theorem keepC_v28 (W : Valuation τ sig (Elt F)) :
    after opsC W (main_v28 : DevRef τ sig) = W (main_v28 : DevRef τ sig) := by
  simp only [after_cons, after_nil]
  rfl

/-! ## The whole line -/

/-- The fold at the result buffer is the staged terms composed. -/
theorem out_eq (W : Valuation τ sig (Elt F)) :
    after ops W (main_v78 : DevRef τ sig)
      = bnTerm (hostFeat (W (main_arg0 : DevRef τ sig)) (aggr (W (main_arg0 : DevRef τ sig)) (W (main_arg1 : DevRef τ sig))) (aggr (W (main_arg0 : DevRef τ sig)) (W (main_arg2 : DevRef τ sig)))
            (W (main_arg3 : DevRef τ sig)) (W (main_arg4 : DevRef τ sig)) (W (main_arg5 : DevRef τ sig)) (W (main_arg6 : DevRef τ sig)) (W (main_arg7 : DevRef τ sig)) (W (main_arg8 : DevRef τ sig)))
          (W (main_arg9 : DevRef τ sig)) (W (main_arg10 : DevRef τ sig)) := by
  rw [hostFeat_eq, after_ops, afterE, afterD, keepC_v28, afterB, afterC, afterA]
  rw [keepD_arg9, keepD_arg10,
    keepC_arg0, keepC_arg6, keepC_arg7, keepC_arg8, keepC_arg9, keepC_arg10,
    keepB_arg0, keepB_arg2, keepB_arg6, keepB_arg7, keepB_arg8, keepB_arg9, keepB_arg10,
    keepA_arg0, keepA_arg2, keepA_arg3, keepA_arg4, keepA_arg5, keepA_arg6, keepA_arg7, keepA_arg8, keepA_arg9, keepA_arg10]

theorem arg0_eq (W : Valuation τ sig (Elt F)) :
    after ops W (main_arg0 : DevRef τ sig) = W (main_arg0 : DevRef τ sig) := by
  rw [after_ops, keepE_arg0, keepD_arg0, keepC_arg0, keepB_arg0, keepA_arg0]

theorem arg1_eq (W : Valuation τ sig (Elt F)) :
    after ops W (main_arg1 : DevRef τ sig) = W (main_arg1 : DevRef τ sig) := by
  rw [after_ops, keepE_arg1, keepD_arg1, keepC_arg1, keepB_arg1, keepA_arg1]

theorem arg2_eq (W : Valuation τ sig (Elt F)) :
    after ops W (main_arg2 : DevRef τ sig) = W (main_arg2 : DevRef τ sig) := by
  rw [after_ops, keepE_arg2, keepD_arg2, keepC_arg2, keepB_arg2, keepA_arg2]

theorem arg3_eq (W : Valuation τ sig (Elt F)) :
    after ops W (main_arg3 : DevRef τ sig) = W (main_arg3 : DevRef τ sig) := by
  rw [after_ops, keepE_arg3, keepD_arg3, keepC_arg3, keepB_arg3, keepA_arg3]

theorem arg4_eq (W : Valuation τ sig (Elt F)) :
    after ops W (main_arg4 : DevRef τ sig) = W (main_arg4 : DevRef τ sig) := by
  rw [after_ops, keepE_arg4, keepD_arg4, keepC_arg4, keepB_arg4, keepA_arg4]

theorem arg5_eq (W : Valuation τ sig (Elt F)) :
    after ops W (main_arg5 : DevRef τ sig) = W (main_arg5 : DevRef τ sig) := by
  rw [after_ops, keepE_arg5, keepD_arg5, keepC_arg5, keepB_arg5, keepA_arg5]

theorem arg6_eq (W : Valuation τ sig (Elt F)) :
    after ops W (main_arg6 : DevRef τ sig) = W (main_arg6 : DevRef τ sig) := by
  rw [after_ops, keepE_arg6, keepD_arg6, keepC_arg6, keepB_arg6, keepA_arg6]

theorem arg7_eq (W : Valuation τ sig (Elt F)) :
    after ops W (main_arg7 : DevRef τ sig) = W (main_arg7 : DevRef τ sig) := by
  rw [after_ops, keepE_arg7, keepD_arg7, keepC_arg7, keepB_arg7, keepA_arg7]

theorem arg8_eq (W : Valuation τ sig (Elt F)) :
    after ops W (main_arg8 : DevRef τ sig) = W (main_arg8 : DevRef τ sig) := by
  rw [after_ops, keepE_arg8, keepD_arg8, keepC_arg8, keepB_arg8, keepA_arg8]

theorem arg9_eq (W : Valuation τ sig (Elt F)) :
    after ops W (main_arg9 : DevRef τ sig) = W (main_arg9 : DevRef τ sig) := by
  rw [after_ops, keepE_arg9, keepD_arg9, keepC_arg9, keepB_arg9, keepA_arg9]

theorem arg10_eq (W : Valuation τ sig (Elt F)) :
    after ops W (main_arg10 : DevRef τ sig) = W (main_arg10 : DevRef τ sig) := by
  rw [after_ops, keepE_arg10, keepD_arg10, keepC_arg10, keepB_arg10, keepA_arg10]

/-- At the compiled mesh, for any float values, from any memory with zero counters: every weakly fair execution of the
    reference terminates with its result at the staged terms composed, of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v78) = bnTerm (hostFeat (m ((c.tc : Thread nD τ).loc main_arg0)) (aggr (m ((c.tc : Thread nD τ).loc main_arg0)) (m ((c.tc : Thread nD τ).loc main_arg1))) (aggr (m ((c.tc : Thread nD τ).loc main_arg0)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v78).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_main m ρ)

end Cert.ReferenceIdeal.Hand

end
-- ==== Proof.RefReadOps.lean ====
/-
  The reference's host operations read at an index written by coordinates, on the extended reals: the matrix
  product as a sum over the contracted coordinate, the bias row broadcast to every node, the two signs' outputs
  side by side, the column sum over the nodes, the per-channel rows broadcast to every node, and the scalar
  choice between a quotient and a fill value.
-/
import proofs.«180272_j17540646437113_2_alg».proof.Proof.Gen.ReferenceIdeal
import proofs.«180272_j17540646437113_2_alg».proof.Proof.LibPlainDot
import proofs.«180272_j17540646437113_2_alg».proof.Proof.Spec
import proofs.«180272_j17540646437113_2_alg».proof.Proof.Consts
import Idealize.ShloMosaic.Lib.ValueIdx
import Idealize.ShloMosaic.Lib.IdealHost
import Idealize.ShloMosaic.Lib.Pipeline.Value
import Idealize.ShloMosaic.Lib.KernelVsHost
import Idealize.ShloMosaic.PureOps.Ideal.Laws

noncomputable section

namespace Cert.ReferenceIdeal.HandRead

open Idealize.ShloMosaic Idealize.ShloMosaic.ValueIdx Cert.ReferenceIdeal Cert.ReferenceIdeal.Gen
open scoped BigOperators

/-- The host's matrix product of a 50000 x 256 array with a 256 x 256 array, at node i and channel q. -/
theorem dot_apply (l : FVec Ideal S50000x256 .f32) (r : FVec Ideal S256x256 .f32) (i : Fin 50000) (q : Fin 256) :
    Host.dotGeneral (F := Ideal) dot_S50000x256_S256x256_S50000x256_1_0_0_1_n_n none l r (ix2 i q)
      = ∑ k : Fin 256, l (ix2 i k) * r (ix2 k q) :=
  PlainDot.dotGeneral_apply dot_S50000x256_S256x256_S50000x256_1_0_0_1_n_n rfl rfl rfl rfl rfl rfl rfl rfl none .single l r i q

section Layout
variable {α : Type}

/-- A vector [n] laid out as the one row of a [1, n] array reads, at (u, t), the vector at t. -/
theorem oneRow_apply {n : Nat} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) ?_
  intro a
  match a with
  | ⟨0, _⟩ =>
    show t.val = if n = 1 then 0 else t.val
    split
    · have := t.isLt; omega
    · rfl

/-- A vector [n] laid out as a row and repeated for each of m rows reads, at (r, t), the vector at t. -/
theorem rowBroadcast_apply {m n : Nat} (h1 : (⟨1, ![n]⟩ : Shape).BroadcastsInDim ⟨2, ![1, n]⟩ ![1])
    (h2 : (⟨2, ![1, n]⟩ : Shape).BroadcastsInDim ⟨2, ![m, n]⟩ ![0, 1])
    (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) :=
  (broadcastInDim_oneRow_apply h2 _ r t).trans (oneRow_apply h1 x 0 t)

/-- Two [m, a] and [m, b] arrays side by side, read in the left part. -/
theorem sideBySide_left {m a b : Nat} (x₁ : (⟨2, ![m, a]⟩ : Shape).Idx → α) (x₂ : (⟨2, ![m, b]⟩ : Shape).Idx → α)
    (h : Shape.Concatenates [⟨2, ![m, a]⟩, ⟨2, ![m, b]⟩] ⟨2, ![m, a + b]⟩ 1) (p : Fin m) (j : Fin (a + b)) (hj : j.val < a) :
    concatenate ⟨2, ![m, a + b]⟩ 1 [⟨⟨2, ![m, a]⟩, x₁⟩, ⟨⟨2, ![m, b]⟩, x₂⟩] h (ix2 p j) = x₁ (ix2 p ⟨j.val, hj⟩) := by
  refine concatenate_pair_apply_left 1 x₁ x₂ h (ix2 p j) rfl (ix2 p ⟨j.val, hj⟩) ?_
  intro c
  match c with
  | ⟨0, _⟩ => rfl
  | ⟨1, _⟩ => rfl

/-- Two [m, a] and [m, b] arrays side by side, read in the right part. -/
theorem sideBySide_right {m a b : Nat} (x₁ : (⟨2, ![m, a]⟩ : Shape).Idx → α) (x₂ : (⟨2, ![m, b]⟩ : Shape).Idx → α)
    (h : Shape.Concatenates [⟨2, ![m, a]⟩, ⟨2, ![m, b]⟩] ⟨2, ![m, a + b]⟩ 1) (p : Fin m) (j : Fin (a + b)) (hj : ¬ j.val < a) :
    concatenate ⟨2, ![m, a + b]⟩ 1 [⟨⟨2, ![m, a]⟩, x₁⟩, ⟨⟨2, ![m, b]⟩, x₂⟩] h (ix2 p j)
      = x₂ (ix2 p ⟨j.val - a, by have := j.isLt; omega⟩) := by
  refine concatenate_pair_apply_right 1 x₁ x₂ h (ix2 p j) rfl rfl (ix2 p ⟨j.val - a, by have := j.isLt; omega⟩) ?_ ?_
  · intro c hc
    match c with
    | ⟨0, _⟩ => rfl
    | ⟨1, _⟩ => exact absurd rfl hc
  · show j.val - a + a = j.val
    omega

end Layout

/-- The host's sum over the nodes of a 50000 x 512 array, at channel j: the initial value plus the column's sum. -/
theorem colSum_apply (x : FVec Ideal S50000x512 .f32) (init : FVec Ideal S_ .f32)
    (h' : S50000x512.ReducesTo [0] S512) (hu : 0 < S_.numel) (j : Fin 512) :
    Host.reduceAdd (F := Ideal) x init h' hu (ix1 j) = init ix0 + ∑ i : Fin 50000, x (ix2 i j) := by
  have h : S50000x512.Reduces [0] S512 := by decide
  have e : init (Shape.Idx.first hu) = init ix0 := congrArg init (eq_ix0 _)
  refine ((hostReduceAdd_apply x init h' hu (ix1 j)).trans (Ideal.hostReduceAdd_single h' h x _ (ix1 j))).trans ?_
  rw [e]
  refine congrArg (init ix0 + ·) ?_
  exact Finset.sum_congr rfl fun i _ => congrArg x (funext fun d => Fin.ext (by match d with | ⟨0, _⟩ => rfl | ⟨1, _⟩ => rfl))

/-- A choice steered by one broadcast bit: every entry takes the same branch. -/
theorem select_scalar_apply {α : Type} {n : Nat} (h : S_.BroadcastsInDim ⟨1, ![n]⟩ ![]) (p : IVec S_ 1)
    (a b : (⟨1, ![n]⟩ : Shape).Idx → α) (j : Fin n) :
    select (broadcastInDim ⟨1, ![n]⟩ ![] h p) a b (ix1 j) = Scalar.select (p ix0) (a (ix1 j)) (b (ix1 j)) := by
  rw [select_apply, broadcastInDim_scalar_apply]

/-- Two 50000 x 256 arrays side by side, read at a channel below 256: the left array. -/
theorem concat_left (x₁ x₂ : FVec Ideal S50000x256 .f32)
    (h : Shape.Concatenates [S50000x256, S50000x256] S50000x512 1) (p : Fin 50000) (j : Fin 512) (hj : j.val < 256) :
    concatenate S50000x512 1 [⟨S50000x256, x₁⟩, ⟨S50000x256, x₂⟩] h (ix2 p j) = x₁ (ix2 p ⟨j.val, hj⟩) :=
  sideBySide_left (m := 50000) (a := 256) (b := 256) x₁ x₂ h p j hj

/-- Two 50000 x 256 arrays side by side, read at a channel from 256 on: the right array, 256 channels back. -/
theorem concat_right (x₁ x₂ : FVec Ideal S50000x256 .f32)
    (h : Shape.Concatenates [S50000x256, S50000x256] S50000x512 1) (p : Fin 50000) (j : Fin 512) (hj : ¬ j.val < 256) :
    concatenate S50000x512 1 [⟨S50000x256, x₁⟩, ⟨S50000x256, x₂⟩] h (ix2 p j)
      = x₂ (ix2 p ⟨j.val - 256, by have := j.isLt; omega⟩) :=
  sideBySide_right (m := 50000) (a := 256) (b := 256) x₁ x₂ h p j hj

/-- The variance's divisor: fifty thousand less the (zero) correction, which is fifty thousand. -/
theorem divisor_eq :
    (Ideal.ofBits .f32 0x47435000#32 : EReal) - (((0#32 : BitVec 32).toInt : ℝ) : EReal) = Cert.SGC.cN := by
  simp [Cert.SGC.cN]

/-- Fifty thousand is above zero, so the comparison's bit is set. -/
theorem cmp_divisor : Ideal.cmp .ogt Cert.SGC.cN (Ideal.ofBits .f32 0x00000000#32) = 1#1 := by
  have h : (0 : EReal) < ((50000 : ℝ) : EReal) := by exact_mod_cast (by norm_num : (0 : ℝ) < 50000)
  rw [Cert.SGC.cN_eq, Ideal.ofBits_zero_f32]
  unfold Ideal.cmp
  simp [h]

/-- The host's inverse square root at an index. -/
theorem hostRsqrt_apply {s : Shape} {φ : FTy} (a : FVec Ideal s φ) (i : s.Idx) :
    Host.rsqrt a i = Ideal.rsqrt (a i) := rfl

/-- An integer converted to a float is, on the extended reals, the integer read signed. -/
theorem sitofp_ideal {s : Shape} {φ : FTy} {w : Nat} (x : IVec s w) (i : s.Idx) :
    (sitofp φ x : FVec Ideal s φ) i = (((x i).toInt : ℝ) : EReal) := rfl

/-- The variance's divisor as the reference spells it — the constant fifty thousand less the converted integer
    zero — is fifty thousand. -/
theorem divisor_read :
    subf (constant (F := Ideal) S_ .f32 0x47435000#32) (sitofp .f32 (constantI S_ 32 0#32)) ix0 = Cert.SGC.cN :=
  divisor_eq

/-- The test "divisor above zero" as the reference spells it has its bit set. -/
theorem test_read :
    cmpf .ogt (subf (constant (F := Ideal) S_ .f32 0x47435000#32) (sitofp .f32 (constantI S_ 32 0#32)))
      (constant (F := Ideal) S_ .f32 0x00000000#32) ix0 = 1#1 := by
  show Ideal.cmp .ogt (subf (constant (F := Ideal) S_ .f32 0x47435000#32) (sitofp .f32 (constantI S_ 32 0#32)) ix0)
      (Ideal.ofBits .f32 0x00000000#32) = 1#1
  rw [divisor_read]
  exact cmp_divisor

end Cert.ReferenceIdeal.HandRead

end
-- ==== Proof.RefRead.lean ====
/-
  The reference's result read index by index: its 512 channels per node are the specification's features, and its
  batch normalisation with the textbook statistics is the specification's normalised output.
-/
import proofs.«180272_j17540646437113_2_alg».proof.Proof.RefTerm
import proofs.«180272_j17540646437113_2_alg».proof.Proof.RefReadOps

noncomputable section

namespace Cert.ReferenceIdeal.HandRead

open Idealize.ShloMosaic Idealize.ShloMosaic.ValueIdx Cert.ReferenceIdeal Cert.ReferenceIdeal.Gen
open scoped BigOperators

/-- The reference's 512 channels of every node are the specification's features. -/
theorem hostFeat_eq (x ap an : Vec Ideal S50000x256 .f32) (Wpl Wpr : Vec Ideal S256x256 .f32) (bp : Vec Ideal S256 .f32)
    (Wnl Wnr : Vec Ideal S256x256 .f32) (bn : Vec Ideal S256 .f32) :
    Hand.hostFeat (F := Ideal) x ap an Wpl Wpr bp Wnl Wnr bn
      = Cert.SGC.toMat (Cert.SGC.feat x ap an Wpl Wpr bp Wnl Wnr bn) := by
  funext idx
  obtain ⟨i, j, rfl⟩ : ∃ (i : Fin 50000) (j : Fin 512), idx = ix2 i j := ⟨idx 0, idx 1, eq_ix2 idx⟩
  show _ = Cert.SGC.feat x ap an Wpl Wpr bp Wnl Wnr bn i j
  unfold Hand.hostFeat Cert.SGC.feat
  by_cases hj : j.val < 256
  · rw [dif_pos hj]
    refine (concat_left _ _ _ i j hj).trans ?_
    rw [addf_apply, addf_apply, dot_apply, dot_apply, rowBroadcast_apply]
    rfl
  · rw [dif_neg hj]
    refine (concat_right _ _ _ i j hj).trans ?_
    rw [addf_apply, addf_apply, dot_apply, dot_apply, rowBroadcast_apply]
    rfl

/-- The mean of channel j over the nodes of a 50000 x 512 array, as the reference takes it. -/
def colMean (h : FVec Ideal S50000x512 .f32) (j : Fin 512) : EReal :=
  Ideal.div (Cert.SGC.c0 + ∑ r : Fin 50000, h (ix2 r j)) Cert.SGC.cN

/-- The biased variance of channel j over the nodes, about that mean. -/
def colVar (h : FVec Ideal S50000x512 .f32) (j : Fin 512) : EReal :=
  Ideal.div (Cert.SGC.c0 + ∑ r : Fin 50000, (h (ix2 r j) - colMean h j) * (h (ix2 r j) - colMean h j)) Cert.SGC.cN

/-- The channel mean the variance is taken about — the column sum kept as one row, divided by fifty thousand and
    repeated for every node — at node r and channel j. -/
theorem keepMean_read (h : FVec Ideal S50000x512 .f32) (r : Fin 50000) (j : Fin 512) :
    broadcastInDim S50000x512 ![0, 1] bcast_S1x512_S50000x512_0_1
        (Host.divf (broadcastInDim S1x512 ![1] bcast_S512_S1x512_1
            (Host.reduceAdd (F := Ideal) h (constant S_ .f32 0x00000000#32) reducesTo_S50000x512_S512_d0 h_S_))
          (broadcastInDim S1x512 ![] bcast_S_S1x512 (constant S_ .f32 0x47435000#32))) (ix2 r j)
      = colMean h j := by
  rw [broadcastInDim_oneRow_apply, hostDivf_apply, oneRow_apply, broadcastInDim_scalar_apply, colSum_apply]
  rfl

/-- The same as an equation between arrays: every node carries its channel's mean. -/
theorem keepMean_eq (h : FVec Ideal S50000x512 .f32) :
    broadcastInDim S50000x512 ![0, 1] bcast_S1x512_S50000x512_0_1
        (Host.divf (broadcastInDim S1x512 ![1] bcast_S512_S1x512_1
            (Host.reduceAdd (F := Ideal) h (constant S_ .f32 0x00000000#32) reducesTo_S50000x512_S512_d0 h_S_))
          (broadcastInDim S1x512 ![] bcast_S_S1x512 (constant S_ .f32 0x47435000#32)))
      = fun idx => colMean h (idx 1) := by
  funext idx
  obtain ⟨r, j, rfl⟩ : ∃ (r : Fin 50000) (j : Fin 512), idx = ix2 r j := ⟨idx 0, idx 1, eq_ix2 idx⟩
  exact keepMean_read h r j

/-- The reference's batch normalisation at node i and channel j, over any 50000 x 512 array. -/
theorem bnTerm_read (h : FVec Ideal S50000x512 .f32) (γ β : FVec Ideal S512 .f32) (i : Fin 50000) (j : Fin 512) :
    Hand.bnTerm (F := Ideal) h γ β (ix2 i j)
      = max ((((h (ix2 i j) - colMean h j) * Ideal.rsqrt (colVar h j + Cert.SGC.cEps)) * γ (ix1 j)) + β (ix1 j))
          Cert.SGC.c0 := by
  unfold Hand.bnTerm
  simp only [maximumf_apply, addf_apply, mulf_apply, subf_apply]
  rw [keepMean_eq h]
  rw [rowBroadcast_apply, rowBroadcast_apply, rowBroadcast_apply, rowBroadcast_apply, broadcastInDim_scalar_apply]
  rw [hostRsqrt_apply, hostDivf_apply, addf_apply, select_scalar_apply, test_read, select_one]
  rw [hostDivf_apply, colSum_apply, colSum_apply]
  rw [broadcastInDim_scalar_apply, broadcastInDim_scalar_apply, broadcastInDim_scalar_apply, divisor_read]
  simp only [constant_apply, mulf_apply, subf_apply]
  rfl

/-- On an array given by a two-index function, the reference's channel mean is the textbook mean. -/
theorem colMean_toMat (f : Fin 50000 → Fin 512 → EReal) (j : Fin 512) :
    colMean (Cert.SGC.toMat f) j = Cert.SGC.meanR f j := rfl

/-- On an array given by a two-index function, the reference's channel variance is the textbook variance. -/
theorem colVar_toMat (f : Fin 50000 → Fin 512 → EReal) (j : Fin 512) :
    colVar (Cert.SGC.toMat f) j = Cert.SGC.varR f j := by
  unfold colVar Cert.SGC.varR
  simp only [colMean_toMat]
  rfl

/-- The reference's batch normalisation of the features is the specification's output with the textbook
    statistics. -/
theorem bnTerm_eq (f : Fin 50000 → Fin 512 → EReal) (γ β : Vec Ideal S512 .f32) :
    Hand.bnTerm (F := Ideal) (Cert.SGC.toMat f) γ β = Cert.SGC.toMat (Cert.SGC.outR f γ β) := by
  funext idx
  obtain ⟨i, j, rfl⟩ : ∃ (i : Fin 50000) (j : Fin 512), idx = ix2 i j := ⟨idx 0, idx 1, eq_ix2 idx⟩
  rw [bnTerm_read, colMean_toMat, colVar_toMat]
  rfl

end Cert.ReferenceIdeal.HandRead

end
-- ==== Proof.Bridge.lean ====
/-
  The two programs compute one function.

  At the exact instance the tiled program ends with its result at the normalised features taken with the tiled
  statistics, and the reference with its result at the normalised features taken with the textbook statistics; the
  features are the same function of the arguments on both sides (the same aggregation, the same two matrix products per
  sign as sums over the 256 input channels, the same bias, the same side-by-side layout).  Under the precondition every
  feature is a real number — the inputs are, and sums, products and the mean's quotient keep them so — and for real
  features the two ways of taking the statistics agree.  So from memories that agree on the arguments the two results
  are equal, entry by entry.
-/
import proofs.«180272_j17540646437113_2_alg».proof.Defs
import proofs.«180272_j17540646437113_2_alg».proof.Proof.Gen.KernelIdeal
import proofs.«180272_j17540646437113_2_alg».proof.Proof.Gen.ReferenceIdeal
import proofs.«180272_j17540646437113_2_alg».proof.Proof.Gen.Pre_finite_inputs
import proofs.«180272_j17540646437113_2_alg».proof.Proof.Spec
import proofs.«180272_j17540646437113_2_alg».proof.Proof.Analysis
import proofs.«180272_j17540646437113_2_alg».proof.Proof.Finite
import proofs.«180272_j17540646437113_2_alg».proof.Proof.AggrReal
import proofs.«180272_j17540646437113_2_alg».proof.Proof.AggrEq
import proofs.«180272_j17540646437113_2_alg».proof.Proof.KernelRun
import proofs.«180272_j17540646437113_2_alg».proof.Proof.KernelHost
import proofs.«180272_j17540646437113_2_alg».proof.Proof.RegionVal0
import proofs.«180272_j17540646437113_2_alg».proof.Proof.RegionVal1
import proofs.«180272_j17540646437113_2_alg».proof.Proof.RefRun
import proofs.«180272_j17540646437113_2_alg».proof.Proof.RefRead

noncomputable section

namespace Cert.SGC

open Idealize.ShloMosaic Idealize.ShloMosaic.TcCoe Idealize.SL.Sem

/-- The features the tiled program computes from a launch memory, on one device. -/
def featK (m : (ℓ : Loc Cert.KernelIdeal.nD Cert.KernelIdeal.τ Cert.KernelIdeal.sig) → Buf (Elt Ideal) ℓ)
    (c : Dev Cert.KernelIdeal.nD) : Fin 50000 → Fin 512 → EReal :=
  open Cert.KernelIdeal in
  feat (m ((c.tc : Thread nD τ).loc main_arg0))
    (Hand.aggr (F := Ideal) (m ((c.tc : Thread nD τ).loc main_arg0)) (m ((c.tc : Thread nD τ).loc main_arg1)))
    (Hand.aggr (F := Ideal) (m ((c.tc : Thread nD τ).loc main_arg0)) (m ((c.tc : Thread nD τ).loc main_arg2)))
    (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

open Cert.KernelIdeal in
/-- Under the precondition every feature is a real number. -/
theorem featK_real (m : (ℓ : Loc nD τ sig) → Buf (Elt Ideal) ℓ) (hpre : Cert.Pre_KernelIdeal m) (c : Dev nD)
    (i : Fin 50000) (j : Fin 512) : ∃ r : ℝ, featK m c i j = (r : EReal) := by
  obtain ⟨hx, hWpl, hWpr, hbp, hWnl, hWnr, hbn⟩ := pre_real (hpre c)
  unfold featK
  rw [aggr_eq, aggr_eq]
  exact feat_real hx (aggr_real _ _ hx) (aggr_real _ _ hx) hWpl hWpr hbp hWnl hWnr hbn i j

open Cert.KernelIdeal in
/-- The tiled program's run: its result is the normalised features with the tiled statistics. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v66) = toMat (outK (featK m c) (m ((c.tc : Thread nD τ).loc main_arg9)) (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono
    (fun _ h c => ⟨(h c).1.trans (Hand.result_eq HandVal.arr0_9 HandVal.arr0_10 HandVal.arr0_11 HandVal.arr1_5 m ρ c), (h c).2⟩)
    (Hand.run_val (F := Ideal) m ρ)

/-- From memories agreeing on the arguments, under the precondition, both programs end with equal results. -/
theorem algebraic : Cert.algebraic_KernelIdeal_ReferenceIdeal := by
  intro m ρ m' ρ' hpre hagree
  refine ⟨fun c => toMat (outK (featK m c) _ _), kernel_run m ρ, ?_⟩
  refine (θ_run Cert.ReferenceIdeal.defs _ _).mono (fun _ h c => ⟨(h c).1.trans ?_, (h c).2⟩)
    (Cert.ReferenceIdeal.Hand.run (F := Ideal) m' ρ')
  obtain ⟨a0, a1, a2, a3, a4, a5, a6, a7, a8, a9, a10⟩ := hagree c
  rw [a0, a1, a2, a3, a4, a5, a6, a7, a8, a9, a10, Cert.ReferenceIdeal.HandRead.hostFeat_eq,
    Cert.ReferenceIdeal.HandRead.bnTerm_eq, ← aggr_eq, ← aggr_eq]
  exact congrArg toMat (outK_eq_outR _ (featK_real m hpre c) _ _).symm

end Cert.SGC

end
-- ==== Proof.lean ====
/-
  The certificate of the signed graph-convolution block: a tiled program (two tiled regions among host operations)
  against its plain reference.

  The three frames: the two tiled programs run, fault-free, and leave their arguments as launched (the generated
  frame certificates); the reference's frame is its run with the result dropped.  The idealization rewrote nothing, so
  there is nothing to preserve.  The value claim is the module on the two programs' common function: equal results
  from memories that agree on the arguments, under finite inputs.
-/
import proofs.«180272_j17540646437113_2_alg».proof.Defs
import proofs.«180272_j17540646437113_2_alg».proof.Proof.Bridge
import proofs.«180272_j17540646437113_2_alg».proof.Proof.Gen.Kernel
import proofs.«180272_j17540646437113_2_alg».proof.Proof.Gen.Kernel.Frame
import proofs.«180272_j17540646437113_2_alg».proof.Proof.Gen.KernelIdeal
import proofs.«180272_j17540646437113_2_alg».proof.Proof.Gen.KernelIdeal.Frame
import proofs.«180272_j17540646437113_2_alg».proof.Proof.Gen.ReferenceIdeal
import proofs.«180272_j17540646437113_2_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Hand.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.SGC.algebraic⟩

end Cert.Proof

end
